-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v121) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x96 : Shape := ⟨2, ![50000, 96]⟩
abbrev S2x800000 : Shape := ⟨2, ![2, 800000]⟩
abbrev S96x128 : Shape := ⟨2, ![96, 128]⟩
abbrev S128 : Shape := ⟨1, ![128]⟩
abbrev S128x128 : Shape := ⟨2, ![128, 128]⟩
abbrev S256x128 : Shape := ⟨2, ![256, 128]⟩
abbrev S128x1 : Shape := ⟨2, ![128, 1]⟩
abbrev S1 : Shape := ⟨1, ![1]⟩
abbrev S_ : Shape := ⟨0, ![]⟩

class Facts : Prop where
  bcast_S_S50000x96 : S_.BroadcastsInDim S50000x96 (![] : Fin 0 → Fin S50000x96.rank)
  reducesTo_S50000x96_S_d0_1 : S50000x96.ReducesTo [0, 1] S_
  h_S_ : 0 < S_.numel
  bcast_S_S96x128 : S_.BroadcastsInDim S96x128 (![] : Fin 0 → Fin S96x128.rank)
  reducesTo_S96x128_S_d0_1 : S96x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S256x128 : S_.BroadcastsInDim S256x128 (![] : Fin 0 → Fin S256x128.rank)
  reducesTo_S256x128_S_d0_1 : S256x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg8 : FVec F S256x128 .f32) (main_arg9 : FVec F S128 .f32) (main_arg10 : FVec F S128x1 .f32) (main_arg11 : FVec F S1 .f32) (main_v33 : IVec S_ 1) : IVec S_ 1 :=
  let main_v34 : FVec F S256x128 .f32 := Host.absf main_arg8
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x1 .f32 := Host.absf main_arg10
  let main_cst_16 : FVec F S_ .f32 := constant S_ .f32 0x7F800000#32
  let main_v45 : FVec F S128x1 .f32 := broadcastInDim S128x1 ![] bcast_S_S128x1 main_cst_16
  let main_v46 : IVec S128x1 1 := cmpf .olt main_v44 main_v45
  let main_c_17 : IVec S_ 1 := constantI S_ 1 1#1
  let main_v47 : IVec S_ 1 := (fun x v => Host.reduce IntOp.andi x v reducesTo_S128x1_S_d0_1 h_S_) main_v46 main_c_17
  let main_v48 : IVec S_ 1 := andi main_v43 main_v47
  let main_v49 : FVec F S1 .f32 := Host.absf main_arg11
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg5 : FVec F S128 .f32) (main_arg6 : FVec F S128x128 .f32) (main_arg7 : FVec F S128 .f32) (main_arg8 : FVec F S256x128 .f32) (main_arg9 : FVec F S128 .f32) (main_arg10 : FVec F S128x1 .f32) (main_arg11 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x96 .f32) (main_arg1 : IVec S2x800000 32) (main_arg2 : FVec F S96x128 .f32) (main_arg3 : FVec F S128 .f32) (main_arg4 : FVec F S128x128 .f32) (main_arg5 : FVec F S128 .f32) (main_arg6 : FVec F S128x128 .f32) (main_arg7 : FVec F S128 .f32) (main_arg8 : FVec F S256x128 .f32) (main_arg9 : FVec F S128 .f32) (main_arg10 : FVec F S128x1 .f32) (main_arg11 : FVec F S1 .f32) : IVec S_ 1 :=
  let main_v0 : FVec F S50000x96 .f32 := Host.absf main_arg0
  let main_cst : FVec F S_ .f32 := constant S_ .f32 0x7F800000#32
  let main_v1 : FVec F S50000x96 .f32 := broadcastInDim S50000x96 ![] bcast_S_S50000x96 main_cst
  let main_v2 : IVec S50000x96 1 := cmpf .olt main_v0 main_v1
  let main_c : IVec S_ 1 := constantI S_ 1 1#1
  let main_v3 : IVec S_ 1 := (fun x v => Host.reduce IntOp.andi x v reducesTo_S50000x96_S_d0_1 h_S_) main_v2 main_c
  let main_v4 : FVec F S96x128 .f32 := Host.absf main_arg2
  let main_cst_0 : FVec F S_ .f32 := constant S_ .f32 0x7F800000#32
  let main_v5 : FVec F S96x128 .f32 := broadcastInDim S96x128 ![] bcast_S_S96x128 main_cst_0
  let main_v6 : IVec S96x128 1 := cmpf .olt main_v4 main_v5
  let main_c_1 : IVec S_ 1 := constantI S_ 1 1#1
  let main_v7 : IVec S_ 1 := (fun x v => Host.reduce IntOp.andi x v reducesTo_S96x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_v13 main_v16
-- ==== Kernel.lean ====
abbrev S50000x96 : Shape := ⟨2, ![50000, 96]⟩
abbrev S2x800000 : Shape := ⟨2, ![2, 800000]⟩
abbrev S96x128 : Shape := ⟨2, ![96, 128]⟩
abbrev S128 : Shape := ⟨1, ![128]⟩
abbrev S128x128 : Shape := ⟨2, ![128, 128]⟩
abbrev S256x128 : Shape := ⟨2, ![256, 128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S50000x128 : Shape := ⟨2, ![50000, 128]⟩
abbrev S5000x96 : Shape := ⟨2, ![5000, 96]⟩
abbrev S5000x128 : Shape := ⟨2, ![5000, 128]⟩
abbrev S1x128 : Shape := ⟨2, ![1, 128]⟩
abbrev S5000x1 : Shape := ⟨2, ![5000, 1]⟩
abbrev S850000x128 : Shape := ⟨2, ![850000, 128]⟩
abbrev S800000x1 : Shape := ⟨2, ![800000, 1]⟩
abbrev S800000x128 : Shape := ⟨2, ![800000, 128]⟩
abbrev S8000x128 : Shape := ⟨2, ![8000, 128]⟩
abbrev S8000x1 : Shape := ⟨2, ![8000, 1]⟩
abbrev S1x1 : Shape := ⟨2, ![1, 1]⟩

abbrev nBuf : Space → Nat
  | .hbm => 89
  | .vmem => 45
  | .smem => 0
  | _ => 0

abbrev bufTy : (tb : Table) → Fin (tcTables nBuf tb) → BufTy
  | .hbm, ⟨0, _⟩ => ⟨S50000x96, .f32⟩
  | .hbm, ⟨1, _⟩ => ⟨S2x800000, .i32⟩
  | .hbm, ⟨2, _⟩ => ⟨S96x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S256x128, .f32⟩
  | .hbm, ⟨9, _⟩ => ⟨S128, .f32⟩
  | .hbm, ⟨10, _⟩ => ⟨S128x1, .f32⟩
  | .hbm, ⟨11, _⟩ => ⟨S1, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S50000, .i32⟩
  | .hbm, ⟨17, _⟩ => ⟨S850000, .i32⟩
  | .hbm, ⟨18, _⟩ => ⟨S850000, .i32⟩
  | .hbm, ⟨19, _⟩ => ⟨S_, .f32⟩
  | .hbm, ⟨20, _⟩ => ⟨S850000, .f32⟩
  | .hbm, ⟨21, _⟩ => ⟨S_, .f32⟩
  | .hbm, ⟨22, _⟩ => ⟨S50000, .f32⟩
  | .hbm, ⟨23, _⟩ => ⟨S850000x1, .i32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .i1⟩
  | .hbm, ⟨28, _⟩ => ⟨S50000, .f32⟩
  | .hbm, ⟨29, _⟩ => ⟨S_, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S50000x1, .f32⟩
  | .hbm, ⟨34, _⟩ => ⟨S50000x128, .bf16⟩
  | .hbm, ⟨35, _⟩ => ⟨S50000x128, .bf16⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000x128, .bf16⟩
  | .hbm, ⟨45, _⟩ => ⟨S850000x128, .f32⟩
  | .hbm, ⟨46, _⟩ => ⟨S_, .f32⟩
  | .hbm, ⟨47, _⟩ => ⟨S50000x128, .f32⟩
  | .hbm, ⟨48, _⟩ => ⟨S850000x1, .i32⟩
  | .hbm, ⟨49, _⟩ => ⟨S50000x128, .f32⟩
  | .hbm, ⟨50, _⟩ => ⟨S50000x128, .bf16⟩
  | .hbm, ⟨51, _⟩ => ⟨S50000x128, .bf16⟩
  | .hbm, ⟨52, _⟩ => ⟨S_, .i32⟩
  | .hbm, ⟨53, _⟩ => ⟨S850000, .i32⟩
  | .hbm, ⟨54, _⟩ => ⟨S850000, .i1⟩
  | .hbm, ⟨55, _⟩ => ⟨S_, .i32⟩
  | .hbm, ⟨56, _⟩ => ⟨S850000, .i32⟩
  | .hbm, ⟨57, _⟩ => ⟨S850000, .i32⟩
  | .hbm, ⟨58, _⟩ => ⟨S850000, .i32⟩
  | .hbm, ⟨59, _⟩ => ⟨S850000x1, .i32⟩
  | .hbm, ⟨60, _⟩ => ⟨S850000x128, .bf16⟩
  | .hbm, ⟨61, _⟩ => ⟨S850000x128, .f32⟩
  | .hbm, ⟨62, _⟩ => ⟨S_, .f32⟩
  | .hbm, ⟨63, _⟩ => ⟨S50000x128, .f32⟩
  | .hbm, ⟨64, _⟩ => ⟨S850000x1, .i32⟩
  | .hbm, ⟨65, _⟩ => ⟨S50000x128, .f32⟩
  | .hbm, ⟨66, _⟩ => ⟨S50000x128, .bf16⟩
  | .hbm, ⟨67, _⟩ => ⟨S_, .i32⟩
  | .hbm, ⟨68, _⟩ => ⟨S800000, .i32⟩
  | .hbm, ⟨69, _⟩ => ⟨S800000, .i1⟩
  | .hbm, ⟨70, _⟩ => ⟨S_, .i32⟩
  | .hbm, ⟨71, _⟩ => ⟨S800000, .i32⟩
  | .hbm, ⟨72, _⟩ => ⟨S800000, .i32⟩
  | .hbm, ⟨73, _⟩ => ⟨S800000, .i32⟩
  | .hbm, ⟨74, _⟩ => ⟨S800000x1, .i32⟩
  | .hbm, ⟨75, _⟩ => ⟨S800000x128, .bf16⟩
  | .hbm, ⟨76, _⟩ => ⟨S_, .i32⟩
  | .hbm, ⟨77, _⟩ => ⟨S800000, .i32⟩
  | .hbm, ⟨78, _⟩ => ⟨S800000, .i1⟩
  | .hbm, ⟨79, _⟩ => ⟨S_, .i32⟩
  | .hbm, ⟨80, _⟩ => ⟨S800000, .i32⟩
  | .hbm, ⟨81, _⟩ => ⟨S800000, .i32⟩
  | .hbm, ⟨82, _⟩ => ⟨S800000, .i32⟩
  | .hbm, ⟨83, _⟩ => ⟨S800000x1, .i32⟩
  | .hbm, ⟨84, _⟩ => ⟨S800000x128, .bf16⟩
  | .hbm, ⟨85, _⟩ => ⟨S128x128, .f32⟩
  | .hbm, ⟨86, _⟩ => ⟨S128x128, .f32⟩
  | .hbm, ⟨87, _⟩ => ⟨S800000x1, .f32⟩
  | .hbm, ⟨88, _⟩ => ⟨S800000, .f32⟩
  | .local _ .vmem, ⟨0, _⟩ => ⟨S5000x96, .f32⟩
  | .local _ .vmem, ⟨1, _⟩ => ⟨S5000x96, .f32⟩
  | .local _ .vmem, ⟨2, _⟩ => ⟨S96x128, .f32⟩
  | .local _ .vmem, ⟨3, _⟩ => ⟨S128, .f32⟩
  | .local _ .vmem, ⟨4, _⟩ => ⟨S5000x128, .bf16⟩
  | .local _ .vmem, ⟨5, _⟩ => ⟨S5000x128, .bf16⟩
  | .local _ .vmem, ⟨6, _⟩ => ⟨S5000x128, .bf16⟩
  | .local _ .vmem, ⟨7, _⟩ => ⟨S5000x128, .bf16⟩
  | .local _ .vmem, ⟨8, _⟩ => ⟨S128x128, .f32⟩
  | .local _ .vmem, ⟨9, _⟩ => ⟨S5000x1, .f32⟩
  | .local _ .vmem, ⟨10, _⟩ => ⟨S5000x1, .f32⟩
  | .local _ .vmem, ⟨11, _⟩ => ⟨S5000x128, .bf16⟩
  | .local _ .vmem, ⟨12, _⟩ => ⟨S5000x128, .bf16⟩
  | .local _ .vmem, ⟨13, _⟩ => ⟨S5000x128, .f32⟩
  | .local _ .vmem, ⟨14, _⟩ => ⟨S5000x128, .f32⟩
  | .local _ .vmem, ⟨15, _⟩ => ⟨S5000x1, .f32⟩
  | .local _ .vmem, ⟨16, _⟩ => ⟨S5000x1, .f32⟩
  | .local _ .vmem, ⟨17, _⟩ => ⟨S128, .f32⟩
  | .local _ .vmem, ⟨18, _⟩ => ⟨S5000x128, .bf16⟩
  | .local _ .vmem, ⟨19, _⟩ => ⟨S5000x128, .bf16⟩
  | .local _ .vmem, ⟨20, _⟩ => ⟨S5000x128, .bf16⟩
  | .local _ .vmem, ⟨21, _⟩ => ⟨S5000x128, .bf16⟩
  | .local _ .vmem, ⟨22, _⟩ => ⟨S128x128, .f32⟩
  | .local _ .vmem, ⟨23, _⟩ => ⟨S5000x1, .f32⟩
  | .local _ .vmem, ⟨24, _⟩ => ⟨S5000x1, .f32⟩
  | .local _ .vmem, ⟨25, _⟩ => ⟨S5000x128, .bf16⟩
  | .local _ .vmem, ⟨26, _⟩ => ⟨S5000x128, .bf16⟩
  | .local _ .vmem, ⟨27, _⟩ => ⟨S5000x128, .f32⟩
  | .local _ .vmem, ⟨28, _⟩ => ⟨S5000x128, .f32⟩
  | .local _ .vmem, ⟨29, _⟩ => ⟨S5000x1, .f32⟩
  | .local _ .vmem, ⟨30, _⟩ => ⟨S5000x1, .f32⟩
  | .local _ .vmem, ⟨31, _⟩ => ⟨S128, .f32⟩
  | .local _ .vmem, ⟨32, _⟩ => ⟨S5000x128, .bf16⟩
  | .local _ .vmem, ⟨33, _⟩ => ⟨S5000x128, .bf16⟩
  | .local _ .vmem, ⟨34, _⟩ => ⟨S8000x128, .bf16⟩
  | .local _ .vmem, ⟨35, _⟩ => ⟨S8000x128, .bf16⟩
  | .local _ .vmem, ⟨36, _⟩ => ⟨S8000x128, .bf16⟩
  | .local _ .vmem, ⟨37, _⟩ => ⟨S8000x128, .bf16⟩
  | .local _ .vmem, ⟨38, _⟩ => ⟨S128x128, .f32⟩
  | .local _ .vmem, ⟨39, _⟩ => ⟨S128x128, .f32⟩
  | .local _ .vmem, ⟨40, _⟩ => ⟨S128, .f32⟩
  | .local _ .vmem, ⟨41, _⟩ => ⟨S128x1, .f32⟩
  | .local _ .vmem, ⟨42, _⟩ => ⟨S1, .f32⟩
  | .local _ .vmem, ⟨43, _⟩ => ⟨S8000x1, .f32⟩
  | .local _ .vmem, ⟨44, _⟩ => ⟨S8000x1, .f32⟩
  | _, _ => ⟨S50000x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_c : Ref sig .tc := ⟨.hbm, 36, rfl⟩
abbrev main_v18 : Ref sig .tc := ⟨.hbm, 37, rfl⟩
abbrev main_v19 : Ref sig .tc := ⟨.hbm, 38, rfl⟩
abbrev main_c_3 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_4 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_5 : Ref sig .tc := ⟨.hbm, 52, rfl⟩
abbrev main_v31 : Ref sig .tc := ⟨.hbm, 53, rfl⟩
abbrev main_v32 : Ref sig .tc := ⟨.hbm, 54, rfl⟩
abbrev main_c_6 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_7 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_c_8 : Ref sig .tc := ⟨.hbm, 67, rfl⟩
abbrev main_v43 : Ref sig .tc := ⟨.hbm, 68, rfl⟩
abbrev main_v44 : Ref sig .tc := ⟨.hbm, 69, rfl⟩
abbrev main_c_9 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_c_10 : Ref sig .tc := ⟨.hbm, 76, rfl⟩
abbrev main_v50 : Ref sig .tc := ⟨.hbm, 77, rfl⟩
abbrev main_v51 : Ref sig .tc := ⟨.hbm, 78, rfl⟩
abbrev main_c_11 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg3_1 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg1_1 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg3_1 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg1_1 : Ref sig .tc := ⟨.vmem, 37, rfl⟩
abbrev cc5_stg2_0 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg5_0 : Ref sig .tc := ⟨.vmem, 41, rfl⟩
abbrev cc5_stg6_0 : Ref sig .tc := ⟨.vmem, 42, rfl⟩
abbrev cc5_stg7_0 : Ref sig .tc := ⟨.vmem, 43, rfl⟩
abbrev cc5_stg7_1 : Ref sig .tc := ⟨.vmem, 44, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem3_0 : DmaSem sig := 18
abbrev cc2_sem3_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem2_1 : DmaSem sig := 24
abbrev cc3_sem3_0 : DmaSem sig := 25
abbrev cc3_sem3_1 : DmaSem sig := 26
abbrev cc4_sem0_0 : DmaSem sig := 27
abbrev cc4_sem0_1 : DmaSem sig := 28
abbrev cc4_sem1_0 : DmaSem sig := 29
abbrev cc4_sem1_1 : DmaSem sig := 30
abbrev cc4_sem2_0 : DmaSem sig := 31
abbrev cc4_sem3_0 : DmaSem sig := 32
abbrev cc4_sem3_1 : DmaSem sig := 33
abbrev cc5_sem0_0 : DmaSem sig := 34
abbrev cc5_sem0_1 : DmaSem sig := 35
abbrev cc5_sem1_0 : DmaSem sig := 36
abbrev cc5_sem1_1 : DmaSem sig := 37
abbrev cc5_sem2_0 : DmaSem sig := 38
abbrev cc5_sem3_0 : DmaSem sig := 39
abbrev cc5_sem4_0 : DmaSem sig := 40
abbrev cc5_sem5_0 : DmaSem sig := 41
abbrev cc5_sem6_0 : DmaSem sig := 42
abbrev cc5_sem7_0 : DmaSem sig := 43
abbrev cc5_sem7_1 : DmaSem sig := 44

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S96x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S5000x128 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x128 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![100], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S8000x128 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S8000x128 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S128x1 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 2 → Memref sig .tc .vmem S8000x1 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S50000_S50000x1_0 : S50000.BroadcastsInDim S50000x1 (![0] : Fin 1 → Fin S50000x1.rank)
  inb_S5000x96_S5000x96_0_0 : ∀ a, (![0, 0] : Fin 2 → Nat) a + S5000x96.size a ≤ S5000x96.size a
  h_S5000x96 : 0 < S5000x96.numel
  bitsLt_bf16_f32 : FTy.bits .bf16 < FTy.bits .f32
  inb_S96x128_S96x128_0_0 : ∀ a, (![0, 0] : Fin 2 → Nat) a + S96x128.size a ≤ S96x128.size a
  h_S96x128 : 0 < S96x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  packedbf16_S5000x128_S5000x128_0_0 : (Rect.unit (s := S5000x128) ![0, 0] S5000x128.size inb_S5000x128_S5000x128_0_0).PackedRows (EltTy.packing .bf16)
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S50000x128 : S_.BroadcastsInDim S50000x128 (![] : Fin 0 → Fin S50000x128.rank)
  bcast_S_S800000 : S_.BroadcastsInDim S800000 (![] : Fin 0 → Fin S800000.rank)
  bcast_S800000_S800000x1_0 : S800000.BroadcastsInDim S800000x1 (![0] : Fin 1 → Fin S800000x1.rank)
  slices_S256x128_S128x128_0_0 : S256x128.Slices ![0, 0] S128x128
  slices_S256x128_S128x128_128_0 : S256x128.Slices ![128, 0] S128x128
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  shapeCasts_S128x128_S128x128 : S128x128.ShapeCasts S128x128
  broadcasts_S1x128_S8000x128 : S1x128.Broadcasts S8000x128
  inb_S128x1_S128x1_0_0 : ∀ a, (![0, 0] : Fin 2 → Nat) a + S128x1.size a ≤ S128x1.size a
  h_S128x1 : 0 < S128x1.numel
  inb_S1_S1_0 : ∀ a, (![0] : Fin 1 → Nat) a + S1.size a ≤ S1.size a
  h_S1 : 0 < S1.numel
  shapeCasts_S1_S1x1 : S1.ShapeCasts S1x1
  broadcasts_S1x1_S8000x1 : S1x1.Broadcasts S8000x1
  inb_S8000x1_S8000x1_0_0 : ∀ a, (![0, 0] : Fin 2 → Nat) a + S8000x1.size a ≤ S8000x1.size a
  h_S8000x1 : 0 < S8000x1.numel
  shapeCasts_S800000x1_S800000 : S800000x1.ShapeCasts S800000
  scatter_S50000_S850000x1_S850000_n_0_0_1_wf : ScatterDims.WF S50000 S850000x1 S850000 [] [0] [0] 1
  dot_S5000x96_S96x128_S5000x128_1_0_0_1_n_n_wf : DotDims.WF S5000x96 S96x128 S5000x128 [1] [0] [0] [1] [] []
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  gather_S50000x128_S800000x1_S800000x128_1_0_n_n_0_1_1128_wf : GatherDims.WF S50000x128 S800000x1 S800000x128 [1] [0] [] [0] [] 1 ![1, 128]
  dot_S8000x128_S128x128_S8000x128_1_0_0_1_n_n_wf : DotDims.WF S8000x128 S128x128 S8000x128 [1] [0] [0] [1] [] []
  dot_S8000x128_S128x1_S8000x1_1_0_0_1_n_n_wf : DotDims.WF S8000x128 S128x1 S8000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x96.size a ≤ S50000x96.size a
  hwx0_0 : ∀ i : grid0.Coords, EltTy.bits .f32 = 32 ∨ (Rect.block (s := S50000x96) S5000x96.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S96x128.size a ≤ S96x128.size a
  hwx0_1 : ∀ i : grid0.Coords, EltTy.bits .f32 = 32 ∨ (Rect.block (s := S96x128) S96x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .bf16 = 32 ∨ (Rect.block (s := S50000x128) S5000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .bf16 = 32 ∨ (Rect.block (s := S50000x128) S5000x128.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .bf16 = 32 ∨ (Rect.block (s := S50000x128) S5000x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128.size a ≤ S128.size a
  hwx2_2 : ∀ i : grid2.Coords, EltTy.bits .f32 = 32 ∨ (Rect.block (s := S128) S128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S50000x128.size a
  hwx2_3 : ∀ i : grid2.Coords, EltTy.bits .bf16 = 32 ∨ (Rect.block (s := S50000x128) S5000x128.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .bf16 = 32 ∨ (Rect.block (s := S50000x128) S5000x128.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S50000x1.size a
  hwx3_2 : ∀ i : grid3.Coords, EltTy.bits .f32 = 32 ∨ (Rect.block (s := S50000x1) S5000x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S50000x128.size a
  hwx3_3 : ∀ i : grid3.Coords, EltTy.bits .bf16 = 32 ∨ (Rect.block (s := S50000x128) S5000x128.size (cc3_transform_3 i) (hinb3_3 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S50000x1.size a
  hwx4_1 : ∀ i : grid4.Coords, EltTy.bits .f32 = 32 ∨ (Rect.block (s := S50000x1) S5000x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128.size a ≤ S128.size a
  hwx4_2 : ∀ i : grid4.Coords, EltTy.bits .f32 = 32 ∨ (Rect.block (s := S128) S128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x128.size a ≤ S50000x128.size a
  hwx4_3 : ∀ i : grid4.Coords, EltTy.bits .bf16 = 32 ∨ (Rect.block (s := S50000x128) S5000x128.size (cc4_transform_3 i) (hinb4_3 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S8000x128.size a ≤ S800000x128.size a
  hwx5_0 : ∀ i : grid5.Coords, EltTy.bits .bf16 = 32 ∨ (Rect.block (s := S800000x128) S8000x128.size (cc5_transform_0 i) (hinb5_0 i)).WholeWords (EltTy.packing .bf16)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S8000x128.size a ≤ S800000x128.size a
  hwx5_1 : ∀ i : grid5.Coords, EltTy.bits .bf16 = 32 ∨ (Rect.block (s := S800000x128) S8000x128.size (cc5_transform_1 i) (hinb5_1 i)).WholeWords (EltTy.packing .bf16)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .f32 = 32 ∨ (Rect.block (s := S128x128) S128x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x128.size a ≤ S128x128.size a
  hwx5_3 : ∀ i : grid5.Coords, EltTy.bits .f32 = 32 ∨ (Rect.block (s := S128x128) S128x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128.size a ≤ S128.size a
  hwx5_4 : ∀ i : grid5.Coords, EltTy.bits .f32 = 32 ∨ (Rect.block (s := S128) S128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S128x1.size a ≤ S128x1.size a
  hwx5_5 : ∀ i : grid5.Coords, EltTy.bits .f32 = 32 ∨ (Rect.block (s := S128x1) S128x1.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1.size a ≤ S1.size a
  hwx5_6 : ∀ i : grid5.Coords, EltTy.bits .f32 = 32 ∨ (Rect.block (s := S1) S1.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S8000x1.size a ≤ S800000x1.size a
  hwx5_7 : ∀ i : grid5.Coords, EltTy.bits .f32 = 32 ∨ (Rect.block (s := S800000x1) S8000x1.size (cc5_transform_7 i) (hinb5_7 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S5000x96_S96x128_S5000x128_1_0_0_1_n_n : DotDims S5000x96 S96x128 S5000x128 where
  lhsContracting := [1]
  rhsContracting := [0]
  lhsNonContracting := [0]
  rhsNonContracting := [1]
  lhsBatch := []
  rhsBatch := []
  wf := dot_S5000x96_S96x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def dot_S8000x128_S128x1_S8000x1_1_0_0_1_n_n : DotDims S8000x128 S128x1 S8000x1 where
  lhsContracting := [1]
  rhsContracting := [0]
  lhsNonContracting := [0]
  rhsNonContracting := [1]
  lhsBatch := []
  rhsBatch := []
  wf := dot_S8000x128_S128x1_S8000x1_1_0_0_1_n_n_wf

abbrev win0_0 : Pipeline.Window sig grid0 :=
  Pipeline.Window.ofSpec (Memref.whole main_arg0) S5000x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S96x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v16) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v17) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v28) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v29) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v29) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v15) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v30) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v41) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v15) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg7) S128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v42) S5000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v49) S8000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v56) S8000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v57) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v58) S128x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_arg9) S128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_arg10) S128x1.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_arg11) S1.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v59) S8000x1.size cc5_transform_7 reads5_7 true false 2 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

class Facts : Prop extends Facts₀ where

variable [Facts]
-- ==== ReferenceIdeal.lean ====
abbrev S50000x96 : Shape := ⟨2, ![50000, 96]⟩
abbrev S2x800000 : Shape := ⟨2, ![2, 800000]⟩
abbrev S96x128 : Shape := ⟨2, ![96, 128]⟩
abbrev S128 : Shape := ⟨1, ![128]⟩
abbrev S128x128 : Shape := ⟨2, ![128, 128]⟩
abbrev S256x128 : Shape := ⟨2, ![256, 128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S50000x128 : Shape := ⟨2, ![50000, 128]⟩
abbrev S1x128 : Shape := ⟨2, ![1, 128]⟩
abbrev S_ : Shape := ⟨0, ![]⟩
abbrev S50000 : Shape := ⟨1, ![50000]⟩
abbrev S850000 : Shape := ⟨1, ![850000]⟩
abbrev S850000x1 : Shape := ⟨2, ![850000, 1]⟩
abbrev S850000x128 : Shape := ⟨2, ![850000, 128]⟩
abbrev S800000x1 : Shape := ⟨2, ![800000, 1]⟩
abbrev S800000x128 : Shape := ⟨2, ![800000, 128]⟩
abbrev S800000x256 : Shape := ⟨2, ![800000, 256]⟩
abbrev S1x1 : Shape := ⟨2, ![1, 1]⟩

abbrev nBuf : Space → Nat
  | .hbm => 172
  | .vmem => 0
  | .smem => 0
  | _ => 0

abbrev hbmTy0_0 (i : Nat) : BufTy := match i % 128 with
  | 0 => ⟨S50000x96, .f32⟩
  | 1 => ⟨S2x800000, .i32⟩
  | 2 => ⟨S96x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S256x128, .f32⟩
  | 9 => ⟨S128, .f32⟩
  | 10 => ⟨S128x1, .f32⟩
  | 11 => ⟨S1, .f32⟩
  | 12 => ⟨S1x800000, .i32⟩
  | 13 => ⟨S800000, .i32⟩
  | 14 => ⟨S1x800000, .i32⟩
  | 15 => ⟨S800000, .i32⟩
  | 16 => ⟨S50000x128, .f32⟩
  | 17 => ⟨S1x128, .f32⟩
  | 18 => ⟨S50000x128, .f32⟩
  | 19 => ⟨S50000x128, .f32⟩
  | 20 => ⟨S_, .f32⟩
  | 21 => ⟨S50000x128, .f32⟩
  | 22 => ⟨S50000x128, .f32⟩
  | 23 => ⟨S50000, .i32⟩
  | 24 => ⟨S850000, .i32⟩
  | 25 => ⟨S850000, .i32⟩
  | 26 => ⟨S_, .f32⟩
  | 27 => ⟨S850000, .f32⟩
  | 28 => ⟨S_, .f32⟩
  | 29 => ⟨S50000, .f32⟩
  | 30 => ⟨S850000x1, .i32⟩
  | 31 => ⟨S50000, .f32⟩
  | 32 => ⟨S_, .f32⟩
  | 33 => ⟨S50000, .f32⟩
  | 34 => ⟨S50000, .i1⟩
  | 35 => ⟨S50000, .f32⟩
  | 36 => ⟨S_, .f32⟩
  | 37 => ⟨S_, .f32⟩
  | 38 => ⟨S50000, .f32⟩
  | 39 => ⟨S50000, .f32⟩
  | 40 => ⟨S_, .i32⟩
  | 41 => ⟨S850000, .i32⟩
  | 42 => ⟨S850000, .i1⟩
  | 43 => ⟨S_, .i32⟩
  | 44 => ⟨S850000, .i32⟩
  | 45 => ⟨S850000, .i32⟩
  | 46 => ⟨S850000, .i32⟩
  | 47 => ⟨S850000x1, .i32⟩
  | 48 => ⟨S850000, .f32⟩
  | 49 => ⟨S_, .i32⟩
  | 50 => ⟨S850000, .i32⟩
  | 51 => ⟨S850000, .i1⟩
  | 52 => ⟨S_, .i32⟩
  | 53 => ⟨S850000, .i32⟩
  | 54 => ⟨S850000, .i32⟩
  | 55 => ⟨S850000, .i32⟩
  | 56 => ⟨S850000x1, .i32⟩
  | 57 => ⟨S850000, .f32⟩
  | 58 => ⟨S850000, .f32⟩
  | 59 => ⟨S50000x128, .f32⟩
  | 60 => ⟨S_, .i32⟩
  | 61 => ⟨S850000, .i32⟩
  | 62 => ⟨S850000, .i1⟩
  | 63 => ⟨S_, .i32⟩
  | 64 => ⟨S850000, .i32⟩
  | 65 => ⟨S850000, .i32⟩
  | 66 => ⟨S850000, .i32⟩
  | 67 => ⟨S850000x1, .i32⟩
  | 68 => ⟨S850000x128, .f32⟩
  | 69 => ⟨S850000x1, .f32⟩
  | 70 => ⟨S850000x128, .f32⟩
  | 71 => ⟨S850000x128, .f32⟩
  | 72 => ⟨S_, .f32⟩
  | 73 => ⟨S50000x128, .f32⟩
  | 74 => ⟨S850000x1, .i32⟩
  | 75 => ⟨S50000x128, .f32⟩
  | 76 => ⟨S1x128, .f32⟩
  | 77 => ⟨S50000x128, .f32⟩
  | 78 => ⟨S50000x128, .f32⟩
  | 79 => ⟨S_, .f32⟩
  | 80 => ⟨S50000x128, .f32⟩
  | 81 => ⟨S50000x128, .f32⟩
  | 82 => ⟨S50000, .i32⟩
  | 83 => ⟨S850000, .i32⟩
  | 84 => ⟨S850000, .i32⟩
  | 85 => ⟨S_, .f32⟩
  | 86 => ⟨S850000, .f32⟩
  | 87 => ⟨S_, .f32⟩
  | 88 => ⟨S50000, .f32⟩
  | 89 => ⟨S850000x1, .i32⟩
  | 90 => ⟨S50000, .f32⟩
  | 91 => ⟨S_, .f32⟩
  | 92 => ⟨S50000, .f32⟩
  | 93 => ⟨S50000, .i1⟩
  | 94 => ⟨S50000, .f32⟩
  | 95 => ⟨S_, .f32⟩
  | 96 => ⟨S_, .f32⟩
  | 97 => ⟨S50000, .f32⟩
  | 98 => ⟨S50000, .f32⟩
  | 99 => ⟨S_, .i32⟩
  | 100 => ⟨S850000, .i32⟩
  | 101 => ⟨S850000, .i1⟩
  | 102 => ⟨S_, .i32⟩
  | 103 => ⟨S850000, .i32⟩
  | 104 => ⟨S850000, .i32⟩
  | 105 => ⟨S850000, .i32⟩
  | 106 => ⟨S850000x1, .i32⟩
  | 107 => ⟨S850000, .f32⟩
  | 108 => ⟨S_, .i32⟩
  | 109 => ⟨S850000, .i32⟩
  | 110 => ⟨S850000, .i1⟩
  | 111 => ⟨S_, .i32⟩
  | 112 => ⟨S850000, .i32⟩
  | 113 => ⟨S850000, .i32⟩
  | 114 => ⟨S850000, .i32⟩
  | 115 => ⟨S850000x1, .i32⟩
  | 116 => ⟨S850000, .f32⟩
  | 117 => ⟨S850000, .f32⟩
  | 118 => ⟨S50000x128, .f32⟩
  | 119 => ⟨S_, .i32⟩
  | 120 => ⟨S850000, .i32⟩
  | 121 => ⟨S850000, .i1⟩
  | 122 => ⟨S_, .i32⟩
  | 123 => ⟨S850000, .i32⟩
  | 124 => ⟨S850000, .i32⟩
  | 125 => ⟨S850000, .i32⟩
  | 126 => ⟨S850000x1, .i32⟩
  | 127 => ⟨S850000x128, .f32⟩
  | _ => ⟨S50000x96, .f32⟩

abbrev hbmTy0_1 (i : Nat) : BufTy := match i % 128 with
  | 0 => ⟨S850000x1, .f32⟩
  | 1 => ⟨S850000x128, .f32⟩
  | 2 => ⟨S850000x128, .f32⟩
  | 3 => ⟨S_, .f32⟩
  | 4 => ⟨S50000x128, .f32⟩
  | 5 => ⟨S850000x1, .i32⟩
  | 6 => ⟨S50000x128, .f32⟩
  | 7 => ⟨S1x128, .f32⟩
  | 8 => ⟨S50000x128, .f32⟩
  | 9 => ⟨S50000x128, .f32⟩
  | 10 => ⟨S_, .f32⟩
  | 11 => ⟨S50000x128, .f32⟩
  | 12 => ⟨S50000x128, .f32⟩
  | 13 => ⟨S_, .i32⟩
  | 14 => ⟨S800000, .i32⟩
  | 15 => ⟨S800000, .i1⟩
  | 16 => ⟨S_, .i32⟩
  | 17 => ⟨S800000, .i32⟩
  | 18 => ⟨S800000, .i32⟩
  | 19 => ⟨S800000, .i32⟩
  | 20 => ⟨S800000x1, .i32⟩
  | 21 => ⟨S800000x128, .f32⟩
  | 22 => ⟨S_, .i32⟩
  | 23 => ⟨S800000, .i32⟩
  | 24 => ⟨S800000, .i1⟩
  | 25 => ⟨S_, .i32⟩
  | 26 => ⟨S800000, .i32⟩
  | 27 => ⟨S800000, .i32⟩
  | 28 => ⟨S800000, .i32⟩
  | 29 => ⟨S800000x1, .i32⟩
  | 30 => ⟨S800000x128, .f32⟩
  | 31 => ⟨S800000x256, .f32⟩
  | 32 => ⟨S800000x128, .f32⟩
  | 33 => ⟨S1x128, .f32⟩
  | 34 => ⟨S800000x128, .f32⟩
  | 35 => ⟨S800000x128, .f32⟩
  | 36 => ⟨S_, .f32⟩
  | 37 => ⟨S800000x128, .f32⟩
  | 38 => ⟨S800000x128, .f32⟩
  | 39 => ⟨S800000x1, .f32⟩
  | 40 => ⟨S1x1, .f32⟩
  | 41 => ⟨S800000x1, .f32⟩
  | 42 => ⟨S800000x1, .f32⟩
  | 43 => ⟨S800000, .f32⟩
  | _ => ⟨S50000x96, .f32⟩

abbrev hbmTy (i : Nat) : BufTy := match i / 128 with
  | 0 => hbmTy0_0 i
  | 1 => hbmTy0_1 i
  | _ => ⟨S50000x96, .f32⟩

abbrev bufTy : (tb : Table) → Fin (tcTables nBuf tb) → BufTy
  | .hbm, ⟨i, _⟩ => hbmTy i
  | _, _ => ⟨S50000x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_call0_cst : Ref sig .tc := ⟨.hbm, 20, rfl⟩
abbrev main_call0_v0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst : Ref sig .tc := ⟨.hbm, 26, rfl⟩
abbrev main_v12 : Ref sig .tc := ⟨.hbm, 27, rfl⟩
abbrev main_cst_0 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_1 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_2 : Ref sig .tc := ⟨.hbm, 36, rfl⟩
abbrev main_call1_v0 : Ref sig .tc := ⟨.hbm, 37, rfl⟩
abbrev main_call1_v1 : Ref sig .tc := ⟨.hbm, 38, rfl⟩
abbrev main_v19 : Ref sig .tc := ⟨.hbm, 39, rfl⟩
abbrev main_c : Ref sig .tc := ⟨.hbm, 40, rfl⟩
abbrev main_v20 : Ref sig .tc := ⟨.hbm, 41, rfl⟩
abbrev main_v21 : Ref sig .tc := ⟨.hbm, 42, rfl⟩
abbrev main_c_3 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_c_4 : Ref sig .tc := ⟨.hbm, 49, rfl⟩
abbrev main_v27 : Ref sig .tc := ⟨.hbm, 50, rfl⟩
abbrev main_v28 : Ref sig .tc := ⟨.hbm, 51, rfl⟩
abbrev main_c_5 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_c_6 : Ref sig .tc := ⟨.hbm, 60, rfl⟩
abbrev main_v36 : Ref sig .tc := ⟨.hbm, 61, rfl⟩
abbrev main_v37 : Ref sig .tc := ⟨.hbm, 62, rfl⟩
abbrev main_c_7 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_8 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_call2_cst : Ref sig .tc := ⟨.hbm, 79, rfl⟩
abbrev main_call2_v0 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_cst_9 : Ref sig .tc := ⟨.hbm, 85, rfl⟩
abbrev main_v56 : Ref sig .tc := ⟨.hbm, 86, rfl⟩
abbrev main_cst_10 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_cst_11 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_cst_12 : Ref sig .tc := ⟨.hbm, 95, rfl⟩
abbrev main_call3_v0 : Ref sig .tc := ⟨.hbm, 96, rfl⟩
abbrev main_call3_v1 : Ref sig .tc := ⟨.hbm, 97, rfl⟩
abbrev main_v63 : Ref sig .tc := ⟨.hbm, 98, rfl⟩
abbrev main_c_13 : Ref sig .tc := ⟨.hbm, 99, rfl⟩
abbrev main_v64 : Ref sig .tc := ⟨.hbm, 100, rfl⟩
abbrev main_v65 : Ref sig .tc := ⟨.hbm, 101, rfl⟩
abbrev main_c_14 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_c_15 : Ref sig .tc := ⟨.hbm, 108, rfl⟩
abbrev main_v71 : Ref sig .tc := ⟨.hbm, 109, rfl⟩
abbrev main_v72 : Ref sig .tc := ⟨.hbm, 110, rfl⟩
abbrev main_c_16 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_c_17 : Ref sig .tc := ⟨.hbm, 119, rfl⟩
abbrev main_v80 : Ref sig .tc := ⟨.hbm, 120, rfl⟩
abbrev main_v81 : Ref sig .tc := ⟨.hbm, 121, rfl⟩
abbrev main_c_18 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_cst_19 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_call4_cst : Ref sig .tc := ⟨.hbm, 138, rfl⟩
abbrev main_call4_v0 : Ref sig .tc := ⟨.hbm, 139, rfl⟩
abbrev main_v96 : Ref sig .tc := ⟨.hbm, 140, rfl⟩
abbrev main_c_20 : Ref sig .tc := ⟨.hbm, 141, rfl⟩
abbrev main_v97 : Ref sig .tc := ⟨.hbm, 142, rfl⟩
abbrev main_v98 : Ref sig .tc := ⟨.hbm, 143, rfl⟩
abbrev main_c_21 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_c_22 : Ref sig .tc := ⟨.hbm, 150, rfl⟩
abbrev main_v104 : Ref sig .tc := ⟨.hbm, 151, rfl⟩
abbrev main_v105 : Ref sig .tc := ⟨.hbm, 152, rfl⟩
abbrev main_c_23 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_call5_cst : Ref sig .tc := ⟨.hbm, 164, rfl⟩
abbrev main_call5_v0 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S800000 : S_.BroadcastsInDim S800000 (![] : Fin 0 → Fin S800000.rank)
  bcast_S800000_S800000x1_0 : S800000.BroadcastsInDim S800000x1 (![0] : Fin 1 → Fin S800000x1.rank)
  concatenates_S800000x128_S800000x128_S800000x256_d1 : Shape.Concatenates [S800000x128, S800000x128] S800000x256 1
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  shapeCasts_S800000x1_S800000 : S800000x1.ShapeCasts S800000
  dot_S50000x96_S96x128_S50000x128_1_0_0_1_n_n_wf : DotDims.WF S50000x96 S96x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  gather_S50000x128_S800000x1_S800000x128_1_0_n_n_0_1_1128_wf : GatherDims.WF S50000x128 S800000x1 S800000x128 [1] [0] [] [0] [] 1 ![1, 128]
  dot_S800000x256_S256x128_S800000x128_1_0_0_1_n_n_wf : DotDims.WF S800000x256 S256x128 S800000x128 [1] [0] [0] [1] [] []
  dot_S800000x128_S128x1_S800000x1_1_0_0_1_n_n_wf : DotDims.WF S800000x128 S128x1 S800000x1 [1] [0] [0] [1] [] []

variable [Facts₀]

def dot_S50000x96_S96x128_S50000x128_1_0_0_1_n_n : DotDims S50000x96 S96x128 S50000x128 where
  lhsContracting := [1]
  rhsContracting := [0]
  lhsNonContracting := [0]
  rhsNonContracting := [1]
  lhsBatch := []
  rhsBatch := []
  wf := dot_S50000x96_S96x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x256_S256x128_S800000x128_1_0_0_1_n_n : DotDims S800000x256 S256x128 S800000x128 where
  lhsContracting := [1]
  rhsContracting := [0]
  lhsNonContracting := [0]
  rhsNonContracting := [1]
  lhsBatch := []
  rhsBatch := []
  wf := dot_S800000x256_S256x128_S800000x128_1_0_0_1_n_n_wf
def dot_S800000x128_S128x1_S800000x1_1_0_0_1_n_n : DotDims S800000x128 S128x1 S800000x1 where
  lhsContracting := [1]
  rhsContracting := [0]
  lhsNonContracting := [0]
  rhsNonContracting := [1]
  lhsBatch := []
  rhsBatch := []
  wf := dot_S800000x128_S128x1_S800000x1_1_0_0_1_n_n_wf

class Facts : Prop extends Facts₀ where

variable [Facts]
-- ==== Proof.KernelRun.lean ====
/-
  The idealized kernel's run, with its result named.  The program is six pipelined regions among stretches of host
  operations; its frame run reads the final memory against the last boundary's buffer contents, a fold through the
  whole program from the launch memory.  Here that run is stated for ANY postcondition that follows from "every
  unscoped buffer ends at the fold's contents", and then with the result buffer read at the fold beside the twelve
  arguments, which end as launched.
-/
import proofs.«169392_j85744727097867_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, in a memory whose every unscoped buffer
    holds the contents the fold through the program gives it; so any postcondition those contents imply holds. -/
theorem run_final {Q : PUnit × MemSt nD τ sig (Elt F) → Prop}
    (hQ : ∀ s : MemSt nD τ sig (Elt F),
      (∀ c : Dev nD, ∀ b ∈ Pipeline.ucRefs τ sig, s.mem (((c : Thread nD τ)).1, b) = W13 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := hQ)

/-- The run with the result buffer read at the fold, and the arguments as launched. -/
theorem run_result : θ_run defs (onTc (τ := τ) (main (F := F))) ⟨m, fun _ => 0, ρ⟩ (fun r => ∀ c : Dev nD,
      r.2.mem ((c.tc : Thread nD τ).loc main_v60) = W13 m ρ c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  run_final m ρ (fun s h c =>
    ⟨h c _ (mem_uc main_v60 (by decide)),
     (h c _ (mem_uc main_arg0 (by decide))).trans (W13_main_arg0 m ρ c),
     (h c _ (mem_uc main_arg1 (by decide))).trans (W13_main_arg1 m ρ c),
     (h c _ (mem_uc main_arg2 (by decide))).trans (W13_main_arg2 m ρ c),
     (h c _ (mem_uc main_arg3 (by decide))).trans (W13_main_arg3 m ρ c),
     (h c _ (mem_uc main_arg4 (by decide))).trans (W13_main_arg4 m ρ c),
     (h c _ (mem_uc main_arg5 (by decide))).trans (W13_main_arg5 m ρ c),
     (h c _ (mem_uc main_arg6 (by decide))).trans (W13_main_arg6 m ρ c),
     (h c _ (mem_uc main_arg7 (by decide))).trans (W13_main_arg7 m ρ c),
     (h c _ (mem_uc main_arg8 (by decide))).trans (W13_main_arg8 m ρ c),
     (h c _ (mem_uc main_arg9 (by decide))).trans (W13_main_arg9 m ρ c),
     (h c _ (mem_uc main_arg10 (by decide))).trans (W13_main_arg10 m ρ c),
     (h c _ (mem_uc main_arg11 (by decide))).trans (W13_main_arg11 m ρ c)⟩)

end Cert.KernelIdeal.Hand

end
-- ==== Proof.Spec.lean ====
/-
  The layers of a two-layer graph convolution network with an edge scorer, as arrays over the extended reals, read
  entry by entry.  For a feature matrix h of n rows and d columns and a weight matrix w of d rows and e columns, entry
  (p, q) of h · w is Σ_k h (p, k) · w (k, q).  The layers:
    dense     max (h · w + b, z)                         the input projection (z is the rectifier's floor),
    scaled    (h · w) · s, s one factor per row            the pre-aggregation half of the symmetric normalisation,
    rescaled  max (a · s + b, z)                         the post-aggregation half, with bias and rectifier,
    edgeMlp   Σ_k max (hs · ws + hd · wd + b1, z)(·, k) · w2 (k, 0) + b2   the scorer of an edge from its two endpoints' rows.
  Every one of them is ROW-WISE: row p of the result depends on row p of the row-indexed operands only, so a block of
  rows of the result is the same formula on that block of rows (the congruence lemmas below).  Also here: a sum over
  a + b indices is the sum over the first a plus the sum over the last b.
  Nothing is rearranged inside a sum, so no finiteness of the data is asked.
-/
import Idealize.ShloMosaic.PureOps.Ideal.Laws
import Idealize.ShloMosaic.Lib.ValueIdx

noncomputable section

namespace Cert.Gcn

open Idealize.ShloMosaic Idealize.ShloMosaic.ValueIdx
open scoped BigOperators

/-- A matrix of a rows and b columns over the extended reals. -/
abbrev Mat (a b : ℕ) := (⟨2, ![a, b]⟩ : Shape).Idx → EReal
/-- A vector of a entries over the extended reals. -/
abbrev Vec1 (a : ℕ) := (⟨1, ![a]⟩ : Shape).Idx → EReal

variable {n n' d e : ℕ}

/-- Entry (p, q) of the product h · w. -/
def prodAt (h : Mat n d) (w : Mat d e) (p : Fin n) (q : Fin e) : EReal := ∑ k : Fin d, h (ix2 p k) * w (ix2 k q)

/-- Entry (p, q) of max (h · w + b, z). -/
def denseAt (z : EReal) (h : Mat n d) (w : Mat d e) (b : Vec1 e) (p : Fin n) (q : Fin e) : EReal :=
  max (prodAt h w p q + b (ix1 q)) z

/-- Entry (p, q) of (h · w) · s. -/
def scaledAt (h : Mat n d) (w : Mat d e) (s : Mat n 1) (p : Fin n) (q : Fin e) : EReal :=
  prodAt h w p q * s (ix2 p (0 : Fin 1))

/-- Entry (p, q) of max (a · s + b, z). -/
def rescaledAt (z : EReal) (a : Mat n e) (s : Mat n 1) (b : Vec1 e) (p : Fin n) (q : Fin e) : EReal :=
  max (a (ix2 p q) * s (ix2 p (0 : Fin 1)) + b (ix1 q)) z

/-- The hidden unit k of edge p: max (hs · ws + hd · wd + b1, z) at (p, k). -/
def hiddenAt (z : EReal) (hs hd : Mat n d) (ws wd : Mat d e) (b1 : Vec1 e) (p : Fin n) (k : Fin e) : EReal :=
  max ((prodAt hs ws p k + prodAt hd wd p k) + b1 (ix1 k)) z

/-- The score of edge p. -/
def edgeAt (z : EReal) (hs hd : Mat n d) (ws wd : Mat d e) (b1 : Vec1 e) (w2 : Mat e 1) (b2 : Vec1 1) (p : Fin n) : EReal :=
  (∑ k : Fin e, hiddenAt z hs hd ws wd b1 p k * w2 (ix2 k (0 : Fin 1))) + b2 (ix1 (0 : Fin 1))

/-- max (h · w + b, z) as an array. -/
def dense (z : EReal) (h : Mat n d) (w : Mat d e) (b : Vec1 e) : Mat n e := fun i => denseAt z h w b (i 0) (i 1)
/-- (h · w) · s as an array. -/
def scaled (h : Mat n d) (w : Mat d e) (s : Mat n 1) : Mat n e := fun i => scaledAt h w s (i 0) (i 1)
/-- max (a · s + b, z) as an array. -/
def rescaled (z : EReal) (a : Mat n e) (s : Mat n 1) (b : Vec1 e) : Mat n e := fun i => rescaledAt z a s b (i 0) (i 1)
/-- The edge scores as a one-column array. -/
def edgeMlp (z : EReal) (hs hd : Mat n d) (ws wd : Mat d e) (b1 : Vec1 e) (w2 : Mat e 1) (b2 : Vec1 1) : Mat n 1 :=
  fun i => edgeAt z hs hd ws wd b1 w2 b2 (i 0)

theorem dense_ix2 (z : EReal) (h : Mat n d) (w : Mat d e) (b : Vec1 e) (p : Fin n) (q : Fin e) :
    dense z h w b (ix2 p q) = denseAt z h w b p q := rfl
theorem scaled_ix2 (h : Mat n d) (w : Mat d e) (s : Mat n 1) (p : Fin n) (q : Fin e) :
    scaled h w s (ix2 p q) = scaledAt h w s p q := rfl
theorem rescaled_ix2 (z : EReal) (a : Mat n e) (s : Mat n 1) (b : Vec1 e) (p : Fin n) (q : Fin e) :
    rescaled z a s b (ix2 p q) = rescaledAt z a s b p q := rfl
theorem edgeMlp_ix2 (z : EReal) (hs hd : Mat n d) (ws wd : Mat d e) (b1 : Vec1 e) (w2 : Mat e 1) (b2 : Vec1 1) (p : Fin n) (u : Fin 1) :
    edgeMlp z hs hd ws wd b1 w2 b2 (ix2 p u) = edgeAt z hs hd ws wd b1 w2 b2 p := rfl

/-! ## Row p of a result depends on row p of the operands -/

theorem prodAt_congr (h : Mat n d) (h' : Mat n' d) (w : Mat d e) (p : Fin n) (p' : Fin n')
    (hrow : ∀ k, h (ix2 p k) = h' (ix2 p' k)) (q : Fin e) : prodAt h w p q = prodAt h' w p' q :=
  Finset.sum_congr rfl fun k _ => by rw [hrow k]

theorem denseAt_congr (z : EReal) (h : Mat n d) (h' : Mat n' d) (w : Mat d e) (b : Vec1 e) (p : Fin n) (p' : Fin n')
    (hrow : ∀ k, h (ix2 p k) = h' (ix2 p' k)) (q : Fin e) : denseAt z h w b p q = denseAt z h' w b p' q := by
  unfold denseAt; rw [prodAt_congr h h' w p p' hrow q]

theorem scaledAt_congr (h : Mat n d) (h' : Mat n' d) (w : Mat d e) (s : Mat n 1) (s' : Mat n' 1) (p : Fin n) (p' : Fin n')
    (hrow : ∀ k, h (ix2 p k) = h' (ix2 p' k)) (hs : s (ix2 p (0 : Fin 1)) = s' (ix2 p' (0 : Fin 1))) (q : Fin e) :
    scaledAt h w s p q = scaledAt h' w s' p' q := by
  unfold scaledAt; rw [prodAt_congr h h' w p p' hrow q, hs]

theorem rescaledAt_congr (z : EReal) (a : Mat n e) (a' : Mat n' e) (s : Mat n 1) (s' : Mat n' 1) (b : Vec1 e) (p : Fin n) (p' : Fin n')
    (q : Fin e) (ha : a (ix2 p q) = a' (ix2 p' q)) (hs : s (ix2 p (0 : Fin 1)) = s' (ix2 p' (0 : Fin 1))) :
    rescaledAt z a s b p q = rescaledAt z a' s' b p' q := by
  unfold rescaledAt; rw [ha, hs]

theorem edgeAt_congr (z : EReal) (hs hd : Mat n d) (hs' hd' : Mat n' d) (ws wd : Mat d e) (b1 : Vec1 e) (w2 : Mat e 1) (b2 : Vec1 1)
    (p : Fin n) (p' : Fin n') (h1 : ∀ k, hs (ix2 p k) = hs' (ix2 p' k)) (h2 : ∀ k, hd (ix2 p k) = hd' (ix2 p' k)) :
    edgeAt z hs hd ws wd b1 w2 b2 p = edgeAt z hs' hd' ws wd b1 w2 b2 p' := by
  unfold edgeAt hiddenAt
  refine congrArg (· + b2 (ix1 (0 : Fin 1))) (Finset.sum_congr rfl fun k _ => ?_)
  rw [prodAt_congr hs hs' ws p p' h1 k, prodAt_congr hd hd' wd p p' h2 k]

/-! ## A sum over a + b indices, split -/

/-- A sum over 256 indices is the sum over the first 128 plus the sum over the last 128. -/
theorem sum_split_256 (f : Fin 256 → EReal) :
    (∑ j : Fin 256, f j) = (∑ i : Fin 128, f ⟨i.val, by omega⟩) + ∑ i : Fin 128, f ⟨128 + i.val, by omega⟩ :=
  @Fin.sum_univ_add EReal _ 128 128 f

end Cert.Gcn

end
-- ==== Proof.LibDot.lean ====
/-
  A plain matrix product read at an entry.  For dimension numbers that contract the left operand's axis 1 with the right
  operand's axis 0 and have no batch axis, both the matrix unit's product into a zero accumulator and the host's
  dot_general are, at the ideal reading, the textbook sum Σ_i lhs (p, i) · rhs (i, q): the contraction index is its one
  coordinate, and the operand indices at (p, q) and i are (p, i) and (i, q).
-/
import Idealize.ShloMosaic.PureOps.Ideal.Laws
import Idealize.ShloMosaic.Lib.ValueIdx

noncomputable section

namespace Cert.LibDot

open Idealize.ShloMosaic Idealize.ShloMosaic.ValueIdx
open scoped BigOperators

variable {a k b : ℕ} (D : DotDims ⟨2, ![a, k]⟩ ⟨2, ![k, b]⟩ ⟨2, ![a, b]⟩) (hr : D.contr.rank = 1)
  (hs : D.contr.size ⟨0, by omega⟩ = k)
  (hl0 : ∀ j q, (D.lhsIdx j q 0).val = (j 0).val) (hl1 : ∀ j q, (D.lhsIdx j q 1).val = (q ⟨0, by omega⟩).val)
  (hr0 : ∀ j q, (D.rhsIdx j q 0).val = (q ⟨0, by omega⟩).val) (hr1 : ∀ j q, (D.rhsIdx j q 1).val = (j 1).val)

include hr hs hl0 hl1 hr0 hr1

/-- The sum over the contraction index is the sum over its one coordinate, the operands read at (p, i) and (i, q). -/
theorem sum_plain (lhs : (⟨2, ![a, k]⟩ : Shape).Idx → EReal) (rhs : (⟨2, ![k, b]⟩ : Shape).Idx → EReal) (p : Fin a) (q : Fin b) :
    (∑ c : D.contr.Idx, lhs (D.lhsIdx (ix2 p q) c) * rhs (D.rhsIdx (ix2 p q) c)) = ∑ i : Fin k, lhs (ix2 p i) * rhs (ix2 i q) := by
  rw [← Equiv.sum_comp (contrEquiv1 D k hr hs).symm]
  refine Finset.sum_congr rfl fun i _ => ?_
  have hk := contrEquiv1_symm_val D k hr hs i
  have el : D.lhsIdx (ix2 p q) ((contrEquiv1 D k hr hs).symm i) = ix2 p i := funext fun ax => Fin.ext (by
    match ax with
    | ⟨0, _⟩ => exact hl0 _ _
    | ⟨1, _⟩ => exact (hl1 _ _).trans hk)
  have er : D.rhsIdx (ix2 p q) ((contrEquiv1 D k hr hs).symm i) = ix2 i q := funext fun ax => Fin.ext (by
    match ax with
    | ⟨0, _⟩ => exact (hr0 _ _).trans hk
    | ⟨1, _⟩ => exact hr1 _ _)
  rw [el, er]

/-- The matrix unit's product into a zero accumulator, at entry (p, q). -/
theorem matmul_zero_apply {φ₁ φ₂ : FTy} (prec : Option ContractPrecision) (lhs : FVec Ideal ⟨2, ![a, k]⟩ φ₁)
    (rhs : FVec Ideal ⟨2, ![k, b]⟩ φ₂) (p : Fin a) (q : Fin b) :
    FloatOps.matmul D prec lhs rhs (constant ⟨2, ![a, b]⟩ .f32 0x00000000#32) (ix2 p q) = ∑ i : Fin k, lhs (ix2 p i) * rhs (ix2 i q) :=
  (Ideal.matmul_constant_zero_apply D prec lhs rhs (ix2 p q)).trans (sum_plain D hr hs hl0 hl1 hr0 hr1 lhs rhs p q)

/-- The host's dot_general, at entry (p, q). -/
theorem dotGeneral_apply {φ₁ φ₂ : FTy} (prec : Option ContractPrecision) (sched : HostSchedule) (lhs : FVec Ideal ⟨2, ![a, k]⟩ φ₁)
    (rhs : FVec Ideal ⟨2, ![k, b]⟩ φ₂) (p : Fin a) (q : Fin b) :
    FloatOps.dotGeneral D prec sched lhs rhs (ix2 p q) = ∑ i : Fin k, lhs (ix2 p i) * rhs (ix2 i q) :=
  (Ideal.dotGeneral_apply D prec sched lhs rhs (ix2 p q)).trans (sum_plain D hr hs hl0 hl1 hr0 hr1 lhs rhs p q)

end Cert.LibDot

end
-- ==== Proof.LibRowwise.lean ====
/-
  Row-wise readings of a matrix `[n, c]`, at an entry given by its two coordinates.

  A row vector `[c]` laid under every row of an `[n, c]` matrix (cast to `[1, c]`, then broadcast down the rows) reads, at
  `(p, j)`, its entry `j`; a column `[n]` laid beside every column (cast to `[n, 1]`, then broadcast along the rows) reads,
  at `(p, j)`, its entry `p`; column `o` of an `[n, b]` matrix cut out as `[n, 1]` and broadcast along the rows reads, at
  `(p, j)`, the entry `(p, o)`. The host's reduce of an `[a, b]` matrix over its second axis by a commutative,
  associative body is, at row `r`, the fold of the body from the initial value over the entries `(r, k)`; its float sum
  is the initial value plus the row's sum.
  Library imports only.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibRowwise

open Idealize.ShloMosaic Idealize.ShloMosaic.ValueIdx
open scoped BigOperators

variable {α : Type}

/-- A `[c]` array cast to `[1, c]` and broadcast down `n` rows reads, at `(p, j)`, the operand at `j`. -/
theorem rowUnder_apply {n c : ℕ} (b : (⟨1, ![c]⟩ : Shape).Idx → α) (hc : (⟨1, ![c]⟩ : Shape).ShapeCasts ⟨2, ![1, c]⟩)
    (hb : (⟨2, ![1, c]⟩ : Shape).Broadcasts ⟨2, ![n, c]⟩) (p : Fin n) (j : Fin c) :
    broadcastTo ⟨2, ![n, c]⟩ (shapeCast ⟨2, ![1, c]⟩ b hc) hb (ix2 p j) = b (ix1 j) := by
  refine (broadcastTo_apply (shapeCast ⟨2, ![1, c]⟩ b hc) hb (ix2 p j) (ix2 (0 : Fin 1) j) fun ax => ?_).trans ?_
  · match ax with
    | ⟨0, _⟩ => rfl
    | ⟨1, _⟩ =>
      show j.val = if c = 1 then 0 else j.val
      split
      · have := j.isLt; omega
      · rfl
  · exact shapeCast_apply b hc _ _ (by
      rw [Shape.rowMajor_val_two, Shape.rowMajor_val_one]
      show j.val = 0 * c + j.val
      omega)

/-- An `[n]` array cast to `[n, 1]` and broadcast along `c` columns reads, at `(p, j)`, the operand at `p`. -/
theorem columnBeside_apply {n c : ℕ} (v : (⟨1, ![n]⟩ : Shape).Idx → α) (hc : (⟨1, ![n]⟩ : Shape).ShapeCasts ⟨2, ![n, 1]⟩)
    (hb : (⟨2, ![n, 1]⟩ : Shape).Broadcasts ⟨2, ![n, c]⟩) (p : Fin n) (j : Fin c) :
    broadcastTo ⟨2, ![n, c]⟩ (shapeCast ⟨2, ![n, 1]⟩ v hc) hb (ix2 p j) = v (ix1 p) := by
  refine (broadcastTo_apply (shapeCast ⟨2, ![n, 1]⟩ v hc) hb (ix2 p j) (ix2 p (0 : Fin 1)) fun ax => ?_).trans ?_
  · match ax with
    | ⟨0, _⟩ =>
      show p.val = if n = 1 then 0 else p.val
      split
      · have := p.isLt; omega
      · rfl
    | ⟨1, _⟩ => rfl
  · exact shapeCast_apply v hc _ _ (by
      rw [Shape.rowMajor_val_two, Shape.rowMajor_val_one]
      show p.val = p.val * 1 + 0
      omega)

/-- Column `o` of an `[n, b]` matrix, cut out as `[n, 1]` and broadcast along `c` columns, reads at `(p, j)` the entry
    `(p, o)`. -/
theorem columnOf_apply {n b c : ℕ} (g : (⟨2, ![n, b]⟩ : Shape).Idx → α) (o : ℕ) (ho : o < b)
    (hs : (⟨2, ![n, b]⟩ : Shape).Slices ![0, o] ⟨2, ![n, 1]⟩)
    (hb : (⟨2, ![n, 1]⟩ : Shape).Broadcasts ⟨2, ![n, c]⟩) (p : Fin n) (j : Fin c) :
    broadcastTo ⟨2, ![n, c]⟩ (extractStridedSlice ⟨2, ![n, 1]⟩ ![0, o] g hs) hb (ix2 p j) = g (ix2 p (⟨o, ho⟩ : Fin b)) := by
  refine (broadcastTo_apply (extractStridedSlice ⟨2, ![n, 1]⟩ ![0, o] g hs) hb (ix2 p j) (ix2 p (0 : Fin 1)) fun ax => ?_).trans ?_
  · match ax with
    | ⟨0, _⟩ =>
      show p.val = if n = 1 then 0 else p.val
      split
      · have := p.isLt; omega
      · rfl
    | ⟨1, _⟩ => rfl
  · exact extractStridedSlice_apply ![0, o] g hs (ix2 p (0 : Fin 1)) (ix2 p (⟨o, ho⟩ : Fin b)) fun ax => by
      match ax with
      | ⟨0, _⟩ => show p.val = 0 + p.val; omega
      | ⟨1, _⟩ => show o = o + 0; omega

/-- Row `r` with the second coordinate `k` put back is the entry `(r, k)`. -/
theorem lift_second {a b : ℕ} (h : (⟨2, ![a, b]⟩ : Shape).Reduces [1] ⟨1, ![a]⟩) (r : Fin a) (k : Fin b) :
    h.lift (ix1 r) k = ix2 r k := by
  funext c; apply Fin.ext
  fin_cases c <;> rfl

/-- The host's reduce of a matrix over its second axis by a commutative, associative body, at row `r`: the fold from the
    initial value over the row's entries. -/
theorem hostReduce_row {a b : ℕ} {u : Shape} (f : α → α → α) [Std.Commutative f] [Std.Associative f]
    (x : (⟨2, ![a, b]⟩ : Shape).Idx → α) (init : u.Idx → α)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduce f x init h' hu (ix1 r)
      = (Finset.univ : Finset (Fin b)).fold f (init (Shape.Idx.first hu)) fun k => x (ix2 r k) :=
  (Host.reduce_eq_fold_single f x init h' h hu (ix1 r)).trans
    (congrArg (fun g => Finset.fold f (init (Shape.Idx.first hu)) g (Finset.univ : Finset (Fin b)))
      (funext fun k => congrArg x (lift_second h r k)))

end Cert.LibRowwise

end
-- ==== Proof.LibColumnLayout.lean ====
/-
  Two layout operations on a column, read at an index: the forms a row sum kept as a column goes through before it meets a
  full matrix. (The library has the row forms `[a] → [1, a]` and `[1, b] → [a, b]`; these are their column counterparts.)
  Library imports only.
-/
import Idealize.ShloMosaic.Lib.ValueIdx
import Idealize.ShloMosaic.Lib.ValueLayout
import Idealize.ShloMosaic.Lib.Pipeline.Value

namespace Cert.LibColumnLayout

open Idealize.ShloMosaic Idealize.ShloMosaic.ValueIdx

/-- An `[a]` array cast to `[a, 1]` reads, at `(i, u)`, the operand at `i`, whatever the unit coordinate `u`: both indices
    have row-major position `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`, whatever `c`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumnLayout
-- ==== Proof.Payloads.lean ====
/-
  What each kernel body computes from its loaded blocks, at the ideal reading: the matrix unit's products into zero
  accumulators are the textbook sums, every change of float format is the identity, a bias row laid under the rows and a
  per-row factor laid beside the columns are read at their one entry.  So each body's stored value is one of the
  row-wise layers of Spec.lean, applied to the blocks it loaded.
-/
import proofs.«169392_j85744727097867_2_alg».proof.Proof.Gen.KernelIdeal.Skeleton
import proofs.«169392_j85744727097867_2_alg».proof.Proof.Spec
import proofs.«169392_j85744727097867_2_alg».proof.Proof.LibDot
import proofs.«169392_j85744727097867_2_alg».proof.Proof.LibRowwise
import proofs.«169392_j85744727097867_2_alg».proof.Proof.LibColumnLayout
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen Cert.Gcn
open Idealize.ShloMosaic Idealize.ShloMosaic.ValueIdx
open scoped BigOperators

theorem hz2 : (![0, 0] : Fin 2 → Nat) = fun _ => 0 := funext fun a => by fin_cases a <;> rfl
theorem hz1 : (![0] : Fin 1 → Nat) = fun _ => 0 := funext fun a => by fin_cases a <;> rfl

/-- The rectifier's floor: the value of the all-zero word. -/
abbrev zr : EReal := Ideal.ofBits .f32 0x00000000#32

/-! ## The four matrix products, at an entry -/

theorem mmA {φ₁ φ₂ : FTy} (lhs : FVec Ideal S5000x96 φ₁) (rhs : FVec Ideal S96x128 φ₂) (p : Fin 5000) (q : Fin 128) :
    FloatOps.matmul dot_S5000x96_S96x128_S5000x128_1_0_0_1_n_n none lhs rhs (constant S5000x128 .f32 0x00000000#32) (ix2 p q)
      = prodAt lhs rhs p q :=
  Cert.LibDot.matmul_zero_apply dot_S5000x96_S96x128_S5000x128_1_0_0_1_n_n rfl rfl
    (fun j c => by
      unfold DotDims.lhsIdx
      rw [dif_neg (show ¬(0 : Fin S5000x96.rank) ∈ dot_S5000x96_S96x128_S5000x128_1_0_0_1_n_n.lhsBatch by decide),
        dif_pos (show (0 : Fin S5000x96.rank) ∈ dot_S5000x96_S96x128_S5000x128_1_0_0_1_n_n.lhsNonContracting by decide)]
      rfl)
    (fun j c => dot_S5000x96_S96x128_S5000x128_1_0_0_1_n_n.lhsIdx_val_of_single rfl j c)
    (fun j c => dot_S5000x96_S96x128_S5000x128_1_0_0_1_n_n.rhsIdx_val_of_single rfl j c)
    (fun j c => by
      unfold DotDims.rhsIdx
      rw [dif_neg (show ¬(1 : Fin S96x128.rank) ∈ dot_S5000x96_S96x128_S5000x128_1_0_0_1_n_n.rhsBatch by decide),
        dif_pos (show (1 : Fin S96x128.rank) ∈ dot_S5000x96_S96x128_S5000x128_1_0_0_1_n_n.rhsNonContracting by decide)]
      rfl)
    none lhs rhs p q

theorem mmB {φ₁ φ₂ : FTy} (lhs : FVec Ideal S5000x128 φ₁) (rhs : FVec Ideal S128x128 φ₂) (p : Fin 5000) (q : Fin 128) :
    FloatOps.matmul dot_S5000x128_S128x128_S5000x128_1_0_0_1_n_n none lhs rhs (constant S5000x128 .f32 0x00000000#32) (ix2 p q)
      = prodAt lhs rhs p q :=
  Cert.LibDot.matmul_zero_apply dot_S5000x128_S128x128_S5000x128_1_0_0_1_n_n rfl rfl
    (fun j c => by
      unfold DotDims.lhsIdx
      rw [dif_neg (show ¬(0 : Fin S5000x128.rank) ∈ dot_S5000x128_S128x128_S5000x128_1_0_0_1_n_n.lhsBatch by decide),
        dif_pos (show (0 : Fin S5000x128.rank) ∈ dot_S5000x128_S128x128_S5000x128_1_0_0_1_n_n.lhsNonContracting by decide)]
      rfl)
    (fun j c => dot_S5000x128_S128x128_S5000x128_1_0_0_1_n_n.lhsIdx_val_of_single rfl j c)
    (fun j c => dot_S5000x128_S128x128_S5000x128_1_0_0_1_n_n.rhsIdx_val_of_single rfl j c)
    (fun j c => by
      unfold DotDims.rhsIdx
      rw [dif_neg (show ¬(1 : Fin S128x128.rank) ∈ dot_S5000x128_S128x128_S5000x128_1_0_0_1_n_n.rhsBatch by decide),
        dif_pos (show (1 : Fin S128x128.rank) ∈ dot_S5000x128_S128x128_S5000x128_1_0_0_1_n_n.rhsNonContracting by decide)]
      rfl)
    none lhs rhs p q

theorem mmC {φ₁ φ₂ : FTy} (lhs : FVec Ideal S8000x128 φ₁) (rhs : FVec Ideal S128x128 φ₂) (p : Fin 8000) (q : Fin 128) :
    FloatOps.matmul dot_S8000x128_S128x128_S8000x128_1_0_0_1_n_n none lhs rhs (constant S8000x128 .f32 0x00000000#32) (ix2 p q)
      = prodAt lhs rhs p q :=
  Cert.LibDot.matmul_zero_apply dot_S8000x128_S128x128_S8000x128_1_0_0_1_n_n rfl rfl
    (fun j c => by
      unfold DotDims.lhsIdx
      rw [dif_neg (show ¬(0 : Fin S8000x128.rank) ∈ dot_S8000x128_S128x128_S8000x128_1_0_0_1_n_n.lhsBatch by decide),
        dif_pos (show (0 : Fin S8000x128.rank) ∈ dot_S8000x128_S128x128_S8000x128_1_0_0_1_n_n.lhsNonContracting by decide)]
      rfl)
    (fun j c => dot_S8000x128_S128x128_S8000x128_1_0_0_1_n_n.lhsIdx_val_of_single rfl j c)
    (fun j c => dot_S8000x128_S128x128_S8000x128_1_0_0_1_n_n.rhsIdx_val_of_single rfl j c)
    (fun j c => by
      unfold DotDims.rhsIdx
      rw [dif_neg (show ¬(1 : Fin S128x128.rank) ∈ dot_S8000x128_S128x128_S8000x128_1_0_0_1_n_n.rhsBatch by decide),
        dif_pos (show (1 : Fin S128x128.rank) ∈ dot_S8000x128_S128x128_S8000x128_1_0_0_1_n_n.rhsNonContracting by decide)]
      rfl)
    none lhs rhs p q

theorem mmD {φ₁ φ₂ : FTy} (lhs : FVec Ideal S8000x128 φ₁) (rhs : FVec Ideal S128x1 φ₂) (p : Fin 8000) (q : Fin 1) :
    FloatOps.matmul dot_S8000x128_S128x1_S8000x1_1_0_0_1_n_n none lhs rhs (constant S8000x1 .f32 0x00000000#32) (ix2 p q)
      = prodAt lhs rhs p q :=
  Cert.LibDot.matmul_zero_apply dot_S8000x128_S128x1_S8000x1_1_0_0_1_n_n rfl rfl
    (fun j c => by
      unfold DotDims.lhsIdx
      rw [dif_neg (show ¬(0 : Fin S8000x128.rank) ∈ dot_S8000x128_S128x1_S8000x1_1_0_0_1_n_n.lhsBatch by decide),
        dif_pos (show (0 : Fin S8000x128.rank) ∈ dot_S8000x128_S128x1_S8000x1_1_0_0_1_n_n.lhsNonContracting by decide)]
      rfl)
    (fun j c => dot_S8000x128_S128x1_S8000x1_1_0_0_1_n_n.lhsIdx_val_of_single rfl j c)
    (fun j c => dot_S8000x128_S128x1_S8000x1_1_0_0_1_n_n.rhsIdx_val_of_single rfl j c)
    (fun j c => by
      unfold DotDims.rhsIdx
      rw [dif_neg (show ¬(1 : Fin S128x1.rank) ∈ dot_S8000x128_S128x1_S8000x1_1_0_0_1_n_n.rhsBatch by decide),
        dif_pos (show (1 : Fin S128x1.rank) ∈ dot_S8000x128_S128x1_S8000x1_1_0_0_1_n_n.rhsNonContracting by decide)]
      rfl)
    none lhs rhs p q

/-! ## Region 0: the input projection -/

theorem pay0 (x0 : Vec Ideal S5000x96 .f32) (x1 : Vec Ideal S96x128 .f32) (x2 : Vec Ideal S128 .f32) :
    k0_pay1 (F := Ideal) x0 x1 x2 = dense zr x0 x1 x2 := by
  funext j
  obtain ⟨p, q, rfl⟩ : ∃ (p : Fin 5000) (q : Fin 128), j = ix2 p q := ⟨j 0, j 1, eq_ix2 j⟩
  rw [dense_ix2]
  unfold k0_pay1 denseAt
  refine congrArg (fun v => max v zr) ?_
  refine (congrArg₂ (· + ·) (mmA _ _ p q) (Cert.LibRowwise.rowUnder_apply x2 shapeCasts_S128_S1x128 broadcasts_S1x128_S5000x128 p q)).trans ?_
  rfl

/-! ## Regions 1 and 3: the product scaled row by row -/

theorem pay1 (x0 : Vec Ideal S5000x128 .bf16) (x1 : Vec Ideal S128x128 .f32) (x2 : Vec Ideal S5000x1 .f32) :
    k1_pay1 (F := Ideal) x0 x1 x2 = scaled x0 x1 x2 := by
  funext j
  obtain ⟨p, q, rfl⟩ : ∃ (p : Fin 5000) (q : Fin 128), j = ix2 p q := ⟨j 0, j 1, eq_ix2 j⟩
  rw [scaled_ix2]
  unfold k1_pay1 scaledAt
  rw [shapeCast_self, shapeCast_self]
  exact congrArg₂ (· * ·) (mmB _ _ p q) (Cert.LibColumnLayout.broadcastTo_a1_ab_apply x2 broadcasts_S5000x1_S5000x128 p q)

theorem pay3 (x0 : Vec Ideal S5000x128 .bf16) (x1 : Vec Ideal S128x128 .f32) (x2 : Vec Ideal S5000x1 .f32) :
    k3_pay1 (F := Ideal) x0 x1 x2 = scaled x0 x1 x2 := pay1 x0 x1 x2

/-! ## Regions 2 and 4: scale, bias, rectifier -/

theorem pay2 (x0 : Vec Ideal S5000x128 .f32) (x1 : Vec Ideal S5000x1 .f32) (x2 : Vec Ideal S128 .f32) :
    k2_pay1 (F := Ideal) x0 x1 x2 = rescaled zr x0 x1 x2 := by
  funext j
  obtain ⟨p, q, rfl⟩ : ∃ (p : Fin 5000) (q : Fin 128), j = ix2 p q := ⟨j 0, j 1, eq_ix2 j⟩
  rw [rescaled_ix2]
  unfold k2_pay1 rescaledAt
  rw [shapeCast_self, shapeCast_self]
  refine congrArg (fun v => max v zr) ?_
  exact congrArg₂ (· + ·)
    (congrArg (x0 (ix2 p q) * ·) (Cert.LibColumnLayout.broadcastTo_a1_ab_apply x1 broadcasts_S5000x1_S5000x128 p q))
    (Cert.LibRowwise.rowUnder_apply x2 shapeCasts_S128_S1x128 broadcasts_S1x128_S5000x128 p q)

theorem pay4 (x0 : Vec Ideal S5000x128 .f32) (x1 : Vec Ideal S5000x1 .f32) (x2 : Vec Ideal S128 .f32) :
    k4_pay1 (F := Ideal) x0 x1 x2 = rescaled zr x0 x1 x2 := pay2 x0 x1 x2

/-! ## Region 5: the edge scorer -/

theorem pay5 (x0 x1 : Vec Ideal S8000x128 .bf16) (x2 x3 : Vec Ideal S128x128 .f32) (x4 : Vec Ideal S128 .f32)
    (x5 : Vec Ideal S128x1 .f32) (x6 : Vec Ideal S1 .f32) :
    k5_pay1 (F := Ideal) x0 x1 x2 x3 x4 x5 x6 = edgeMlp zr x0 x1 x2 x3 x4 x5 x6 := by
  funext j
  obtain ⟨p, u, rfl⟩ : ∃ (p : Fin 8000) (u : Fin 1), j = ix2 p u := ⟨j 0, j 1, eq_ix2 j⟩
  obtain rfl : u = 0 := Subsingleton.elim _ _
  rw [edgeMlp_ix2]
  unfold k5_pay1 edgeAt
  rw [shapeCast_self, shapeCast_self, shapeCast_self, shapeCast_self]
  refine congrArg₂ (· + ·) ((mmD _ _ p 0).trans ?_) (Cert.LibRowwise.rowUnder_apply x6 shapeCasts_S1_S1x1 broadcasts_S1x1_S8000x1 p 0)
  unfold prodAt
  refine Finset.sum_congr rfl fun k _ => ?_
  refine congrArg (· * x5 (ix2 k (0 : Fin 1))) ?_
  unfold hiddenAt
  refine congrArg (fun v => max v zr) ?_
  exact congrArg₂ (· + ·) (congrArg₂ (· + ·) (mmC _ _ p k) (mmC _ _ p k))
    (Cert.LibRowwise.rowUnder_apply x4 shapeCasts_S128_S1x128 broadcasts_S1x128_S8000x128 p k)

end Cert.KernelIdeal.Hand

end
-- ==== Proof.KernelTerms.lean ====
/-
  The arrays the idealized kernel's program computes, as closed terms of its argument arrays.

  From the edge list e (two rows: sources, targets): src and dst; row = src followed by every node number, col = dst
  followed by every node number (the self loops); deg = the count of col's entries per node (ones scattered by
  col); dinv = 1/sqrt deg where deg > 0, else 0, and dinv2 the same as a one-column array.  Then
    H0 = max (x · W_in + b_in, 0),
    S = (H · W) · dinv2, A = the rows S[row] added into the rows that col names, H' = max (A · dinv2 + b, 0)   (twice),
    the score of edge k = the scorer of rows H2[src k] and H2[dst k] against the two halves of Wm1, and bm1, Wm2, bm2,
  and the result is the one-column score array laid out as a vector.  An index into a 50000-row array is first brought
  into range the way array indexing does: a negative number has 50000 added.
-/
import proofs.«169392_j85744727097867_2_alg».proof.Proof.Gen.KernelIdeal
import proofs.«169392_j85744727097867_2_alg».proof.Proof.Payloads

noncomputable section

namespace Cert.KernelIdeal.Hand

open Cert.KernelIdeal Cert.KernelIdeal.Gen Cert.Gcn
open Idealize.ShloMosaic Idealize.ShloMosaic.ValueIdx

/-- The sources of the edges. -/
def kSrc (e : IVec S2x800000 32) : IVec S800000 32 :=
  shapeCast S800000 (extractStridedSlice S1x800000 ![0, 0] e slices_S2x800000_S1x800000_0_0) shapeCasts_S1x800000_S800000
/-- The targets of the edges. -/
def kDst (e : IVec S2x800000 32) : IVec S800000 32 :=
  shapeCast S800000 (extractStridedSlice S1x800000 ![1, 0] e slices_S2x800000_S1x800000_1_0) shapeCasts_S1x800000_S800000
/-- Sources, then the self loops. -/
def kRow (e : IVec S2x800000 32) : IVec S850000 32 :=
  concatenate S850000 0 [⟨S800000, kSrc e⟩, ⟨S50000, iotaInDim S50000 32 0⟩] concatenates_S800000_S50000_S850000_d0
/-- Targets, then the self loops. -/
def kCol (e : IVec S2x800000 32) : IVec S850000 32 :=
  concatenate S850000 0 [⟨S800000, kDst e⟩, ⟨S50000, iotaInDim S50000 32 0⟩] concatenates_S800000_S50000_S850000_d0
/-- The in-degree with self loops: ones added into the entries col names. -/
def kDeg (e : IVec S2x800000 32) : FVec Ideal S50000 .f32 :=
  Host.scatterAdd scatter_S50000_S850000x1_S850000_n_0_0_1
    (broadcastInDim S50000 ![] bcast_S_S50000 (constant S_ .f32 0x00000000#32))
    (broadcastInDim S850000x1 ![0] bcast_S850000_S850000x1_0 (kCol e))
    (broadcastInDim S850000 ![] bcast_S_S850000 (constant S_ .f32 0x3F800000#32))
/-- 1/sqrt deg where deg > 0, else 0. -/
def kDinv (e : IVec S2x800000 32) : FVec Ideal S50000 .f32 :=
  select (cmpf .ogt (kDeg e) (broadcastInDim S50000 ![] bcast_S_S50000 (constant S_ .f32 0x00000000#32)))
    (Host.rsqrt (kDeg e)) (broadcastInDim S50000 ![] bcast_S_S50000 (constant S_ .f32 0x00000000#32))
/-- The same as a one-column array. -/
def kDinv2 (e : IVec S2x800000 32) : FVec Ideal S50000x1 .f32 :=
  broadcastInDim S50000x1 ![0] bcast_S50000_S50000x1_0 (kDinv e)

theorem kDinv_def (e : IVec S2x800000 32) : kDinv e
    = select (cmpf .ogt (kDeg e) (broadcastInDim S50000 ![] bcast_S_S50000 (constant S_ .f32 0x00000000#32)))
        (Host.rsqrt (kDeg e)) (broadcastInDim S50000 ![] bcast_S_S50000 (constant S_ .f32 0x00000000#32)) := rfl

theorem kDinv2_def (e : IVec S2x800000 32) :
    kDinv2 e = broadcastInDim S50000x1 ![0] bcast_S50000_S50000x1_0 (kDinv e) := rfl

/-- A vector of 850000 row numbers brought into range and laid out as one column. -/
def fix850 (v : IVec S850000 32) : IVec S850000x1 32 :=
  broadcastInDim S850000x1 ![0] bcast_S850000_S850000x1_0
    (select (cmpi .slt v (broadcastInDim S850000 ![] bcast_S_S850000 (constantI S_ 32 0#32)))
      (addi v (broadcastInDim S850000 ![] bcast_S_S850000 (constantI S_ 32 50000#32))) v)
/-- A vector of 800000 row numbers brought into range and laid out as one column. -/
def fix800 (v : IVec S800000 32) : IVec S800000x1 32 :=
  broadcastInDim S800000x1 ![0] bcast_S800000_S800000x1_0
    (select (cmpi .slt v (broadcastInDim S800000 ![] bcast_S_S800000 (constantI S_ 32 0#32)))
      (addi v (broadcastInDim S800000 ![] bcast_S_S800000 (constantI S_ 32 50000#32))) v)

/-- The aggregation: rows S[row] added into the rows that col names. -/
def kAgg (S : FVec Ideal S50000x128 .bf16) (e : IVec S2x800000 32) : FVec Ideal S50000x128 .f32 :=
  Host.scatterAdd scatter_S50000x128_S850000x1_S850000x128_1_0_0_1
    (broadcastInDim S50000x128 ![] bcast_S_S50000x128 (constant S_ .f32 0x00000000#32))
    (broadcastInDim S850000x1 ![0] bcast_S850000_S850000x1_0 (kCol e))
    (extf .f32 (Host.gather gather_S50000x128_S850000x1_S850000x128_1_0_n_n_0_1_1128 S (fix850 (kRow e))) bitsLt_bf16_f32)

/-- One convolution layer as the kernel arranges it. -/
def kConv (H : FVec Ideal S50000x128 .bf16) (W : FVec Ideal S128x128 .f32) (b : FVec Ideal S128 .f32) (e : IVec S2x800000 32) :
    FVec Ideal S50000x128 .bf16 :=
  rescaled zr (kAgg (scaled H W (kDinv2 e)) e) (kDinv2 e) b

/-- The kernel's result. -/
def kOut (x0 : FVec Ideal S50000x96 .f32) (e : IVec S2x800000 32) (x2 : FVec Ideal S96x128 .f32) (x3 : FVec Ideal S128 .f32)
    (x4 : FVec Ideal S128x128 .f32) (x5 : FVec Ideal S128 .f32) (x6 : FVec Ideal S128x128 .f32) (x7 : FVec Ideal S128 .f32)
    (x8 : FVec Ideal S256x128 .f32) (x9 : FVec Ideal S128 .f32) (x10 : FVec Ideal S128x1 .f32) (x11 : FVec Ideal S1 .f32) :
    FVec Ideal S800000 .f32 :=
  shapeCast S800000
    (edgeMlp zr
      (Host.gather gather_S50000x128_S800000x1_S800000x128_1_0_n_n_0_1_1128 (kConv (kConv (dense zr x0 x2 x3) x4 x5 e) x6 x7 e) (fix800 (kSrc e)))
      (Host.gather gather_S50000x128_S800000x1_S800000x128_1_0_n_n_0_1_1128 (kConv (kConv (dense zr x0 x2 x3) x4 x5 e) x6 x7 e) (fix800 (kDst e)))
      (extractStridedSlice S128x128 ![0, 0] x8 slices_S256x128_S128x128_0_0)
      (extractStridedSlice S128x128 ![128, 0] x8 slices_S256x128_S128x128_128_0)
      x9 x10 x11 : FVec Ideal S800000x1 .f32)
    shapeCasts_S800000x1_S800000

end Cert.KernelIdeal.Hand

end
-- ==== Proof.Region0.lean ====
/-
  Region 0, the input projection, as one array.  The grid has ten points; point t loads rows 5000 t … 5000 t + 4999 of
  the features, the whole weight matrix and the whole bias, and writes back rows 5000 t … 5000 t + 4999 of the result.
  The body's value is the row-wise layer max (x · W + b, 0) of its blocks, so the block written at point t is that
  block of the layer applied to the whole arrays; the ten blocks tile the result array.
-/
import proofs.«169392_j85744727097867_2_alg».proof.Proof.Gen.KernelIdeal.Frame
import proofs.«169392_j85744727097867_2_alg».proof.Proof.Payloads
import Idealize.ShloMosaic.Lib.Pipeline.Value

set_option maxRecDepth 16384

noncomputable section

namespace Cert.KernelIdeal.Hand

open Cert.KernelIdeal Cert.KernelIdeal.Gen Cert.Gcn
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The printed index maps over the grid: the row-blocked windows sit at block t, the whole-array windows at block 0. -/
theorem idx0 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 1) = 0
    ∧ win0_3.index t (0 : Fin 2) = t.val
    ∧ win0_3.index t (1 : Fin 2) = 0 :=
  (by decide +kernel : ∀ t : Fin grid0.N, _)

theorem lt0 (t : Fin cfg0.N) : t.val < 10 :=
  t.isLt.trans_eq (show cfg0.N = 10 from N_0)

/-- Row p of window 0's block at point t is row 5000 t + p of its array. -/
theorem blk0_0 (c : Dev nD) (t : Fin cfg0.N) (p : Fin 5000) (k : Fin 96) (r : Fin 50000) (hr : r.val = t.val * 5000 + p.val) :
    (iblk0 V c 0 t : Vec Ideal S5000x96 .f32) (ix2 p k) = (V c main_arg0 : S50000x96.Idx → EReal) (ix2 r k) := by
  obtain ⟨e0a, e0b, e1a, e1b, e2a, e3a, e3b⟩ := idx0 t
  unfold iblk0
  rw [View.read_apply]
  show V c main_arg0 _ = V c main_arg0 _
  refine congrArg (V c main_arg0) ?_
  funext a
  apply Fin.ext
  match a with
  | ⟨0, _⟩ => show win0_0.index t (0 : Fin 2) * 5000 + 1 * p.val = r.val; rw [e0a, hr]; omega
  | ⟨1, _⟩ => show win0_0.index t (1 : Fin 2) * 96 + 1 * k.val = k.val; rw [e0b]; omega

/-- Window 1's block at any point is its whole array. -/
theorem blk0_1 (c : Dev nD) (t : Fin cfg0.N) : (iblk0 V c 1 t : Vec Ideal S96x128 .f32) = (V c main_arg2 : S96x128.Idx → EReal) := by
  obtain ⟨e0a, e0b, e1a, e1b, e2a, e3a, e3b⟩ := idx0 t
  funext y
  unfold iblk0
  rw [View.read_apply]
  show V c main_arg2 _ = V c main_arg2 _
  refine congrArg (V c main_arg2) ?_
  funext a
  apply Fin.ext
  match a with
  | ⟨0, _⟩ => show win0_1.index t (0 : Fin 2) * 96 + 1 * (y 0).val = (y 0).val; rw [e1a]; omega
  | ⟨1, _⟩ => show win0_1.index t (1 : Fin 2) * 128 + 1 * (y 1).val = (y 1).val; rw [e1b]; omega

/-- Window 2's block at any point is its whole array. -/
theorem blk0_2 (c : Dev nD) (t : Fin cfg0.N) : (iblk0 V c 2 t : Vec Ideal S128 .f32) = (V c main_arg3 : S128.Idx → EReal) := by
  obtain ⟨e0a, e0b, e1a, e1b, e2a, e3a, e3b⟩ := idx0 t
  funext y
  unfold iblk0
  rw [View.read_apply]
  show V c main_arg3 _ = V c main_arg3 _
  refine congrArg (V c main_arg3) ?_
  funext a
  apply Fin.ext
  match a with
  | ⟨0, _⟩ => show win0_2.index t (0 : Fin 1) * 128 + 1 * (y 0).val = (y 0).val; rw [e2a]; omega

/-- The region's result: the layer applied to the whole arrays as the region finds them. -/
abbrev G0 (c : Dev nD) : S50000x128.Idx → EReal := dense zr (V c main_arg0) (V c main_arg2) (V c main_arg3)

/-- The layer on the blocks of point t, at an entry of the block, is the layer on the whole arrays at that entry's place. -/
theorem entry0 (c : Dev nD) (t : Fin cfg0.N) (y : S5000x128.Idx) :
    dense zr (iblk0 V c 0 t : Vec Ideal S5000x96 .f32) (iblk0 V c 1 t : Vec Ideal S96x128 .f32) (iblk0 V c 2 t : Vec Ideal S128 .f32) y
      = G0 V c (((cfg0.win 3).blk t).view.emb y) := by
  obtain ⟨e0a, e0b, e1a, e1b, e2a, e3a, e3b⟩ := idx0 t
  have ht := lt0 t
  obtain ⟨p, q, rfl⟩ : ∃ (p : Fin 5000) (q : Fin 128), y = ix2 p q := ⟨y 0, y 1, eq_ix2 y⟩
  have hemb : ((cfg0.win 3).blk t).view.emb (ix2 p q) = ix2 (⟨t.val * 5000 + p.val, by omega⟩ : Fin 50000) q := by
    funext a
    apply Fin.ext
    match a with
    | ⟨0, _⟩ => show win0_3.index t (0 : Fin 2) * 5000 + 1 * p.val = t.val * 5000 + p.val; rw [e3a]; omega
    | ⟨1, _⟩ => show win0_3.index t (1 : Fin 2) * 128 + 1 * q.val = q.val; rw [e3b]; omega
  rw [hemb, blk0_1 V c t, blk0_2 V c t]
  exact denseAt_congr zr _ _ _ _ p _ (fun k => blk0_0 V c t p k _ rfl) q

/-- What point t writes back is block t of the layer applied to the whole arrays. -/
theorem flushed0 (c : Dev nD) (t : Fin cfg0.N) :
    (dat0 V c).flushed 3 t = ((cfg0.win 3).blk t).view.read (Elt Ideal) (G0 V c) := by
  show (cfg0.win 3).cut (grid0.coords t) ((dat0 V c).after 3 t) = _
  rw [after0_3]
  unfold out0_3
  rw [View.canon_unit_zero hz2]
  simp only [View.ld_unit_zero (S := S5000x96) hz2, View.ld_unit_zero (S := S96x128) hz2, View.ld_unit_zero (S := S128) hz1]
  rw [pay0]
  funext j
  exact entry0 V c t j

/-- Every row of the result lies in the block of the point its number divided by 5000 names. -/
theorem cover0 (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  let t : Fin cfg0.N := ⟨(i 0).val / 5000, by rw [show cfg0.N = 10 from N_0]; omega⟩
  obtain ⟨e0a, e0b, e1a, e1b, e2a, e3a, e3b⟩ := idx0 t
  have e' : win0_3.index t (0 : Fin 2) = (i 0).val / 5000 := e3a
  refine ⟨t, flush0_3 t, ?_⟩
  show i ∈ ((View.whole main_v16).slice (win0_3.rect t)).set
  rw [View.set_slice_whole, Rect.mem_set_unit]
  intro a
  match a with
  | ⟨0, _⟩ => show win0_3.index t (0 : Fin 2) * 5000 ≤ (i 0).val ∧ (i 0).val < win0_3.index t (0 : Fin 2) * 5000 + 5000; rw [e']; omega
  | ⟨1, _⟩ => show win0_3.index t (1 : Fin 2) * 128 ≤ (i 1).val ∧ (i 1).val < win0_3.index t (1 : Fin 2) * 128 + 128; rw [e3b]; omega

/-- The result array after the region: the layer applied to the whole arrays. -/
theorem final0 (c : Dev nD) : (dat0 V c).arrAt 3 cfg0.N = G0 V c :=
  (dat0 V c).arrAt_eq_of_cover 3 (G0 V c) (fun t _ => flushed0 V c t) cover0

end Cert.KernelIdeal.Hand

end
-- ==== Proof.Region1.lean ====
/-
  Region 1: the product (h · W) scaled row by row, as one array.  The grid has ten points; point t loads rows
  5000 t … 5000 t + 4999 of the features and of the one-column factor array, and the whole weight matrix, and writes back
  the same rows of the result.  The body's value is the row-wise layer (h · W) · s of its blocks, so the block written at
  point t is that block of the layer applied to the whole arrays; the ten blocks tile the result array.
-/
import proofs.«169392_j85744727097867_2_alg».proof.Proof.Gen.KernelIdeal.Frame
import proofs.«169392_j85744727097867_2_alg».proof.Proof.Payloads
import Idealize.ShloMosaic.Lib.Pipeline.Value

set_option maxRecDepth 16384

noncomputable section

namespace Cert.KernelIdeal.Hand

open Cert.KernelIdeal Cert.KernelIdeal.Gen Cert.Gcn
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The printed index maps over the grid: the row-blocked windows sit at block t, the whole-array windows at block 0. -/
theorem idx1 : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = t.val
    ∧ win1_2.index t (1 : Fin 2) = 0
    ∧ win1_3.index t (0 : Fin 2) = t.val
    ∧ win1_3.index t (1 : Fin 2) = 0 :=
  (by decide +kernel : ∀ t : Fin grid1.N, _)

theorem lt1 (t : Fin cfg1.N) : t.val < 10 :=
  t.isLt.trans_eq (show cfg1.N = 10 from N_1)

/-- Row p of window 0's block at point t is row 5000 t + p of its array. -/
theorem blk1_0 (c : Dev nD) (t : Fin cfg1.N) (p : Fin 5000) (k : Fin 128) (r : Fin 50000) (hr : r.val = t.val * 5000 + p.val) :
    (iblk1 V c 0 t : Vec Ideal S5000x128 .bf16) (ix2 p k) = (V c main_v16 : S50000x128.Idx → EReal) (ix2 r k) := by
  obtain ⟨e0a, e0b, e1a, e1b, e2a, e2b, e3a, e3b⟩ := idx1 t
  unfold iblk1
  rw [View.read_apply]
  show V c main_v16 _ = V c main_v16 _
  refine congrArg (V c main_v16) ?_
  funext a
  apply Fin.ext
  match a with
  | ⟨0, _⟩ => show win1_0.index t (0 : Fin 2) * 5000 + 1 * p.val = r.val; rw [e0a, hr]; omega
  | ⟨1, _⟩ => show win1_0.index t (1 : Fin 2) * 128 + 1 * k.val = k.val; rw [e0b]; omega

/-- Window 1's block at any point is its whole array. -/
theorem blk1_1 (c : Dev nD) (t : Fin cfg1.N) : (iblk1 V c 1 t : Vec Ideal S128x128 .f32) = (V c main_arg4 : S128x128.Idx → EReal) := by
  obtain ⟨e0a, e0b, e1a, e1b, e2a, e2b, e3a, e3b⟩ := idx1 t
  funext y
  unfold iblk1
  rw [View.read_apply]
  show V c main_arg4 _ = V c main_arg4 _
  refine congrArg (V c main_arg4) ?_
  funext a
  apply Fin.ext
  match a with
  | ⟨0, _⟩ => show win1_1.index t (0 : Fin 2) * 128 + 1 * (y 0).val = (y 0).val; rw [e1a]; omega
  | ⟨1, _⟩ => show win1_1.index t (1 : Fin 2) * 128 + 1 * (y 1).val = (y 1).val; rw [e1b]; omega

/-- Row p of window 2's block at point t is row 5000 t + p of its array. -/
theorem blk1_2 (c : Dev nD) (t : Fin cfg1.N) (p : Fin 5000) (k : Fin 1) (r : Fin 50000) (hr : r.val = t.val * 5000 + p.val) :
    (iblk1 V c 2 t : Vec Ideal S5000x1 .f32) (ix2 p k) = (V c main_v15 : S50000x1.Idx → EReal) (ix2 r k) := by
  obtain ⟨e0a, e0b, e1a, e1b, e2a, e2b, e3a, e3b⟩ := idx1 t
  unfold iblk1
  rw [View.read_apply]
  show V c main_v15 _ = V c main_v15 _
  refine congrArg (V c main_v15) ?_
  funext a
  apply Fin.ext
  match a with
  | ⟨0, _⟩ => show win1_2.index t (0 : Fin 2) * 5000 + 1 * p.val = r.val; rw [e2a, hr]; omega
  | ⟨1, _⟩ => show win1_2.index t (1 : Fin 2) * 1 + 1 * k.val = k.val; rw [e2b]; omega

/-- The region's result: the layer applied to the whole arrays as the region finds them. -/
abbrev G1 (c : Dev nD) : S50000x128.Idx → EReal := scaled (V c main_v16) (V c main_arg4) (V c main_v15)

/-- The layer on the blocks of point t, at an entry of the block, is the layer on the whole arrays at that entry's place. -/
theorem entry1 (c : Dev nD) (t : Fin cfg1.N) (y : S5000x128.Idx) :
    scaled (iblk1 V c 0 t : Vec Ideal S5000x128 .bf16) (iblk1 V c 1 t : Vec Ideal S128x128 .f32) (iblk1 V c 2 t : Vec Ideal S5000x1 .f32) y
      = G1 V c (((cfg1.win 3).blk t).view.emb y) := by
  obtain ⟨e0a, e0b, e1a, e1b, e2a, e2b, e3a, e3b⟩ := idx1 t
  have ht := lt1 t
  obtain ⟨p, q, rfl⟩ : ∃ (p : Fin 5000) (q : Fin 128), y = ix2 p q := ⟨y 0, y 1, eq_ix2 y⟩
  have hemb : ((cfg1.win 3).blk t).view.emb (ix2 p q) = ix2 (⟨t.val * 5000 + p.val, by omega⟩ : Fin 50000) q := by
    funext a
    apply Fin.ext
    match a with
    | ⟨0, _⟩ => show win1_3.index t (0 : Fin 2) * 5000 + 1 * p.val = t.val * 5000 + p.val; rw [e3a]; omega
    | ⟨1, _⟩ => show win1_3.index t (1 : Fin 2) * 128 + 1 * q.val = q.val; rw [e3b]; omega
  rw [hemb, blk1_1 V c t]
  exact scaledAt_congr _ _ _ _ _ p _ (fun k => blk1_0 V c t p k _ rfl) (blk1_2 V c t p 0 _ rfl) q

/-- What point t writes back is block t of the layer applied to the whole arrays. -/
theorem flushed1 (c : Dev nD) (t : Fin cfg1.N) :
    (dat1 V c).flushed 3 t = ((cfg1.win 3).blk t).view.read (Elt Ideal) (G1 V c) := by
  show (cfg1.win 3).cut (grid1.coords t) ((dat1 V c).after 3 t) = _
  rw [after1_3]
  unfold out1_3
  rw [View.canon_unit_zero hz2]
  simp only [View.ld_unit_zero (S := S5000x128) hz2, View.ld_unit_zero (S := S128x128) hz2, View.ld_unit_zero (S := S5000x1) hz2]
  rw [pay1]
  funext j
  exact entry1 V c t j

/-- Every row of the result lies in the block of the point its number divided by 5000 names. -/
theorem cover1 (i : S50000x128.Idx) : ∃ t : Fin cfg1.N, (cfg1.win 3).flush t = true ∧ i ∈ ((cfg1.win 3).blk t).view.set := by
  have hi0 : (i 0).val < 50000 := (i 0).isLt
  have hi1 : (i 1).val < 128 := (i 1).isLt
  let t : Fin cfg1.N := ⟨(i 0).val / 5000, by rw [show cfg1.N = 10 from N_1]; omega⟩
  obtain ⟨e0a, e0b, e1a, e1b, e2a, e2b, e3a, e3b⟩ := idx1 t
  have e' : win1_3.index t (0 : Fin 2) = (i 0).val / 5000 := e3a
  refine ⟨t, flush1_3 t, ?_⟩
  show i ∈ ((View.whole main_v17).slice (win1_3.rect t)).set
  rw [View.set_slice_whole, Rect.mem_set_unit]
  intro a
  match a with
  | ⟨0, _⟩ => show win1_3.index t (0 : Fin 2) * 5000 ≤ (i 0).val ∧ (i 0).val < win1_3.index t (0 : Fin 2) * 5000 + 5000; rw [e']; omega
  | ⟨1, _⟩ => show win1_3.index t (1 : Fin 2) * 128 ≤ (i 1).val ∧ (i 1).val < win1_3.index t (1 : Fin 2) * 128 + 128; rw [e3b]; omega

/-- The result array after the region: the layer applied to the whole arrays. -/
theorem final1 (c : Dev nD) : (dat1 V c).arrAt 3 cfg1.N = G1 V c :=
  (dat1 V c).arrAt_eq_of_cover 3 (G1 V c) (fun t _ => flushed1 V c t) cover1

end Cert.KernelIdeal.Hand

end
-- ==== Proof.KernelValueA.lean ====
/-
  The buffers of the idealized kernel's program at its segment boundaries, first part: after the opening host
  operations (the edge list split and extended by the self loops, the degree normaliser), after region 0 (the input
  projection) and after region 1 (the first layer's scaled product).  Each fact reads one buffer at one boundary as a
  closed term of the argument arrays: a host operation's result is its function of its operands' contents; a region leaves
  its output at the layer of its inputs (the region's own module) and every other buffer as it found it.
-/
import proofs.«169392_j85744727097867_2_alg».proof.Proof.Gen.KernelIdeal.Frame
import proofs.«169392_j85744727097867_2_alg».proof.Proof.KernelTerms
import proofs.«169392_j85744727097867_2_alg».proof.Proof.Region0
import proofs.«169392_j85744727097867_2_alg».proof.Proof.Region1
import Idealize.ShloMosaic.Lib.StableHlo.Run

set_option maxRecDepth 16384

noncomputable section

namespace Cert.KernelIdeal.Hand

open Cert.KernelIdeal Cert.KernelIdeal.Gen Cert.Gcn
open Idealize.ShloMosaic Idealize.ShloMosaic.TcCoe Idealize.ShloMosaic.ValueIdx Idealize.SL.Sem Idealize.ShloMosaic.StableHlo
open Idealize.ShloMosaic.Pipeline (Dat)

/-- The results of host operations, one rewrite at a time, at any depth of the term (inside the pieces of a
    concatenation too): an operation's result at its own buffer is its function's value, at any other buffer what was there. -/
macro "results_rw" : tactic =>
  `(tactic| repeat (first
      | rw [StableHlo.nullary_result] | rw [StableHlo.unary_result] | rw [StableHlo.binary_result] | rw [StableHlo.ternary_result]
      | rw [StableHlo.reshape_result]
      | (rw [StableHlo.nullary_result_ne]; rotate_left; decide)
      | (rw [StableHlo.unary_result_ne]; rotate_left; decide)
      | (rw [StableHlo.binary_result_ne]; rotate_left; decide)
      | (rw [StableHlo.ternary_result_ne]; rotate_left; decide)
      | (rw [StableHlo.reshape_result_ne]; rotate_left; decide)))

variable (m : (ℓ : Loc nD τ sig) → Buf (Elt Ideal) ℓ) (ρ : Dev nD → PrngReg) (c : Dev nD)

set_option maxHeartbeats 4000000 in
theorem W3_arg0 : W3 m ρ c (Proc.devRef .tc main_arg0) = (m ((c.tc : Thread nD τ).loc main_arg0)) := by
  show StableHlo.after hostOps0_2 (StableHlo.after hostOps0_1 (StableHlo.after hostOps0 (W0 m ρ c))) (Proc.devRef .tc main_arg0) = _
  after_results_simp
  all_goals rfl

set_option maxHeartbeats 4000000 in
theorem W3_arg10 : W3 m ρ c (Proc.devRef .tc main_arg10) = (m ((c.tc : Thread nD τ).loc main_arg10)) := by
  show StableHlo.after hostOps0_2 (StableHlo.after hostOps0_1 (StableHlo.after hostOps0 (W0 m ρ c))) (Proc.devRef .tc main_arg10) = _
  after_results_simp
  all_goals rfl

set_option maxHeartbeats 4000000 in
theorem W3_arg11 : W3 m ρ c (Proc.devRef .tc main_arg11) = (m ((c.tc : Thread nD τ).loc main_arg11)) := by
  show StableHlo.after hostOps0_2 (StableHlo.after hostOps0_1 (StableHlo.after hostOps0 (W0 m ρ c))) (Proc.devRef .tc main_arg11) = _
  after_results_simp
  all_goals rfl

set_option maxHeartbeats 4000000 in
theorem W3_arg2 : W3 m ρ c (Proc.devRef .tc main_arg2) = (m ((c.tc : Thread nD τ).loc main_arg2)) := by
  show StableHlo.after hostOps0_2 (StableHlo.after hostOps0_1 (StableHlo.after hostOps0 (W0 m ρ c))) (Proc.devRef .tc main_arg2) = _
  after_results_simp
  all_goals rfl

set_option maxHeartbeats 4000000 in
theorem W3_arg3 : W3 m ρ c (Proc.devRef .tc main_arg3) = (m ((c.tc : Thread nD τ).loc main_arg3)) := by
  show StableHlo.after hostOps0_2 (StableHlo.after hostOps0_1 (StableHlo.after hostOps0 (W0 m ρ c))) (Proc.devRef .tc main_arg3) = _
  after_results_simp
  all_goals rfl

set_option maxHeartbeats 4000000 in
theorem W3_arg4 : W3 m ρ c (Proc.devRef .tc main_arg4) = (m ((c.tc : Thread nD τ).loc main_arg4)) := by
  show StableHlo.after hostOps0_2 (StableHlo.after hostOps0_1 (StableHlo.after hostOps0 (W0 m ρ c))) (Proc.devRef .tc main_arg4) = _
  after_results_simp
  all_goals rfl

set_option maxHeartbeats 4000000 in
theorem W3_arg5 : W3 m ρ c (Proc.devRef .tc main_arg5) = (m ((c.tc : Thread nD τ).loc main_arg5)) := by
  show StableHlo.after hostOps0_2 (StableHlo.after hostOps0_1 (StableHlo.after hostOps0 (W0 m ρ c))) (Proc.devRef .tc main_arg5) = _
  after_results_simp
  all_goals rfl

set_option maxHeartbeats 4000000 in
theorem W3_arg6 : W3 m ρ c (Proc.devRef .tc main_arg6) = (m ((c.tc : Thread nD τ).loc main_arg6)) := by
  show StableHlo.after hostOps0_2 (StableHlo.after hostOps0_1 (StableHlo.after hostOps0 (W0 m ρ c))) (Proc.devRef .tc main_arg6) = _
  after_results_simp
  all_goals rfl

set_option maxHeartbeats 4000000 in
theorem W3_arg7 : W3 m ρ c (Proc.devRef .tc main_arg7) = (m ((c.tc : Thread nD τ).loc main_arg7)) := by
  show StableHlo.after hostOps0_2 (StableHlo.after hostOps0_1 (StableHlo.after hostOps0 (W0 m ρ c))) (Proc.devRef .tc main_arg7) = _
  after_results_simp
  all_goals rfl

set_option maxHeartbeats 4000000 in
theorem W3_arg8 : W3 m ρ c (Proc.devRef .tc main_arg8) = (m ((c.tc : Thread nD τ).loc main_arg8)) := by
  show StableHlo.after hostOps0_2 (StableHlo.after hostOps0_1 (StableHlo.after hostOps0 (W0 m ρ c))) (Proc.devRef .tc main_arg8) = _
  after_results_simp
  all_goals rfl

set_option maxHeartbeats 4000000 in
theorem W3_arg9 : W3 m ρ c (Proc.devRef .tc main_arg9) = (m ((c.tc : Thread nD τ).loc main_arg9)) := by
  show StableHlo.after hostOps0_2 (StableHlo.after hostOps0_1 (StableHlo.after hostOps0 (W0 m ρ c))) (Proc.devRef .tc main_arg9) = _
  after_results_simp
  all_goals rfl

set_option maxHeartbeats 4000000 in
theorem W3_v1 : (W3 m ρ c (Proc.devRef .tc main_v1) : S800000.Idx → BitVec 32) = (kSrc (m ((c.tc : Thread nD τ).loc main_arg1))) := by
  show StableHlo.after hostOps0_2 (StableHlo.after hostOps0_1 (StableHlo.after hostOps0 (W0 m ρ c))) (Proc.devRef .tc main_v1) = _
  after_results_simp
  results_rw
  all_goals rfl

set_option maxHeartbeats 4000000 in
theorem W1_v12 : (W1 m ρ c (Proc.devRef .tc main_v12) : S50000.Idx → BitVec 1)
    = cmpf .ogt (kDeg (m ((c.tc : Thread nD τ).loc main_arg1))) (broadcastInDim S50000 ![] bcast_S_S50000 (constant S_ .f32 0x00000000#32)) := by
  show StableHlo.after hostOps0 (W0 m ρ c) (Proc.devRef .tc main_v12) = _
  after_results_simp
  results_rw
  all_goals rfl

set_option maxHeartbeats 4000000 in
theorem W1_v13 : (W1 m ρ c (Proc.devRef .tc main_v13) : S50000.Idx → EReal) = Host.rsqrt (kDeg (m ((c.tc : Thread nD τ).loc main_arg1))) := by
  show StableHlo.after hostOps0 (W0 m ρ c) (Proc.devRef .tc main_v13) = _
  after_results_simp
  results_rw
  all_goals rfl

set_option maxHeartbeats 4000000 in
theorem W1_cst_2 : (W1 m ρ c (Proc.devRef .tc main_cst_2) : S_.Idx → EReal) = constant (F := Ideal) S_ .f32 0x00000000#32 := by
  show StableHlo.after hostOps0 (W0 m ρ c) (Proc.devRef .tc main_cst_2) = _
  after_results_simp
  all_goals rfl

/-! The buffers of the outlined `where` are read through their typed references: a transport along "this buffer's type is
    the value's type", which is the identity since the two types are the same. -/

theorem ob12 (p1 p2 p3) (X : (main_v12 : Ref sig .tc).ty.Contents (Elt Ideal)) :
    ((StableHlo.TRef.of (T := ⟨S50000, .i1⟩) main_v12 p1 p2 p3).ofBuf X : S50000.Idx → BitVec 1) = X := rfl
theorem ob13 (p1 p2 p3) (X : (main_v13 : Ref sig .tc).ty.Contents (Elt Ideal)) :
    ((StableHlo.TRef.of (T := ⟨S50000, .f32⟩) main_v13 p1 p2 p3).ofBuf X : S50000.Idx → EReal) = X := rfl
theorem tb14 (p1 p2 p3) (X : S50000.Idx → EReal) :
    ((StableHlo.TRef.of (T := ⟨S50000, .f32⟩) main_v14 p1 p2 p3).toBuf (Val := Elt Ideal) X : S50000.Idx → EReal) = X := rfl
theorem obc1 (p1 p2 p3) (X : (main_call0_v1 : Ref sig .tc).ty.Contents (Elt Ideal)) :
    ((StableHlo.TRef.of (T := ⟨S50000, .f32⟩) main_call0_v1 p1 p2 p3).ofBuf X : S50000.Idx → EReal) = X := rfl
theorem tbc1 (p1 p2 p3) (X : S50000.Idx → EReal) :
    ((StableHlo.TRef.of (T := ⟨S50000, .f32⟩) main_call0_v1 p1 p2 p3).toBuf (Val := Elt Ideal) X : S50000.Idx → EReal) = X := rfl
theorem obc0 (p1 p2 p3) (X : (main_call0_v0 : Ref sig .tc).ty.Contents (Elt Ideal)) :
    ((StableHlo.TRef.of (T := ⟨S_, .f32⟩) main_call0_v0 p1 p2 p3).ofBuf X : S_.Idx → EReal) = X := rfl
theorem tbc0 (p1 p2 p3) (X : S_.Idx → EReal) :
    ((StableHlo.TRef.of (T := ⟨S_, .f32⟩) main_call0_v0 p1 p2 p3).toBuf (Val := Elt Ideal) X : S_.Idx → EReal) = X := rfl
theorem obcst2 (p1 p2 p3) (X : (main_cst_2 : Ref sig .tc).ty.Contents (Elt Ideal)) :
    ((StableHlo.TRef.of (T := ⟨S_, .f32⟩) main_cst_2 p1 p2 p3).ofBuf X : S_.Idx → EReal) = X := rfl

set_option maxHeartbeats 4000000 in
theorem W2_v14 : (W2 m ρ c (Proc.devRef .tc main_v14) : S50000.Idx → EReal) = kDinv (m ((c.tc : Thread nD τ).loc main_arg1)) := by
  have h12 := W1_v12 m ρ c
  have h13 := W1_v13 m ρ c
  have hc2 := W1_cst_2 m ρ c
  show StableHlo.after hostOps0_1 (W1 m ρ c) (Proc.devRef .tc main_v14) = _
  generalize W1 m ρ c = V at h12 h13 hc2 ⊢
  after_results_simp
  rw [h12, h13, hc2]
  rw [tb14, ob12, ob13, obc1, tbc1, obc0, tbc0, obcst2]
  exact (kDinv_def _).symm

set_option maxHeartbeats 4000000 in
theorem W3_v15 : (W3 m ρ c (Proc.devRef .tc main_v15) : S50000x1.Idx → EReal) = (kDinv2 (m ((c.tc : Thread nD τ).loc main_arg1))) := by
  have h14 := W2_v14 m ρ c
  show StableHlo.after hostOps0_2 (W2 m ρ c) (Proc.devRef .tc main_v15) = _
  generalize W2 m ρ c = V at h14 ⊢
  after_results_simp
  rw [h14]
  exact (kDinv2_def _).symm

set_option maxHeartbeats 4000000 in
theorem W3_v3 : (W3 m ρ c (Proc.devRef .tc main_v3) : S800000.Idx → BitVec 32) = (kDst (m ((c.tc : Thread nD τ).loc main_arg1))) := by
  show StableHlo.after hostOps0_2 (StableHlo.after hostOps0_1 (StableHlo.after hostOps0 (W0 m ρ c))) (Proc.devRef .tc main_v3) = _
  after_results_simp
  results_rw
  all_goals rfl

set_option maxHeartbeats 4000000 in
theorem W3_v5 : (W3 m ρ c (Proc.devRef .tc main_v5) : S850000.Idx → BitVec 32) = (kRow (m ((c.tc : Thread nD τ).loc main_arg1))) := by
  show StableHlo.after hostOps0_2 (StableHlo.after hostOps0_1 (StableHlo.after hostOps0 (W0 m ρ c))) (Proc.devRef .tc main_v5) = _
  after_results_simp
  results_rw
  all_goals rfl

set_option maxHeartbeats 4000000 in
theorem W3_v6 : (W3 m ρ c (Proc.devRef .tc main_v6) : S850000.Idx → BitVec 32) = (kCol (m ((c.tc : Thread nD τ).loc main_arg1))) := by
  show StableHlo.after hostOps0_2 (StableHlo.after hostOps0_1 (StableHlo.after hostOps0 (W0 m ρ c))) (Proc.devRef .tc main_v6) = _
  after_results_simp
  results_rw
  all_goals rfl

/-! ## Boundary 4 -/

set_option maxHeartbeats 4000000 in
theorem W4_v16 : (W4 m ρ c (Proc.devRef .tc main_v16) : S50000x128.Idx → EReal) = (dense zr (m ((c.tc : Thread nD τ).loc main_arg0)) (m ((c.tc : Thread nD τ).loc main_arg2)) (m ((c.tc : Thread nD τ).loc main_arg3))) := by
  refine (W4_arr m ρ c 3).trans ((final0 (V3 m ρ) c).trans ?_)
  show dense zr (W3 m ρ c (Proc.devRef .tc main_arg0)) (W3 m ρ c (Proc.devRef .tc main_arg2)) (W3 m ρ c (Proc.devRef .tc main_arg3)) = _
  rw [W3_arg0 m ρ c, W3_arg2 m ρ c, W3_arg3 m ρ c]

set_option maxHeartbeats 4000000 in
theorem W4_arg4 : W4 m ρ c (Proc.devRef .tc main_arg4) = (m ((c.tc : Thread nD τ).loc main_arg4)) :=
  (W4_of_ne m ρ c main_arg4 (by decide)).trans (W3_arg4 m ρ c)

set_option maxHeartbeats 4000000 in
theorem W4_v15 : (W4 m ρ c (Proc.devRef .tc main_v15) : S50000x1.Idx → EReal) = (kDinv2 (m ((c.tc : Thread nD τ).loc main_arg1))) :=
  (W4_of_ne m ρ c main_v15 (by decide)).trans (W3_v15 m ρ c)

set_option maxHeartbeats 4000000 in
theorem W4_v5 : (W4 m ρ c (Proc.devRef .tc main_v5) : S850000.Idx → BitVec 32) = (kRow (m ((c.tc : Thread nD τ).loc main_arg1))) :=
  (W4_of_ne m ρ c main_v5 (by decide)).trans (W3_v5 m ρ c)

set_option maxHeartbeats 4000000 in
theorem W4_v6 : (W4 m ρ c (Proc.devRef .tc main_v6) : S850000.Idx → BitVec 32) = (kCol (m ((c.tc : Thread nD τ).loc main_arg1))) :=
  (W4_of_ne m ρ c main_v6 (by decide)).trans (W3_v6 m ρ c)

set_option maxHeartbeats 4000000 in
theorem W4_arg5 : W4 m ρ c (Proc.devRef .tc main_arg5) = (m ((c.tc : Thread nD τ).loc main_arg5)) :=
  (W4_of_ne m ρ c main_arg5 (by decide)).trans (W3_arg5 m ρ c)

set_option maxHeartbeats 4000000 in
theorem W4_arg6 : W4 m ρ c (Proc.devRef .tc main_arg6) = (m ((c.tc : Thread nD τ).loc main_arg6)) :=
  (W4_of_ne m ρ c main_arg6 (by decide)).trans (W3_arg6 m ρ c)

set_option maxHeartbeats 4000000 in
theorem W4_arg7 : W4 m ρ c (Proc.devRef .tc main_arg7) = (m ((c.tc : Thread nD τ).loc main_arg7)) :=
  (W4_of_ne m ρ c main_arg7 (by decide)).trans (W3_arg7 m ρ c)

set_option maxHeartbeats 4000000 in
theorem W4_v1 : (W4 m ρ c (Proc.devRef .tc main_v1) : S800000.Idx → BitVec 32) = (kSrc (m ((c.tc : Thread nD τ).loc main_arg1))) :=
  (W4_of_ne m ρ c main_v1 (by decide)).trans (W3_v1 m ρ c)

set_option maxHeartbeats 4000000 in
theorem W4_v3 : (W4 m ρ c (Proc.devRef .tc main_v3) : S800000.Idx → BitVec 32) = (kDst (m ((c.tc : Thread nD τ).loc main_arg1))) :=
  (W4_of_ne m ρ c main_v3 (by decide)).trans (W3_v3 m ρ c)

set_option maxHeartbeats 4000000 in
theorem W4_arg8 : W4 m ρ c (Proc.devRef .tc main_arg8) = (m ((c.tc : Thread nD τ).loc main_arg8)) :=
  (W4_of_ne m ρ c main_arg8 (by decide)).trans (W3_arg8 m ρ c)

set_option maxHeartbeats 4000000 in
theorem W4_arg9 : W4 m ρ c (Proc.devRef .tc main_arg9) = (m ((c.tc : Thread nD τ).loc main_arg9)) :=
  (W4_of_ne m ρ c main_arg9 (by decide)).trans (W3_arg9 m ρ c)

set_option maxHeartbeats 4000000 in
theorem W4_arg10 : W4 m ρ c (Proc.devRef .tc main_arg10) = (m ((c.tc : Thread nD τ).loc main_arg10)) :=
  (W4_of_ne m ρ c main_arg10 (by decide)).trans (W3_arg10 m ρ c)

set_option maxHeartbeats 4000000 in
theorem W4_arg11 : W4 m ρ c (Proc.devRef .tc main_arg11) = (m ((c.tc : Thread nD τ).loc main_arg11)) :=
  (W4_of_ne m ρ c main_arg11 (by decide)).trans (W3_arg11 m ρ c)

/-! ## Boundary 5 -/

set_option maxHeartbeats 4000000 in
theorem W5_v17 : (W5 m ρ c (Proc.devRef .tc main_v17) : S50000x128.Idx → EReal) = (scaled (dense zr (m ((c.tc : Thread nD τ).loc main_arg0)) (m ((c.tc : Thread nD τ).loc main_arg2)) (m ((c.tc : Thread nD τ).loc main_arg3))) (m ((c.tc : Thread nD τ).loc main_arg4)) (kDinv2 (m ((c.tc : Thread nD τ).loc main_arg1)))) := by
  refine (W5_arr m ρ c 3).trans ((final1 (V4 m ρ) c).trans ?_)
  show scaled (W4 m ρ c (Proc.devRef .tc main_v16)) (W4 m ρ c (Proc.devRef .tc main_arg4)) (W4 m ρ c (Proc.devRef .tc main_v15)) = _
  rw [W4_v16 m ρ c, W4_arg4 m ρ c, W4_v15 m ρ c]

set_option maxHeartbeats 4000000 in
theorem W5_v5 : (W5 m ρ c (Proc.devRef .tc main_v5) : S850000.Idx → BitVec 32) = (kRow (m ((c.tc : Thread nD τ).loc main_arg1))) :=
  (W5_of_ne m ρ c main_v5 (by decide)).trans (W4_v5 m ρ c)

set_option maxHeartbeats 4000000 in
theorem W5_v6 : (W5 m ρ c (Proc.devRef .tc main_v6) : S850000.Idx → BitVec 32) = (kCol (m ((c.tc : Thread nD τ).loc main_arg1))) :=
  (W5_of_ne m ρ c main_v6 (by decide)).trans (W4_v6 m ρ c)

set_option maxHeartbeats 4000000 in
theorem W5_v15 : (W5 m ρ c (Proc.devRef .tc main_v15) : S50000x1.Idx → EReal) = (kDinv2 (m ((c.tc : Thread nD τ).loc main_arg1))) :=
  (W5_arr m ρ c 2).trans ((((dat1 (V4 m ρ) c).arrAt_in 2 rfl _).trans (A_eq1 (V4 m ρ) c 2)).trans (W4_v15 m ρ c))

set_option maxHeartbeats 4000000 in
theorem W5_arg5 : W5 m ρ c (Proc.devRef .tc main_arg5) = (m ((c.tc : Thread nD τ).loc main_arg5)) :=
  (W5_of_ne m ρ c main_arg5 (by decide)).trans (W4_arg5 m ρ c)

set_option maxHeartbeats 4000000 in
theorem W5_arg6 : W5 m ρ c (Proc.devRef .tc main_arg6) = (m ((c.tc : Thread nD τ).loc main_arg6)) :=
  (W5_of_ne m ρ c main_arg6 (by decide)).trans (W4_arg6 m ρ c)

set_option maxHeartbeats 4000000 in
theorem W5_arg7 : W5 m ρ c (Proc.devRef .tc main_arg7) = (m ((c.tc : Thread nD τ).loc main_arg7)) :=
  (W5_of_ne m ρ c main_arg7 (by decide)).trans (W4_arg7 m ρ c)

set_option maxHeartbeats 4000000 in
theorem W5_v1 : (W5 m ρ c (Proc.devRef .tc main_v1) : S800000.Idx → BitVec 32) = (kSrc (m ((c.tc : Thread nD τ).loc main_arg1))) :=
  (W5_of_ne m ρ c main_v1 (by decide)).trans (W4_v1 m ρ c)

set_option maxHeartbeats 4000000 in
theorem W5_v3 : (W5 m ρ c (Proc.devRef .tc main_v3) : S800000.Idx → BitVec 32) = (kDst (m ((c.tc : Thread nD τ).loc main_arg1))) :=
  (W5_of_ne m ρ c main_v3 (by decide)).trans (W4_v3 m ρ c)

set_option maxHeartbeats 4000000 in
theorem W5_arg8 : W5 m ρ c (Proc.devRef .tc main_arg8) = (m ((c.tc : Thread nD τ).loc main_arg8)) :=
  (W5_of_ne m ρ c main_arg8 (by decide)).trans (W4_arg8 m ρ c)

set_option maxHeartbeats 4000000 in
theorem W5_arg9 : W5 m ρ c (Proc.devRef .tc main_arg9) = (m ((c.tc : Thread nD τ).loc main_arg9)) :=
  (W5_of_ne m ρ c main_arg9 (by decide)).trans (W4_arg9 m ρ c)

set_option maxHeartbeats 4000000 in
theorem W5_arg10 : W5 m ρ c (Proc.devRef .tc main_arg10) = (m ((c.tc : Thread nD τ).loc main_arg10)) :=
  (W5_of_ne m ρ c main_arg10 (by decide)).trans (W4_arg10 m ρ c)

set_option maxHeartbeats 4000000 in
theorem W5_arg11 : W5 m ρ c (Proc.devRef .tc main_arg11) = (m ((c.tc : Thread nD τ).loc main_arg11)) :=
  (W5_of_ne m ρ c main_arg11 (by decide)).trans (W4_arg11 m ρ c)

end Cert.KernelIdeal.Hand

end
-- ==== Proof.Region2.lean ====
/-
  Region 2: the aggregated rows scaled, biased and rectified, as one array.  The grid has ten points; point t loads
  rows 5000 t … 5000 t + 4999 of the aggregate and of the one-column factor array, and the whole bias, and writes back the
  same rows of the result.  The body's value is the row-wise layer max (a · s + b, 0) of its blocks, so the block
  written at point t is that block of the layer applied to the whole arrays; the ten blocks tile the result array.
-/
import proofs.«169392_j85744727097867_2_alg».proof.Proof.Gen.KernelIdeal.Frame
import proofs.«169392_j85744727097867_2_alg».proof.Proof.Payloads
import Idealize.ShloMosaic.Lib.Pipeline.Value

set_option maxRecDepth 16384

noncomputable section

namespace Cert.KernelIdeal.Hand

open Cert.KernelIdeal Cert.KernelIdeal.Gen Cert.Gcn
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The printed index maps over the grid: the row-blocked windows sit at block t, the whole-array windows at block 0. -/
theorem idx2 : ∀ t : Fin cfg2.N, win2_0.index t (0 : Fin 2) = t.val
    ∧ win2_0.index t (1 : Fin 2) = 0
    ∧ win2_1.index t (0 : Fin 2) = t.val
    ∧ win2_1.index t (1 : Fin 2) = 0
    ∧ win2_2.index t (0 : Fin 1) = 0
    ∧ win2_3.index t (0 : Fin 2) = t.val
    ∧ win2_3.index t (1 : Fin 2) = 0 :=
  (by decide +kernel : ∀ t : Fin grid2.N, _)

theorem lt2 (t : Fin cfg2.N) : t.val < 10 :=
  t.isLt.trans_eq (show cfg2.N = 10 from N_2)

/-- Row p of window 0's block at point t is row 5000 t + p of its array. -/
theorem blk2_0 (c : Dev nD) (t : Fin cfg2.N) (p : Fin 5000) (k : Fin 128) (r : Fin 50000) (hr : r.val = t.val * 5000 + p.val) :
    (iblk2 V c 0 t : Vec Ideal S5000x128 .f32) (ix2 p k) = (V c main_v28 : S50000x128.Idx → EReal) (ix2 r k) := by
  obtain ⟨e0a, e0b, e1a, e1b, e2a, e3a, e3b⟩ := idx2 t
  unfold iblk2
  rw [View.read_apply]
  show V c main_v28 _ = V c main_v28 _
  refine congrArg (V c main_v28) ?_
  funext a
  apply Fin.ext
  match a with
  | ⟨0, _⟩ => show win2_0.index t (0 : Fin 2) * 5000 + 1 * p.val = r.val; rw [e0a, hr]; omega
  | ⟨1, _⟩ => show win2_0.index t (1 : Fin 2) * 128 + 1 * k.val = k.val; rw [e0b]; omega

/-- Row p of window 1's block at point t is row 5000 t + p of its array. -/
theorem blk2_1 (c : Dev nD) (t : Fin cfg2.N) (p : Fin 5000) (k : Fin 1) (r : Fin 50000) (hr : r.val = t.val * 5000 + p.val) :
    (iblk2 V c 1 t : Vec Ideal S5000x1 .f32) (ix2 p k) = (V c main_v15 : S50000x1.Idx → EReal) (ix2 r k) := by
  obtain ⟨e0a, e0b, e1a, e1b, e2a, e3a, e3b⟩ := idx2 t
  unfold iblk2
  rw [View.read_apply]
  show V c main_v15 _ = V c main_v15 _
  refine congrArg (V c main_v15) ?_
  funext a
  apply Fin.ext
  match a with
  | ⟨0, _⟩ => show win2_1.index t (0 : Fin 2) * 5000 + 1 * p.val = r.val; rw [e1a, hr]; omega
  | ⟨1, _⟩ => show win2_1.index t (1 : Fin 2) * 1 + 1 * k.val = k.val; rw [e1b]; omega

/-- Window 2's block at any point is its whole array. -/
theorem blk2_2 (c : Dev nD) (t : Fin cfg2.N) : (iblk2 V c 2 t : Vec Ideal S128 .f32) = (V c main_arg5 : S128.Idx → EReal) := by
  obtain ⟨e0a, e0b, e1a, e1b, e2a, e3a, e3b⟩ := idx2 t
  funext y
  unfold iblk2
  rw [View.read_apply]
  show V c main_arg5 _ = V c main_arg5 _
  refine congrArg (V c main_arg5) ?_
  funext a
  apply Fin.ext
  match a with
  | ⟨0, _⟩ => show win2_2.index t (0 : Fin 1) * 128 + 1 * (y 0).val = (y 0).val; rw [e2a]; omega

/-- The region's result: the layer applied to the whole arrays as the region finds them. -/
abbrev G2 (c : Dev nD) : S50000x128.Idx → EReal := rescaled zr (V c main_v28) (V c main_v15) (V c main_arg5)

/-- The layer on the blocks of point t, at an entry of the block, is the layer on the whole arrays at that entry's place. -/
theorem entry2 (c : Dev nD) (t : Fin cfg2.N) (y : S5000x128.Idx) :
    rescaled zr (iblk2 V c 0 t : Vec Ideal S5000x128 .f32) (iblk2 V c 1 t : Vec Ideal S5000x1 .f32) (iblk2 V c 2 t : Vec Ideal S128 .f32) y
      = G2 V c (((cfg2.win 3).blk t).view.emb y) := by
  obtain ⟨e0a, e0b, e1a, e1b, e2a, e3a, e3b⟩ := idx2 t
  have ht := lt2 t
  obtain ⟨p, q, rfl⟩ : ∃ (p : Fin 5000) (q : Fin 128), y = ix2 p q := ⟨y 0, y 1, eq_ix2 y⟩
  have hemb : ((cfg2.win 3).blk t).view.emb (ix2 p q) = ix2 (⟨t.val * 5000 + p.val, by omega⟩ : Fin 50000) q := by
    funext a
    apply Fin.ext
    match a with
    | ⟨0, _⟩ => show win2_3.index t (0 : Fin 2) * 5000 + 1 * p.val = t.val * 5000 + p.val; rw [e3a]; omega
    | ⟨1, _⟩ => show win2_3.index t (1 : Fin 2) * 128 + 1 * q.val = q.val; rw [e3b]; omega
  rw [hemb, blk2_2 V c t]
  exact rescaledAt_congr zr _ _ _ _ _ p _ q (blk2_0 V c t p q _ rfl) (blk2_1 V c t p 0 _ rfl)

/-- What point t writes back is block t of the layer applied to the whole arrays. -/
theorem flushed2 (c : Dev nD) (t : Fin cfg2.N) :
    (dat2 V c).flushed 3 t = ((cfg2.win 3).blk t).view.read (Elt Ideal) (G2 V c) := by
  show (cfg2.win 3).cut (grid2.coords t) ((dat2 V c).after 3 t) = _
  rw [after2_3]
  unfold out2_3
  rw [View.canon_unit_zero hz2]
  simp only [View.ld_unit_zero (S := S5000x128) hz2, View.ld_unit_zero (S := S5000x1) hz2, View.ld_unit_zero (S := S128) hz1]
  rw [pay2]
  funext j
  exact entry2 V c t j

/-- Every row of the result lies in the block of the point its number divided by 5000 names. -/
theorem cover2 (i : S50000x128.Idx) : ∃ t : Fin cfg2.N, (cfg2.win 3).flush t = true ∧ i ∈ ((cfg2.win 3).blk t).view.set := by
  have hi0 : (i 0).val < 50000 := (i 0).isLt
  have hi1 : (i 1).val < 128 := (i 1).isLt
  let t : Fin cfg2.N := ⟨(i 0).val / 5000, by rw [show cfg2.N = 10 from N_2]; omega⟩
  obtain ⟨e0a, e0b, e1a, e1b, e2a, e3a, e3b⟩ := idx2 t
  have e' : win2_3.index t (0 : Fin 2) = (i 0).val / 5000 := e3a
  refine ⟨t, flush2_3 t, ?_⟩
  show i ∈ ((View.whole main_v29).slice (win2_3.rect t)).set
  rw [View.set_slice_whole, Rect.mem_set_unit]
  intro a
  match a with
  | ⟨0, _⟩ => show win2_3.index t (0 : Fin 2) * 5000 ≤ (i 0).val ∧ (i 0).val < win2_3.index t (0 : Fin 2) * 5000 + 5000; rw [e']; omega
  | ⟨1, _⟩ => show win2_3.index t (1 : Fin 2) * 128 ≤ (i 1).val ∧ (i 1).val < win2_3.index t (1 : Fin 2) * 128 + 128; rw [e3b]; omega

/-- The result array after the region: the layer applied to the whole arrays. -/
theorem final2 (c : Dev nD) : (dat2 V c).arrAt 3 cfg2.N = G2 V c :=
  (dat2 V c).arrAt_eq_of_cover 3 (G2 V c) (fun t _ => flushed2 V c t) cover2

end Cert.KernelIdeal.Hand

end
-- ==== Proof.Region3.lean ====
/-
  Region 3: the product (h · W) scaled row by row, as one array.  The grid has ten points; point t loads rows
  5000 t … 5000 t + 4999 of the features and of the one-column factor array, and the whole weight matrix, and writes back
  the same rows of the result.  The body's value is the row-wise layer (h · W) · s of its blocks, so the block written at
  point t is that block of the layer applied to the whole arrays; the ten blocks tile the result array.
-/
import proofs.«169392_j85744727097867_2_alg».proof.Proof.Gen.KernelIdeal.Frame
import proofs.«169392_j85744727097867_2_alg».proof.Proof.Payloads
import Idealize.ShloMosaic.Lib.Pipeline.Value

set_option maxRecDepth 16384

noncomputable section

namespace Cert.KernelIdeal.Hand

open Cert.KernelIdeal Cert.KernelIdeal.Gen Cert.Gcn
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The printed index maps over the grid: the row-blocked windows sit at block t, the whole-array windows at block 0. -/
theorem idx3 : ∀ t : Fin cfg3.N, win3_0.index t (0 : Fin 2) = t.val
    ∧ win3_0.index t (1 : Fin 2) = 0
    ∧ win3_1.index t (0 : Fin 2) = 0
    ∧ win3_1.index t (1 : Fin 2) = 0
    ∧ win3_2.index t (0 : Fin 2) = t.val
    ∧ win3_2.index t (1 : Fin 2) = 0
    ∧ win3_3.index t (0 : Fin 2) = t.val
    ∧ win3_3.index t (1 : Fin 2) = 0 :=
  (by decide +kernel : ∀ t : Fin grid3.N, _)

theorem lt3 (t : Fin cfg3.N) : t.val < 10 :=
  t.isLt.trans_eq (show cfg3.N = 10 from N_3)

/-- Row p of window 0's block at point t is row 5000 t + p of its array. -/
theorem blk3_0 (c : Dev nD) (t : Fin cfg3.N) (p : Fin 5000) (k : Fin 128) (r : Fin 50000) (hr : r.val = t.val * 5000 + p.val) :
    (iblk3 V c 0 t : Vec Ideal S5000x128 .bf16) (ix2 p k) = (V c main_v29 : S50000x128.Idx → EReal) (ix2 r k) := by
  obtain ⟨e0a, e0b, e1a, e1b, e2a, e2b, e3a, e3b⟩ := idx3 t
  unfold iblk3
  rw [View.read_apply]
  show V c main_v29 _ = V c main_v29 _
  refine congrArg (V c main_v29) ?_
  funext a
  apply Fin.ext
  match a with
  | ⟨0, _⟩ => show win3_0.index t (0 : Fin 2) * 5000 + 1 * p.val = r.val; rw [e0a, hr]; omega
  | ⟨1, _⟩ => show win3_0.index t (1 : Fin 2) * 128 + 1 * k.val = k.val; rw [e0b]; omega

/-- Window 1's block at any point is its whole array. -/
theorem blk3_1 (c : Dev nD) (t : Fin cfg3.N) : (iblk3 V c 1 t : Vec Ideal S128x128 .f32) = (V c main_arg6 : S128x128.Idx → EReal) := by
  obtain ⟨e0a, e0b, e1a, e1b, e2a, e2b, e3a, e3b⟩ := idx3 t
  funext y
  unfold iblk3
  rw [View.read_apply]
  show V c main_arg6 _ = V c main_arg6 _
  refine congrArg (V c main_arg6) ?_
  funext a
  apply Fin.ext
  match a with
  | ⟨0, _⟩ => show win3_1.index t (0 : Fin 2) * 128 + 1 * (y 0).val = (y 0).val; rw [e1a]; omega
  | ⟨1, _⟩ => show win3_1.index t (1 : Fin 2) * 128 + 1 * (y 1).val = (y 1).val; rw [e1b]; omega

/-- Row p of window 2's block at point t is row 5000 t + p of its array. -/
theorem blk3_2 (c : Dev nD) (t : Fin cfg3.N) (p : Fin 5000) (k : Fin 1) (r : Fin 50000) (hr : r.val = t.val * 5000 + p.val) :
    (iblk3 V c 2 t : Vec Ideal S5000x1 .f32) (ix2 p k) = (V c main_v15 : S50000x1.Idx → EReal) (ix2 r k) := by
  obtain ⟨e0a, e0b, e1a, e1b, e2a, e2b, e3a, e3b⟩ := idx3 t
  unfold iblk3
  rw [View.read_apply]
  show V c main_v15 _ = V c main_v15 _
  refine congrArg (V c main_v15) ?_
  funext a
  apply Fin.ext
  match a with
  | ⟨0, _⟩ => show win3_2.index t (0 : Fin 2) * 5000 + 1 * p.val = r.val; rw [e2a, hr]; omega
  | ⟨1, _⟩ => show win3_2.index t (1 : Fin 2) * 1 + 1 * k.val = k.val; rw [e2b]; omega

/-- The region's result: the layer applied to the whole arrays as the region finds them. -/
abbrev G3 (c : Dev nD) : S50000x128.Idx → EReal := scaled (V c main_v29) (V c main_arg6) (V c main_v15)

/-- The layer on the blocks of point t, at an entry of the block, is the layer on the whole arrays at that entry's place. -/
theorem entry3 (c : Dev nD) (t : Fin cfg3.N) (y : S5000x128.Idx) :
    scaled (iblk3 V c 0 t : Vec Ideal S5000x128 .bf16) (iblk3 V c 1 t : Vec Ideal S128x128 .f32) (iblk3 V c 2 t : Vec Ideal S5000x1 .f32) y
      = G3 V c (((cfg3.win 3).blk t).view.emb y) := by
  obtain ⟨e0a, e0b, e1a, e1b, e2a, e2b, e3a, e3b⟩ := idx3 t
  have ht := lt3 t
  obtain ⟨p, q, rfl⟩ : ∃ (p : Fin 5000) (q : Fin 128), y = ix2 p q := ⟨y 0, y 1, eq_ix2 y⟩
  have hemb : ((cfg3.win 3).blk t).view.emb (ix2 p q) = ix2 (⟨t.val * 5000 + p.val, by omega⟩ : Fin 50000) q := by
    funext a
    apply Fin.ext
    match a with
    | ⟨0, _⟩ => show win3_3.index t (0 : Fin 2) * 5000 + 1 * p.val = t.val * 5000 + p.val; rw [e3a]; omega
    | ⟨1, _⟩ => show win3_3.index t (1 : Fin 2) * 128 + 1 * q.val = q.val; rw [e3b]; omega
  rw [hemb, blk3_1 V c t]
  exact scaledAt_congr _ _ _ _ _ p _ (fun k => blk3_0 V c t p k _ rfl) (blk3_2 V c t p 0 _ rfl) q

/-- What point t writes back is block t of the layer applied to the whole arrays. -/
theorem flushed3 (c : Dev nD) (t : Fin cfg3.N) :
    (dat3 V c).flushed 3 t = ((cfg3.win 3).blk t).view.read (Elt Ideal) (G3 V c) := by
  show (cfg3.win 3).cut (grid3.coords t) ((dat3 V c).after 3 t) = _
  rw [after3_3]
  unfold out3_3
  rw [View.canon_unit_zero hz2]
  simp only [View.ld_unit_zero (S := S5000x128) hz2, View.ld_unit_zero (S := S128x128) hz2, View.ld_unit_zero (S := S5000x1) hz2]
  rw [pay3]
  funext j
  exact entry3 V c t j

/-- Every row of the result lies in the block of the point its number divided by 5000 names. -/
theorem cover3 (i : S50000x128.Idx) : ∃ t : Fin cfg3.N, (cfg3.win 3).flush t = true ∧ i ∈ ((cfg3.win 3).blk t).view.set := by
  have hi0 : (i 0).val < 50000 := (i 0).isLt
  have hi1 : (i 1).val < 128 := (i 1).isLt
  let t : Fin cfg3.N := ⟨(i 0).val / 5000, by rw [show cfg3.N = 10 from N_3]; omega⟩
  obtain ⟨e0a, e0b, e1a, e1b, e2a, e2b, e3a, e3b⟩ := idx3 t
  have e' : win3_3.index t (0 : Fin 2) = (i 0).val / 5000 := e3a
  refine ⟨t, flush3_3 t, ?_⟩
  show i ∈ ((View.whole main_v30).slice (win3_3.rect t)).set
  rw [View.set_slice_whole, Rect.mem_set_unit]
  intro a
  match a with
  | ⟨0, _⟩ => show win3_3.index t (0 : Fin 2) * 5000 ≤ (i 0).val ∧ (i 0).val < win3_3.index t (0 : Fin 2) * 5000 + 5000; rw [e']; omega
  | ⟨1, _⟩ => show win3_3.index t (1 : Fin 2) * 128 ≤ (i 1).val ∧ (i 1).val < win3_3.index t (1 : Fin 2) * 128 + 128; rw [e3b]; omega

/-- The result array after the region: the layer applied to the whole arrays. -/
theorem final3 (c : Dev nD) : (dat3 V c).arrAt 3 cfg3.N = G3 V c :=
  (dat3 V c).arrAt_eq_of_cover 3 (G3 V c) (fun t _ => flushed3 V c t) cover3

end Cert.KernelIdeal.Hand

end
-- ==== Proof.KernelValueB.lean ====
/-
  The buffers of the idealized kernel's program at its segment boundaries, second part: after the first aggregation
  (host gather and scatter-add), after region 2 (the first layer's bias and rectifier) and after region 3 (the second
  layer's scaled product).
-/
import proofs.«169392_j85744727097867_2_alg».proof.Proof.KernelValueA
import proofs.«169392_j85744727097867_2_alg».proof.Proof.Region2
import proofs.«169392_j85744727097867_2_alg».proof.Proof.Region3
import Idealize.ShloMosaic.Lib.StableHlo.Run

set_option maxRecDepth 16384

noncomputable section

namespace Cert.KernelIdeal.Hand

open Cert.KernelIdeal Cert.KernelIdeal.Gen Cert.Gcn
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg) (c : Dev nD)

/-! ## Boundary 6 -/

set_option maxHeartbeats 4000000 in
theorem W6_v28 : (W6 m ρ c (Proc.devRef .tc main_v28) : S50000x128.Idx → EReal) = (kAgg (scaled (dense zr (m ((c.tc : Thread nD τ).loc main_arg0)) (m ((c.tc : Thread nD τ).loc main_arg2)) (m ((c.tc : Thread nD τ).loc main_arg3))) (m ((c.tc : Thread nD τ).loc main_arg4)) (kDinv2 (m ((c.tc : Thread nD τ).loc main_arg1)))) (m ((c.tc : Thread nD τ).loc main_arg1))) := by
  show StableHlo.after hostOps2 (W5 m ρ c) (Proc.devRef .tc main_v28) = _
  after_results_simp
  rw [W5_v17 m ρ c, W5_v5 m ρ c, W5_v6 m ρ c]
  rfl

set_option maxHeartbeats 4000000 in
theorem W6_v15 : (W6 m ρ c (Proc.devRef .tc main_v15) : S50000x1.Idx → EReal) = (kDinv2 (m ((c.tc : Thread nD τ).loc main_arg1))) := by
  show StableHlo.after hostOps2 (W5 m ρ c) (Proc.devRef .tc main_v15) = _
  after_results_simp
  all_goals exact W5_v15 m ρ c

set_option maxHeartbeats 4000000 in
theorem W6_arg5 : W6 m ρ c (Proc.devRef .tc main_arg5) = (m ((c.tc : Thread nD τ).loc main_arg5)) := by
  show StableHlo.after hostOps2 (W5 m ρ c) (Proc.devRef .tc main_arg5) = _
  after_results_simp
  all_goals exact W5_arg5 m ρ c

set_option maxHeartbeats 4000000 in
theorem W6_arg6 : W6 m ρ c (Proc.devRef .tc main_arg6) = (m ((c.tc : Thread nD τ).loc main_arg6)) := by
  show StableHlo.after hostOps2 (W5 m ρ c) (Proc.devRef .tc main_arg6) = _
  after_results_simp
  all_goals exact W5_arg6 m ρ c

set_option maxHeartbeats 4000000 in
theorem W6_v5 : (W6 m ρ c (Proc.devRef .tc main_v5) : S850000.Idx → BitVec 32) = (kRow (m ((c.tc : Thread nD τ).loc main_arg1))) := by
  show StableHlo.after hostOps2 (W5 m ρ c) (Proc.devRef .tc main_v5) = _
  after_results_simp
  all_goals exact W5_v5 m ρ c

set_option maxHeartbeats 4000000 in
theorem W6_v6 : (W6 m ρ c (Proc.devRef .tc main_v6) : S850000.Idx → BitVec 32) = (kCol (m ((c.tc : Thread nD τ).loc main_arg1))) := by
  show StableHlo.after hostOps2 (W5 m ρ c) (Proc.devRef .tc main_v6) = _
  after_results_simp
  all_goals exact W5_v6 m ρ c

set_option maxHeartbeats 4000000 in
theorem W6_arg7 : W6 m ρ c (Proc.devRef .tc main_arg7) = (m ((c.tc : Thread nD τ).loc main_arg7)) := by
  show StableHlo.after hostOps2 (W5 m ρ c) (Proc.devRef .tc main_arg7) = _
  after_results_simp
  all_goals exact W5_arg7 m ρ c

set_option maxHeartbeats 4000000 in
theorem W6_v1 : (W6 m ρ c (Proc.devRef .tc main_v1) : S800000.Idx → BitVec 32) = (kSrc (m ((c.tc : Thread nD τ).loc main_arg1))) := by
  show StableHlo.after hostOps2 (W5 m ρ c) (Proc.devRef .tc main_v1) = _
  after_results_simp
  all_goals exact W5_v1 m ρ c

set_option maxHeartbeats 4000000 in
theorem W6_v3 : (W6 m ρ c (Proc.devRef .tc main_v3) : S800000.Idx → BitVec 32) = (kDst (m ((c.tc : Thread nD τ).loc main_arg1))) := by
  show StableHlo.after hostOps2 (W5 m ρ c) (Proc.devRef .tc main_v3) = _
  after_results_simp
  all_goals exact W5_v3 m ρ c

set_option maxHeartbeats 4000000 in
theorem W6_arg8 : W6 m ρ c (Proc.devRef .tc main_arg8) = (m ((c.tc : Thread nD τ).loc main_arg8)) := by
  show StableHlo.after hostOps2 (W5 m ρ c) (Proc.devRef .tc main_arg8) = _
  after_results_simp
  all_goals exact W5_arg8 m ρ c

set_option maxHeartbeats 4000000 in
theorem W6_arg9 : W6 m ρ c (Proc.devRef .tc main_arg9) = (m ((c.tc : Thread nD τ).loc main_arg9)) := by
  show StableHlo.after hostOps2 (W5 m ρ c) (Proc.devRef .tc main_arg9) = _
  after_results_simp
  all_goals exact W5_arg9 m ρ c

set_option maxHeartbeats 4000000 in
theorem W6_arg10 : W6 m ρ c (Proc.devRef .tc main_arg10) = (m ((c.tc : Thread nD τ).loc main_arg10)) := by
  show StableHlo.after hostOps2 (W5 m ρ c) (Proc.devRef .tc main_arg10) = _
  after_results_simp
  all_goals exact W5_arg10 m ρ c

set_option maxHeartbeats 4000000 in
theorem W6_arg11 : W6 m ρ c (Proc.devRef .tc main_arg11) = (m ((c.tc : Thread nD τ).loc main_arg11)) := by
  show StableHlo.after hostOps2 (W5 m ρ c) (Proc.devRef .tc main_arg11) = _
  after_results_simp
  all_goals exact W5_arg11 m ρ c

/-! ## Boundary 7 -/

set_option maxHeartbeats 4000000 in
theorem W7_v29 : (W7 m ρ c (Proc.devRef .tc main_v29) : S50000x128.Idx → EReal) = (kConv (dense zr (m ((c.tc : Thread nD τ).loc main_arg0)) (m ((c.tc : Thread nD τ).loc main_arg2)) (m ((c.tc : Thread nD τ).loc main_arg3))) (m ((c.tc : Thread nD τ).loc main_arg4)) (m ((c.tc : Thread nD τ).loc main_arg5)) (m ((c.tc : Thread nD τ).loc main_arg1))) := by
  refine (W7_arr m ρ c 3).trans ((final2 (V6 m ρ) c).trans ?_)
  show rescaled zr (W6 m ρ c (Proc.devRef .tc main_v28)) (W6 m ρ c (Proc.devRef .tc main_v15)) (W6 m ρ c (Proc.devRef .tc main_arg5)) = _
  rw [W6_v28 m ρ c, W6_v15 m ρ c, W6_arg5 m ρ c]
  rfl

set_option maxHeartbeats 4000000 in
theorem W7_arg6 : W7 m ρ c (Proc.devRef .tc main_arg6) = (m ((c.tc : Thread nD τ).loc main_arg6)) :=
  (W7_of_ne m ρ c main_arg6 (by decide)).trans (W6_arg6 m ρ c)

set_option maxHeartbeats 4000000 in
theorem W7_v15 : (W7 m ρ c (Proc.devRef .tc main_v15) : S50000x1.Idx → EReal) = (kDinv2 (m ((c.tc : Thread nD τ).loc main_arg1))) :=
  (W7_arr m ρ c 1).trans ((((dat2 (V6 m ρ) c).arrAt_in 1 rfl _).trans (A_eq2 (V6 m ρ) c 1)).trans (W6_v15 m ρ c))

set_option maxHeartbeats 4000000 in
theorem W7_v5 : (W7 m ρ c (Proc.devRef .tc main_v5) : S850000.Idx → BitVec 32) = (kRow (m ((c.tc : Thread nD τ).loc main_arg1))) :=
  (W7_of_ne m ρ c main_v5 (by decide)).trans (W6_v5 m ρ c)

set_option maxHeartbeats 4000000 in
theorem W7_v6 : (W7 m ρ c (Proc.devRef .tc main_v6) : S850000.Idx → BitVec 32) = (kCol (m ((c.tc : Thread nD τ).loc main_arg1))) :=
  (W7_of_ne m ρ c main_v6 (by decide)).trans (W6_v6 m ρ c)

set_option maxHeartbeats 4000000 in
theorem W7_arg7 : W7 m ρ c (Proc.devRef .tc main_arg7) = (m ((c.tc : Thread nD τ).loc main_arg7)) :=
  (W7_of_ne m ρ c main_arg7 (by decide)).trans (W6_arg7 m ρ c)

set_option maxHeartbeats 4000000 in
theorem W7_v1 : (W7 m ρ c (Proc.devRef .tc main_v1) : S800000.Idx → BitVec 32) = (kSrc (m ((c.tc : Thread nD τ).loc main_arg1))) :=
  (W7_of_ne m ρ c main_v1 (by decide)).trans (W6_v1 m ρ c)

set_option maxHeartbeats 4000000 in
theorem W7_v3 : (W7 m ρ c (Proc.devRef .tc main_v3) : S800000.Idx → BitVec 32) = (kDst (m ((c.tc : Thread nD τ).loc main_arg1))) :=
  (W7_of_ne m ρ c main_v3 (by decide)).trans (W6_v3 m ρ c)

set_option maxHeartbeats 4000000 in
theorem W7_arg8 : W7 m ρ c (Proc.devRef .tc main_arg8) = (m ((c.tc : Thread nD τ).loc main_arg8)) :=
  (W7_of_ne m ρ c main_arg8 (by decide)).trans (W6_arg8 m ρ c)

set_option maxHeartbeats 4000000 in
theorem W7_arg9 : W7 m ρ c (Proc.devRef .tc main_arg9) = (m ((c.tc : Thread nD τ).loc main_arg9)) :=
  (W7_of_ne m ρ c main_arg9 (by decide)).trans (W6_arg9 m ρ c)

set_option maxHeartbeats 4000000 in
theorem W7_arg10 : W7 m ρ c (Proc.devRef .tc main_arg10) = (m ((c.tc : Thread nD τ).loc main_arg10)) :=
  (W7_of_ne m ρ c main_arg10 (by decide)).trans (W6_arg10 m ρ c)

set_option maxHeartbeats 4000000 in
theorem W7_arg11 : W7 m ρ c (Proc.devRef .tc main_arg11) = (m ((c.tc : Thread nD τ).loc main_arg11)) :=
  (W7_of_ne m ρ c main_arg11 (by decide)).trans (W6_arg11 m ρ c)

/-! ## Boundary 8 -/

set_option maxHeartbeats 4000000 in
theorem W8_v30 : (W8 m ρ c (Proc.devRef .tc main_v30) : S50000x128.Idx → EReal) = (scaled (kConv (dense zr (m ((c.tc : Thread nD τ).loc main_arg0)) (m ((c.tc : Thread nD τ).loc main_arg2)) (m ((c.tc : Thread nD τ).loc main_arg3))) (m ((c.tc : Thread nD τ).loc main_arg4)) (m ((c.tc : Thread nD τ).loc main_arg5)) (m ((c.tc : Thread nD τ).loc main_arg1))) (m ((c.tc : Thread nD τ).loc main_arg6)) (kDinv2 (m ((c.tc : Thread nD τ).loc main_arg1)))) := by
  refine (W8_arr m ρ c 3).trans ((final3 (V7 m ρ) c).trans ?_)
  show scaled (W7 m ρ c (Proc.devRef .tc main_v29)) (W7 m ρ c (Proc.devRef .tc main_arg6)) (W7 m ρ c (Proc.devRef .tc main_v15)) = _
  rw [W7_v29 m ρ c, W7_arg6 m ρ c, W7_v15 m ρ c]

set_option maxHeartbeats 4000000 in
theorem W8_v5 : (W8 m ρ c (Proc.devRef .tc main_v5) : S850000.Idx → BitVec 32) = (kRow (m ((c.tc : Thread nD τ).loc main_arg1))) :=
  (W8_of_ne m ρ c main_v5 (by decide)).trans (W7_v5 m ρ c)

set_option maxHeartbeats 4000000 in
theorem W8_v6 : (W8 m ρ c (Proc.devRef .tc main_v6) : S850000.Idx → BitVec 32) = (kCol (m ((c.tc : Thread nD τ).loc main_arg1))) :=
  (W8_of_ne m ρ c main_v6 (by decide)).trans (W7_v6 m ρ c)

set_option maxHeartbeats 4000000 in
theorem W8_v15 : (W8 m ρ c (Proc.devRef .tc main_v15) : S50000x1.Idx → EReal) = (kDinv2 (m ((c.tc : Thread nD τ).loc main_arg1))) :=
  (W8_arr m ρ c 2).trans ((((dat3 (V7 m ρ) c).arrAt_in 2 rfl _).trans (A_eq3 (V7 m ρ) c 2)).trans (W7_v15 m ρ c))

set_option maxHeartbeats 4000000 in
theorem W8_arg7 : W8 m ρ c (Proc.devRef .tc main_arg7) = (m ((c.tc : Thread nD τ).loc main_arg7)) :=
  (W8_of_ne m ρ c main_arg7 (by decide)).trans (W7_arg7 m ρ c)

set_option maxHeartbeats 4000000 in
theorem W8_v1 : (W8 m ρ c (Proc.devRef .tc main_v1) : S800000.Idx → BitVec 32) = (kSrc (m ((c.tc : Thread nD τ).loc main_arg1))) :=
  (W8_of_ne m ρ c main_v1 (by decide)).trans (W7_v1 m ρ c)

set_option maxHeartbeats 4000000 in
theorem W8_v3 : (W8 m ρ c (Proc.devRef .tc main_v3) : S800000.Idx → BitVec 32) = (kDst (m ((c.tc : Thread nD τ).loc main_arg1))) :=
  (W8_of_ne m ρ c main_v3 (by decide)).trans (W7_v3 m ρ c)

set_option maxHeartbeats 4000000 in
theorem W8_arg8 : W8 m ρ c (Proc.devRef .tc main_arg8) = (m ((c.tc : Thread nD τ).loc main_arg8)) :=
  (W8_of_ne m ρ c main_arg8 (by decide)).trans (W7_arg8 m ρ c)

set_option maxHeartbeats 4000000 in
theorem W8_arg9 : W8 m ρ c (Proc.devRef .tc main_arg9) = (m ((c.tc : Thread nD τ).loc main_arg9)) :=
  (W8_of_ne m ρ c main_arg9 (by decide)).trans (W7_arg9 m ρ c)

set_option maxHeartbeats 4000000 in
theorem W8_arg10 : W8 m ρ c (Proc.devRef .tc main_arg10) = (m ((c.tc : Thread nD τ).loc main_arg10)) :=
  (W8_of_ne m ρ c main_arg10 (by decide)).trans (W7_arg10 m ρ c)

set_option maxHeartbeats 4000000 in
theorem W8_arg11 : W8 m ρ c (Proc.devRef .tc main_arg11) = (m ((c.tc : Thread nD τ).loc main_arg11)) :=
  (W8_of_ne m ρ c main_arg11 (by decide)).trans (W7_arg11 m ρ c)

end Cert.KernelIdeal.Hand

end
-- ==== Proof.Region4.lean ====
/-
  Region 4: the aggregated rows scaled, biased and rectified, as one array.  The grid has ten points; point t loads
  rows 5000 t … 5000 t + 4999 of the aggregate and of the one-column factor array, and the whole bias, and writes back the
  same rows of the result.  The body's value is the row-wise layer max (a · s + b, 0) of its blocks, so the block
  written at point t is that block of the layer applied to the whole arrays; the ten blocks tile the result array.
-/
import proofs.«169392_j85744727097867_2_alg».proof.Proof.Gen.KernelIdeal.Frame
import proofs.«169392_j85744727097867_2_alg».proof.Proof.Payloads
import Idealize.ShloMosaic.Lib.Pipeline.Value

set_option maxRecDepth 16384

noncomputable section

namespace Cert.KernelIdeal.Hand

open Cert.KernelIdeal Cert.KernelIdeal.Gen Cert.Gcn
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The printed index maps over the grid: the row-blocked windows sit at block t, the whole-array windows at block 0. -/
theorem idx4 : ∀ t : Fin cfg4.N, win4_0.index t (0 : Fin 2) = t.val
    ∧ win4_0.index t (1 : Fin 2) = 0
    ∧ win4_1.index t (0 : Fin 2) = t.val
    ∧ win4_1.index t (1 : Fin 2) = 0
    ∧ win4_2.index t (0 : Fin 1) = 0
    ∧ win4_3.index t (0 : Fin 2) = t.val
    ∧ win4_3.index t (1 : Fin 2) = 0 :=
  (by decide +kernel : ∀ t : Fin grid4.N, _)

theorem lt4 (t : Fin cfg4.N) : t.val < 10 :=
  t.isLt.trans_eq (show cfg4.N = 10 from N_4)

/-- Row p of window 0's block at point t is row 5000 t + p of its array. -/
theorem blk4_0 (c : Dev nD) (t : Fin cfg4.N) (p : Fin 5000) (k : Fin 128) (r : Fin 50000) (hr : r.val = t.val * 5000 + p.val) :
    (iblk4 V c 0 t : Vec Ideal S5000x128 .f32) (ix2 p k) = (V c main_v41 : S50000x128.Idx → EReal) (ix2 r k) := by
  obtain ⟨e0a, e0b, e1a, e1b, e2a, e3a, e3b⟩ := idx4 t
  unfold iblk4
  rw [View.read_apply]
  show V c main_v41 _ = V c main_v41 _
  refine congrArg (V c main_v41) ?_
  funext a
  apply Fin.ext
  match a with
  | ⟨0, _⟩ => show win4_0.index t (0 : Fin 2) * 5000 + 1 * p.val = r.val; rw [e0a, hr]; omega
  | ⟨1, _⟩ => show win4_0.index t (1 : Fin 2) * 128 + 1 * k.val = k.val; rw [e0b]; omega

/-- Row p of window 1's block at point t is row 5000 t + p of its array. -/
theorem blk4_1 (c : Dev nD) (t : Fin cfg4.N) (p : Fin 5000) (k : Fin 1) (r : Fin 50000) (hr : r.val = t.val * 5000 + p.val) :
    (iblk4 V c 1 t : Vec Ideal S5000x1 .f32) (ix2 p k) = (V c main_v15 : S50000x1.Idx → EReal) (ix2 r k) := by
  obtain ⟨e0a, e0b, e1a, e1b, e2a, e3a, e3b⟩ := idx4 t
  unfold iblk4
  rw [View.read_apply]
  show V c main_v15 _ = V c main_v15 _
  refine congrArg (V c main_v15) ?_
  funext a
  apply Fin.ext
  match a with
  | ⟨0, _⟩ => show win4_1.index t (0 : Fin 2) * 5000 + 1 * p.val = r.val; rw [e1a, hr]; omega
  | ⟨1, _⟩ => show win4_1.index t (1 : Fin 2) * 1 + 1 * k.val = k.val; rw [e1b]; omega

/-- Window 2's block at any point is its whole array. -/
theorem blk4_2 (c : Dev nD) (t : Fin cfg4.N) : (iblk4 V c 2 t : Vec Ideal S128 .f32) = (V c main_arg7 : S128.Idx → EReal) := by
  obtain ⟨e0a, e0b, e1a, e1b, e2a, e3a, e3b⟩ := idx4 t
  funext y
  unfold iblk4
  rw [View.read_apply]
  show V c main_arg7 _ = V c main_arg7 _
  refine congrArg (V c main_arg7) ?_
  funext a
  apply Fin.ext
  match a with
  | ⟨0, _⟩ => show win4_2.index t (0 : Fin 1) * 128 + 1 * (y 0).val = (y 0).val; rw [e2a]; omega

/-- The region's result: the layer applied to the whole arrays as the region finds them. -/
abbrev G4 (c : Dev nD) : S50000x128.Idx → EReal := rescaled zr (V c main_v41) (V c main_v15) (V c main_arg7)

/-- The layer on the blocks of point t, at an entry of the block, is the layer on the whole arrays at that entry's place. -/
theorem entry4 (c : Dev nD) (t : Fin cfg4.N) (y : S5000x128.Idx) :
    rescaled zr (iblk4 V c 0 t : Vec Ideal S5000x128 .f32) (iblk4 V c 1 t : Vec Ideal S5000x1 .f32) (iblk4 V c 2 t : Vec Ideal S128 .f32) y
      = G4 V c (((cfg4.win 3).blk t).view.emb y) := by
  obtain ⟨e0a, e0b, e1a, e1b, e2a, e3a, e3b⟩ := idx4 t
  have ht := lt4 t
  obtain ⟨p, q, rfl⟩ : ∃ (p : Fin 5000) (q : Fin 128), y = ix2 p q := ⟨y 0, y 1, eq_ix2 y⟩
  have hemb : ((cfg4.win 3).blk t).view.emb (ix2 p q) = ix2 (⟨t.val * 5000 + p.val, by omega⟩ : Fin 50000) q := by
    funext a
    apply Fin.ext
    match a with
    | ⟨0, _⟩ => show win4_3.index t (0 : Fin 2) * 5000 + 1 * p.val = t.val * 5000 + p.val; rw [e3a]; omega
    | ⟨1, _⟩ => show win4_3.index t (1 : Fin 2) * 128 + 1 * q.val = q.val; rw [e3b]; omega
  rw [hemb, blk4_2 V c t]
  exact rescaledAt_congr zr _ _ _ _ _ p _ q (blk4_0 V c t p q _ rfl) (blk4_1 V c t p 0 _ rfl)

/-- What point t writes back is block t of the layer applied to the whole arrays. -/
theorem flushed4 (c : Dev nD) (t : Fin cfg4.N) :
    (dat4 V c).flushed 3 t = ((cfg4.win 3).blk t).view.read (Elt Ideal) (G4 V c) := by
  show (cfg4.win 3).cut (grid4.coords t) ((dat4 V c).after 3 t) = _
  rw [after4_3]
  unfold out4_3
  rw [View.canon_unit_zero hz2]
  simp only [View.ld_unit_zero (S := S5000x128) hz2, View.ld_unit_zero (S := S5000x1) hz2, View.ld_unit_zero (S := S128) hz1]
  rw [pay4]
  funext j
  exact entry4 V c t j

/-- Every row of the result lies in the block of the point its number divided by 5000 names. -/
theorem cover4 (i : S50000x128.Idx) : ∃ t : Fin cfg4.N, (cfg4.win 3).flush t = true ∧ i ∈ ((cfg4.win 3).blk t).view.set := by
  have hi0 : (i 0).val < 50000 := (i 0).isLt
  have hi1 : (i 1).val < 128 := (i 1).isLt
  let t : Fin cfg4.N := ⟨(i 0).val / 5000, by rw [show cfg4.N = 10 from N_4]; omega⟩
  obtain ⟨e0a, e0b, e1a, e1b, e2a, e3a, e3b⟩ := idx4 t
  have e' : win4_3.index t (0 : Fin 2) = (i 0).val / 5000 := e3a
  refine ⟨t, flush4_3 t, ?_⟩
  show i ∈ ((View.whole main_v42).slice (win4_3.rect t)).set
  rw [View.set_slice_whole, Rect.mem_set_unit]
  intro a
  match a with
  | ⟨0, _⟩ => show win4_3.index t (0 : Fin 2) * 5000 ≤ (i 0).val ∧ (i 0).val < win4_3.index t (0 : Fin 2) * 5000 + 5000; rw [e']; omega
  | ⟨1, _⟩ => show win4_3.index t (1 : Fin 2) * 128 ≤ (i 1).val ∧ (i 1).val < win4_3.index t (1 : Fin 2) * 128 + 128; rw [e3b]; omega

/-- The result array after the region: the layer applied to the whole arrays. -/
theorem final4 (c : Dev nD) : (dat4 V c).arrAt 3 cfg4.N = G4 V c :=
  (dat4 V c).arrAt_eq_of_cover 3 (G4 V c) (fun t _ => flushed4 V c t) cover4

end Cert.KernelIdeal.Hand

end
-- ==== Proof.Region5.lean ====
/-
  Region 5, the edge scorer, as one array.  The grid has a hundred points; point t loads rows 8000 t … 8000 t + 7999 of
  the two gathered endpoint-feature arrays, and the whole of the two weight blocks, the hidden bias, the output weights
  and the output bias, and writes back the same rows of the one-column result.  The body's value is the row-wise
  scorer of its blocks, so the block written at point t is that block of the scorer applied to the whole arrays; the
  hundred blocks tile the result array.
-/
import proofs.«169392_j85744727097867_2_alg».proof.Proof.Gen.KernelIdeal.Frame
import proofs.«169392_j85744727097867_2_alg».proof.Proof.Payloads
import Idealize.ShloMosaic.Lib.Pipeline.Value

set_option maxRecDepth 16384

noncomputable section

namespace Cert.KernelIdeal.Hand

open Cert.KernelIdeal Cert.KernelIdeal.Gen Cert.Gcn
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The printed index maps over the grid: the row-blocked windows sit at block t, the whole-array windows at block 0. -/
theorem idx5 : ∀ t : Fin cfg5.N, win5_0.index t (0 : Fin 2) = t.val
    ∧ win5_0.index t (1 : Fin 2) = 0
    ∧ win5_1.index t (0 : Fin 2) = t.val
    ∧ win5_1.index t (1 : Fin 2) = 0
    ∧ win5_2.index t (0 : Fin 2) = 0
    ∧ win5_2.index t (1 : Fin 2) = 0
    ∧ win5_3.index t (0 : Fin 2) = 0
    ∧ win5_3.index t (1 : Fin 2) = 0
    ∧ win5_4.index t (0 : Fin 1) = 0
    ∧ win5_5.index t (0 : Fin 2) = 0
    ∧ win5_5.index t (1 : Fin 2) = 0
    ∧ win5_6.index t (0 : Fin 1) = 0
    ∧ win5_7.index t (0 : Fin 2) = t.val
    ∧ win5_7.index t (1 : Fin 2) = 0 :=
  (by decide +kernel : ∀ t : Fin grid5.N, _)

theorem lt5 (t : Fin cfg5.N) : t.val < 100 :=
  t.isLt.trans_eq (show cfg5.N = 100 from N_5)

/-- Row p of window 0's block at point t is row 8000 t + p of its array. -/
theorem blk5_0 (c : Dev nD) (t : Fin cfg5.N) (p : Fin 8000) (k : Fin 128) (r : Fin 800000) (hr : r.val = t.val * 8000 + p.val) :
    (iblk5 V c 0 t : Vec Ideal S8000x128 .bf16) (ix2 p k) = (V c main_v49 : S800000x128.Idx → EReal) (ix2 r k) := by
  obtain ⟨e0a, e0b, e1a, e1b, e2a, e2b, e3a, e3b, e4a, e5a, e5b, e6a, e7a, e7b⟩ := idx5 t
  unfold iblk5
  rw [View.read_apply]
  show V c main_v49 _ = V c main_v49 _
  refine congrArg (V c main_v49) ?_
  funext a
  apply Fin.ext
  match a with
  | ⟨0, _⟩ => show win5_0.index t (0 : Fin 2) * 8000 + 1 * p.val = r.val; rw [e0a, hr]; omega
  | ⟨1, _⟩ => show win5_0.index t (1 : Fin 2) * 128 + 1 * k.val = k.val; rw [e0b]; omega

/-- Row p of window 1's block at point t is row 8000 t + p of its array. -/
theorem blk5_1 (c : Dev nD) (t : Fin cfg5.N) (p : Fin 8000) (k : Fin 128) (r : Fin 800000) (hr : r.val = t.val * 8000 + p.val) :
    (iblk5 V c 1 t : Vec Ideal S8000x128 .bf16) (ix2 p k) = (V c main_v56 : S800000x128.Idx → EReal) (ix2 r k) := by
  obtain ⟨e0a, e0b, e1a, e1b, e2a, e2b, e3a, e3b, e4a, e5a, e5b, e6a, e7a, e7b⟩ := idx5 t
  unfold iblk5
  rw [View.read_apply]
  show V c main_v56 _ = V c main_v56 _
  refine congrArg (V c main_v56) ?_
  funext a
  apply Fin.ext
  match a with
  | ⟨0, _⟩ => show win5_1.index t (0 : Fin 2) * 8000 + 1 * p.val = r.val; rw [e1a, hr]; omega
  | ⟨1, _⟩ => show win5_1.index t (1 : Fin 2) * 128 + 1 * k.val = k.val; rw [e1b]; omega

/-- Window 2's block at any point is its whole array. -/
theorem blk5_2 (c : Dev nD) (t : Fin cfg5.N) : (iblk5 V c 2 t : Vec Ideal S128x128 .f32) = (V c main_v57 : S128x128.Idx → EReal) := by
  obtain ⟨e0a, e0b, e1a, e1b, e2a, e2b, e3a, e3b, e4a, e5a, e5b, e6a, e7a, e7b⟩ := idx5 t
  funext y
  unfold iblk5
  rw [View.read_apply]
  show V c main_v57 _ = V c main_v57 _
  refine congrArg (V c main_v57) ?_
  funext a
  apply Fin.ext
  match a with
  | ⟨0, _⟩ => show win5_2.index t (0 : Fin 2) * 128 + 1 * (y 0).val = (y 0).val; rw [e2a]; omega
  | ⟨1, _⟩ => show win5_2.index t (1 : Fin 2) * 128 + 1 * (y 1).val = (y 1).val; rw [e2b]; omega

/-- Window 3's block at any point is its whole array. -/
theorem blk5_3 (c : Dev nD) (t : Fin cfg5.N) : (iblk5 V c 3 t : Vec Ideal S128x128 .f32) = (V c main_v58 : S128x128.Idx → EReal) := by
  obtain ⟨e0a, e0b, e1a, e1b, e2a, e2b, e3a, e3b, e4a, e5a, e5b, e6a, e7a, e7b⟩ := idx5 t
  funext y
  unfold iblk5
  rw [View.read_apply]
  show V c main_v58 _ = V c main_v58 _
  refine congrArg (V c main_v58) ?_
  funext a
  apply Fin.ext
  match a with
  | ⟨0, _⟩ => show win5_3.index t (0 : Fin 2) * 128 + 1 * (y 0).val = (y 0).val; rw [e3a]; omega
  | ⟨1, _⟩ => show win5_3.index t (1 : Fin 2) * 128 + 1 * (y 1).val = (y 1).val; rw [e3b]; omega

/-- Window 4's block at any point is its whole array. -/
theorem blk5_4 (c : Dev nD) (t : Fin cfg5.N) : (iblk5 V c 4 t : Vec Ideal S128 .f32) = (V c main_arg9 : S128.Idx → EReal) := by
  obtain ⟨e0a, e0b, e1a, e1b, e2a, e2b, e3a, e3b, e4a, e5a, e5b, e6a, e7a, e7b⟩ := idx5 t
  funext y
  unfold iblk5
  rw [View.read_apply]
  show V c main_arg9 _ = V c main_arg9 _
  refine congrArg (V c main_arg9) ?_
  funext a
  apply Fin.ext
  match a with
  | ⟨0, _⟩ => show win5_4.index t (0 : Fin 1) * 128 + 1 * (y 0).val = (y 0).val; rw [e4a]; omega

/-- Window 5's block at any point is its whole array. -/
theorem blk5_5 (c : Dev nD) (t : Fin cfg5.N) : (iblk5 V c 5 t : Vec Ideal S128x1 .f32) = (V c main_arg10 : S128x1.Idx → EReal) := by
  obtain ⟨e0a, e0b, e1a, e1b, e2a, e2b, e3a, e3b, e4a, e5a, e5b, e6a, e7a, e7b⟩ := idx5 t
  funext y
  unfold iblk5
  rw [View.read_apply]
  show V c main_arg10 _ = V c main_arg10 _
  refine congrArg (V c main_arg10) ?_
  funext a
  apply Fin.ext
  match a with
  | ⟨0, _⟩ => show win5_5.index t (0 : Fin 2) * 128 + 1 * (y 0).val = (y 0).val; rw [e5a]; omega
  | ⟨1, _⟩ => show win5_5.index t (1 : Fin 2) * 1 + 1 * (y 1).val = (y 1).val; rw [e5b]; omega

/-- Window 6's block at any point is its whole array. -/
theorem blk5_6 (c : Dev nD) (t : Fin cfg5.N) : (iblk5 V c 6 t : Vec Ideal S1 .f32) = (V c main_arg11 : S1.Idx → EReal) := by
  obtain ⟨e0a, e0b, e1a, e1b, e2a, e2b, e3a, e3b, e4a, e5a, e5b, e6a, e7a, e7b⟩ := idx5 t
  funext y
  unfold iblk5
  rw [View.read_apply]
  show V c main_arg11 _ = V c main_arg11 _
  refine congrArg (V c main_arg11) ?_
  funext a
  apply Fin.ext
  match a with
  | ⟨0, _⟩ => show win5_6.index t (0 : Fin 1) * 1 + 1 * (y 0).val = (y 0).val; rw [e6a]; omega

/-- The region's result: the layer applied to the whole arrays as the region finds them. -/
abbrev G5 (c : Dev nD) : S800000x1.Idx → EReal := edgeMlp zr (V c main_v49) (V c main_v56) (V c main_v57) (V c main_v58) (V c main_arg9) (V c main_arg10) (V c main_arg11)

/-- The layer on the blocks of point t, at an entry of the block, is the layer on the whole arrays at that entry's place. -/
theorem entry5 (c : Dev nD) (t : Fin cfg5.N) (y : S8000x1.Idx) :
    edgeMlp zr (iblk5 V c 0 t : Vec Ideal S8000x128 .bf16) (iblk5 V c 1 t : Vec Ideal S8000x128 .bf16) (iblk5 V c 2 t : Vec Ideal S128x128 .f32) (iblk5 V c 3 t : Vec Ideal S128x128 .f32) (iblk5 V c 4 t : Vec Ideal S128 .f32) (iblk5 V c 5 t : Vec Ideal S128x1 .f32) (iblk5 V c 6 t : Vec Ideal S1 .f32) y
      = G5 V c (((cfg5.win 7).blk t).view.emb y) := by
  obtain ⟨e0a, e0b, e1a, e1b, e2a, e2b, e3a, e3b, e4a, e5a, e5b, e6a, e7a, e7b⟩ := idx5 t
  have ht := lt5 t
  obtain ⟨p, q, rfl⟩ : ∃ (p : Fin 8000) (q : Fin 1), y = ix2 p q := ⟨y 0, y 1, eq_ix2 y⟩
  have hemb : ((cfg5.win 7).blk t).view.emb (ix2 p q) = ix2 (⟨t.val * 8000 + p.val, by omega⟩ : Fin 800000) q := by
    funext a
    apply Fin.ext
    match a with
    | ⟨0, _⟩ => show win5_7.index t (0 : Fin 2) * 8000 + 1 * p.val = t.val * 8000 + p.val; rw [e7a]; omega
    | ⟨1, _⟩ => show win5_7.index t (1 : Fin 2) * 1 + 1 * q.val = q.val; rw [e7b]; omega
  rw [hemb, blk5_2 V c t, blk5_3 V c t, blk5_4 V c t, blk5_5 V c t, blk5_6 V c t]
  exact edgeAt_congr zr _ _ _ _ _ _ _ _ _ p _ (fun k => blk5_0 V c t p k _ rfl) (fun k => blk5_1 V c t p k _ rfl)

/-- What point t writes back is block t of the layer applied to the whole arrays. -/
theorem flushed5 (c : Dev nD) (t : Fin cfg5.N) :
    (dat5 V c).flushed 7 t = ((cfg5.win 7).blk t).view.read (Elt Ideal) (G5 V c) := by
  show (cfg5.win 7).cut (grid5.coords t) ((dat5 V c).after 7 t) = _
  rw [after5_7]
  unfold out5_7
  rw [View.canon_unit_zero hz2]
  simp only [View.ld_unit_zero (S := S8000x128) hz2, View.ld_unit_zero (S := S128x128) hz2, View.ld_unit_zero (S := S128) hz1, View.ld_unit_zero (S := S128x1) hz2, View.ld_unit_zero (S := S1) hz1]
  rw [pay5]
  funext j
  exact entry5 V c t j

/-- Every row of the result lies in the block of the point its number divided by 8000 names. -/
theorem cover5 (i : S800000x1.Idx) : ∃ t : Fin cfg5.N, (cfg5.win 7).flush t = true ∧ i ∈ ((cfg5.win 7).blk t).view.set := by
  have hi0 : (i 0).val < 800000 := (i 0).isLt
  have hi1 : (i 1).val < 1 := (i 1).isLt
  let t : Fin cfg5.N := ⟨(i 0).val / 8000, by rw [show cfg5.N = 100 from N_5]; omega⟩
  obtain ⟨e0a, e0b, e1a, e1b, e2a, e2b, e3a, e3b, e4a, e5a, e5b, e6a, e7a, e7b⟩ := idx5 t
  have e' : win5_7.index t (0 : Fin 2) = (i 0).val / 8000 := e7a
  refine ⟨t, flush5_7 t, ?_⟩
  show i ∈ ((View.whole main_v59).slice (win5_7.rect t)).set
  rw [View.set_slice_whole, Rect.mem_set_unit]
  intro a
  match a with
  | ⟨0, _⟩ => show win5_7.index t (0 : Fin 2) * 8000 ≤ (i 0).val ∧ (i 0).val < win5_7.index t (0 : Fin 2) * 8000 + 8000; rw [e']; omega
  | ⟨1, _⟩ => show win5_7.index t (1 : Fin 2) * 1 ≤ (i 1).val ∧ (i 1).val < win5_7.index t (1 : Fin 2) * 1 + 1; rw [e7b]; omega

/-- The result array after the region: the layer applied to the whole arrays. -/
theorem final5 (c : Dev nD) : (dat5 V c).arrAt 7 cfg5.N = G5 V c :=
  (dat5 V c).arrAt_eq_of_cover 7 (G5 V c) (fun t _ => flushed5 V c t) cover5

end Cert.KernelIdeal.Hand

end
-- ==== Proof.KernelValueC.lean ====
/-
  The buffers of the idealized kernel's program at its segment boundaries, last part: after the second aggregation,
  after region 4, after the endpoint gathers and the weight split, after region 5 (the edge scorer), and the result
  vector after the closing reshape.
-/
import proofs.«169392_j85744727097867_2_alg».proof.Proof.KernelValueB
import proofs.«169392_j85744727097867_2_alg».proof.Proof.Region4
import proofs.«169392_j85744727097867_2_alg».proof.Proof.Region5
import Idealize.ShloMosaic.Lib.StableHlo.Run

set_option maxRecDepth 16384

noncomputable section

namespace Cert.KernelIdeal.Hand

open Cert.KernelIdeal Cert.KernelIdeal.Gen Cert.Gcn
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg) (c : Dev nD)

/-! ## Boundary 9 -/

set_option maxHeartbeats 4000000 in
theorem W9_v41 : (W9 m ρ c (Proc.devRef .tc main_v41) : S50000x128.Idx → EReal) = (kAgg (scaled (kConv (dense zr (m ((c.tc : Thread nD τ).loc main_arg0)) (m ((c.tc : Thread nD τ).loc main_arg2)) (m ((c.tc : Thread nD τ).loc main_arg3))) (m ((c.tc : Thread nD τ).loc main_arg4)) (m ((c.tc : Thread nD τ).loc main_arg5)) (m ((c.tc : Thread nD τ).loc main_arg1))) (m ((c.tc : Thread nD τ).loc main_arg6)) (kDinv2 (m ((c.tc : Thread nD τ).loc main_arg1)))) (m ((c.tc : Thread nD τ).loc main_arg1))) := by
  show StableHlo.after hostOps4 (W8 m ρ c) (Proc.devRef .tc main_v41) = _
  after_results_simp
  rw [W8_v30 m ρ c, W8_v5 m ρ c, W8_v6 m ρ c]
  rfl

set_option maxHeartbeats 4000000 in
theorem W9_v15 : (W9 m ρ c (Proc.devRef .tc main_v15) : S50000x1.Idx → EReal) = (kDinv2 (m ((c.tc : Thread nD τ).loc main_arg1))) := by
  show StableHlo.after hostOps4 (W8 m ρ c) (Proc.devRef .tc main_v15) = _
  after_results_simp
  all_goals exact W8_v15 m ρ c

set_option maxHeartbeats 4000000 in
theorem W9_arg7 : W9 m ρ c (Proc.devRef .tc main_arg7) = (m ((c.tc : Thread nD τ).loc main_arg7)) := by
  show StableHlo.after hostOps4 (W8 m ρ c) (Proc.devRef .tc main_arg7) = _
  after_results_simp
  all_goals exact W8_arg7 m ρ c

set_option maxHeartbeats 4000000 in
theorem W9_v1 : (W9 m ρ c (Proc.devRef .tc main_v1) : S800000.Idx → BitVec 32) = (kSrc (m ((c.tc : Thread nD τ).loc main_arg1))) := by
  show StableHlo.after hostOps4 (W8 m ρ c) (Proc.devRef .tc main_v1) = _
  after_results_simp
  all_goals exact W8_v1 m ρ c

set_option maxHeartbeats 4000000 in
theorem W9_v3 : (W9 m ρ c (Proc.devRef .tc main_v3) : S800000.Idx → BitVec 32) = (kDst (m ((c.tc : Thread nD τ).loc main_arg1))) := by
  show StableHlo.after hostOps4 (W8 m ρ c) (Proc.devRef .tc main_v3) = _
  after_results_simp
  all_goals exact W8_v3 m ρ c

set_option maxHeartbeats 4000000 in
theorem W9_arg8 : W9 m ρ c (Proc.devRef .tc main_arg8) = (m ((c.tc : Thread nD τ).loc main_arg8)) := by
  show StableHlo.after hostOps4 (W8 m ρ c) (Proc.devRef .tc main_arg8) = _
  after_results_simp
  all_goals exact W8_arg8 m ρ c

set_option maxHeartbeats 4000000 in
theorem W9_arg9 : W9 m ρ c (Proc.devRef .tc main_arg9) = (m ((c.tc : Thread nD τ).loc main_arg9)) := by
  show StableHlo.after hostOps4 (W8 m ρ c) (Proc.devRef .tc main_arg9) = _
  after_results_simp
  all_goals exact W8_arg9 m ρ c

set_option maxHeartbeats 4000000 in
theorem W9_arg10 : W9 m ρ c (Proc.devRef .tc main_arg10) = (m ((c.tc : Thread nD τ).loc main_arg10)) := by
  show StableHlo.after hostOps4 (W8 m ρ c) (Proc.devRef .tc main_arg10) = _
  after_results_simp
  all_goals exact W8_arg10 m ρ c

set_option maxHeartbeats 4000000 in
theorem W9_arg11 : W9 m ρ c (Proc.devRef .tc main_arg11) = (m ((c.tc : Thread nD τ).loc main_arg11)) := by
  show StableHlo.after hostOps4 (W8 m ρ c) (Proc.devRef .tc main_arg11) = _
  after_results_simp
  all_goals exact W8_arg11 m ρ c

/-! ## Boundary 10 -/

set_option maxHeartbeats 4000000 in
theorem W10_v42 : (W10 m ρ c (Proc.devRef .tc main_v42) : S50000x128.Idx → EReal) = (kConv (kConv (dense zr (m ((c.tc : Thread nD τ).loc main_arg0)) (m ((c.tc : Thread nD τ).loc main_arg2)) (m ((c.tc : Thread nD τ).loc main_arg3))) (m ((c.tc : Thread nD τ).loc main_arg4)) (m ((c.tc : Thread nD τ).loc main_arg5)) (m ((c.tc : Thread nD τ).loc main_arg1))) (m ((c.tc : Thread nD τ).loc main_arg6)) (m ((c.tc : Thread nD τ).loc main_arg7)) (m ((c.tc : Thread nD τ).loc main_arg1))) := by
  refine (W10_arr m ρ c 3).trans ((final4 (V9 m ρ) c).trans ?_)
  show rescaled zr (W9 m ρ c (Proc.devRef .tc main_v41)) (W9 m ρ c (Proc.devRef .tc main_v15)) (W9 m ρ c (Proc.devRef .tc main_arg7)) = _
  rw [W9_v41 m ρ c, W9_v15 m ρ c, W9_arg7 m ρ c]
  rfl

set_option maxHeartbeats 4000000 in
theorem W10_v1 : (W10 m ρ c (Proc.devRef .tc main_v1) : S800000.Idx → BitVec 32) = (kSrc (m ((c.tc : Thread nD τ).loc main_arg1))) :=
  (W10_of_ne m ρ c main_v1 (by decide)).trans (W9_v1 m ρ c)

set_option maxHeartbeats 4000000 in
theorem W10_v3 : (W10 m ρ c (Proc.devRef .tc main_v3) : S800000.Idx → BitVec 32) = (kDst (m ((c.tc : Thread nD τ).loc main_arg1))) :=
  (W10_of_ne m ρ c main_v3 (by decide)).trans (W9_v3 m ρ c)

set_option maxHeartbeats 4000000 in
theorem W10_arg8 : W10 m ρ c (Proc.devRef .tc main_arg8) = (m ((c.tc : Thread nD τ).loc main_arg8)) :=
  (W10_of_ne m ρ c main_arg8 (by decide)).trans (W9_arg8 m ρ c)

set_option maxHeartbeats 4000000 in
theorem W10_arg9 : W10 m ρ c (Proc.devRef .tc main_arg9) = (m ((c.tc : Thread nD τ).loc main_arg9)) :=
  (W10_of_ne m ρ c main_arg9 (by decide)).trans (W9_arg9 m ρ c)

set_option maxHeartbeats 4000000 in
theorem W10_arg10 : W10 m ρ c (Proc.devRef .tc main_arg10) = (m ((c.tc : Thread nD τ).loc main_arg10)) :=
  (W10_of_ne m ρ c main_arg10 (by decide)).trans (W9_arg10 m ρ c)

set_option maxHeartbeats 4000000 in
theorem W10_arg11 : W10 m ρ c (Proc.devRef .tc main_arg11) = (m ((c.tc : Thread nD τ).loc main_arg11)) :=
  (W10_of_ne m ρ c main_arg11 (by decide)).trans (W9_arg11 m ρ c)

/-! ## Boundary 11 -/

set_option maxHeartbeats 4000000 in
theorem W11_v49 : (W11 m ρ c (Proc.devRef .tc main_v49) : S800000x128.Idx → EReal) = (Host.gather gather_S50000x128_S800000x1_S800000x128_1_0_n_n_0_1_1128 (kConv (kConv (dense zr (m ((c.tc : Thread nD τ).loc main_arg0)) (m ((c.tc : Thread nD τ).loc main_arg2)) (m ((c.tc : Thread nD τ).loc main_arg3))) (m ((c.tc : Thread nD τ).loc main_arg4)) (m ((c.tc : Thread nD τ).loc main_arg5)) (m ((c.tc : Thread nD τ).loc main_arg1))) (m ((c.tc : Thread nD τ).loc main_arg6)) (m ((c.tc : Thread nD τ).loc main_arg7)) (m ((c.tc : Thread nD τ).loc main_arg1))) (fix800 (kSrc (m ((c.tc : Thread nD τ).loc main_arg1))))) := by
  show StableHlo.after hostOps5 (W10 m ρ c) (Proc.devRef .tc main_v49) = _
  after_results_simp
  rw [W10_v42 m ρ c, W10_v1 m ρ c]
  rfl

set_option maxHeartbeats 4000000 in
theorem W11_v56 : (W11 m ρ c (Proc.devRef .tc main_v56) : S800000x128.Idx → EReal) = (Host.gather gather_S50000x128_S800000x1_S800000x128_1_0_n_n_0_1_1128 (kConv (kConv (dense zr (m ((c.tc : Thread nD τ).loc main_arg0)) (m ((c.tc : Thread nD τ).loc main_arg2)) (m ((c.tc : Thread nD τ).loc main_arg3))) (m ((c.tc : Thread nD τ).loc main_arg4)) (m ((c.tc : Thread nD τ).loc main_arg5)) (m ((c.tc : Thread nD τ).loc main_arg1))) (m ((c.tc : Thread nD τ).loc main_arg6)) (m ((c.tc : Thread nD τ).loc main_arg7)) (m ((c.tc : Thread nD τ).loc main_arg1))) (fix800 (kDst (m ((c.tc : Thread nD τ).loc main_arg1))))) := by
  show StableHlo.after hostOps5 (W10 m ρ c) (Proc.devRef .tc main_v56) = _
  after_results_simp
  rw [W10_v42 m ρ c, W10_v3 m ρ c]
  rfl

set_option maxHeartbeats 4000000 in
theorem W11_v57 : (W11 m ρ c (Proc.devRef .tc main_v57) : S128x128.Idx → EReal) = (extractStridedSlice S128x128 ![0, 0] (m ((c.tc : Thread nD τ).loc main_arg8)) slices_S256x128_S128x128_0_0) := by
  show StableHlo.after hostOps5 (W10 m ρ c) (Proc.devRef .tc main_v57) = _
  after_results_simp
  rw [W10_arg8 m ρ c]

set_option maxHeartbeats 4000000 in
theorem W11_v58 : (W11 m ρ c (Proc.devRef .tc main_v58) : S128x128.Idx → EReal) = (extractStridedSlice S128x128 ![128, 0] (m ((c.tc : Thread nD τ).loc main_arg8)) slices_S256x128_S128x128_128_0) := by
  show StableHlo.after hostOps5 (W10 m ρ c) (Proc.devRef .tc main_v58) = _
  after_results_simp
  rw [W10_arg8 m ρ c]

set_option maxHeartbeats 4000000 in
theorem W11_arg9 : W11 m ρ c (Proc.devRef .tc main_arg9) = (m ((c.tc : Thread nD τ).loc main_arg9)) := by
  show StableHlo.after hostOps5 (W10 m ρ c) (Proc.devRef .tc main_arg9) = _
  after_results_simp
  all_goals exact W10_arg9 m ρ c

set_option maxHeartbeats 4000000 in
theorem W11_arg10 : W11 m ρ c (Proc.devRef .tc main_arg10) = (m ((c.tc : Thread nD τ).loc main_arg10)) := by
  show StableHlo.after hostOps5 (W10 m ρ c) (Proc.devRef .tc main_arg10) = _
  after_results_simp
  all_goals exact W10_arg10 m ρ c

set_option maxHeartbeats 4000000 in
theorem W11_arg11 : W11 m ρ c (Proc.devRef .tc main_arg11) = (m ((c.tc : Thread nD τ).loc main_arg11)) := by
  show StableHlo.after hostOps5 (W10 m ρ c) (Proc.devRef .tc main_arg11) = _
  after_results_simp
  all_goals exact W10_arg11 m ρ c

/-! ## Boundary 12 -/

set_option maxHeartbeats 4000000 in
theorem W12_v59 : (W12 m ρ c (Proc.devRef .tc main_v59) : S800000x1.Idx → EReal) = (edgeMlp zr (Host.gather gather_S50000x128_S800000x1_S800000x128_1_0_n_n_0_1_1128 (kConv (kConv (dense zr (m ((c.tc : Thread nD τ).loc main_arg0)) (m ((c.tc : Thread nD τ).loc main_arg2)) (m ((c.tc : Thread nD τ).loc main_arg3))) (m ((c.tc : Thread nD τ).loc main_arg4)) (m ((c.tc : Thread nD τ).loc main_arg5)) (m ((c.tc : Thread nD τ).loc main_arg1))) (m ((c.tc : Thread nD τ).loc main_arg6)) (m ((c.tc : Thread nD τ).loc main_arg7)) (m ((c.tc : Thread nD τ).loc main_arg1))) (fix800 (kSrc (m ((c.tc : Thread nD τ).loc main_arg1))))) (Host.gather gather_S50000x128_S800000x1_S800000x128_1_0_n_n_0_1_1128 (kConv (kConv (dense zr (m ((c.tc : Thread nD τ).loc main_arg0)) (m ((c.tc : Thread nD τ).loc main_arg2)) (m ((c.tc : Thread nD τ).loc main_arg3))) (m ((c.tc : Thread nD τ).loc main_arg4)) (m ((c.tc : Thread nD τ).loc main_arg5)) (m ((c.tc : Thread nD τ).loc main_arg1))) (m ((c.tc : Thread nD τ).loc main_arg6)) (m ((c.tc : Thread nD τ).loc main_arg7)) (m ((c.tc : Thread nD τ).loc main_arg1))) (fix800 (kDst (m ((c.tc : Thread nD τ).loc main_arg1))))) (extractStridedSlice S128x128 ![0, 0] (m ((c.tc : Thread nD τ).loc main_arg8)) slices_S256x128_S128x128_0_0) (extractStridedSlice S128x128 ![128, 0] (m ((c.tc : Thread nD τ).loc main_arg8)) slices_S256x128_S128x128_128_0) (m ((c.tc : Thread nD τ).loc main_arg9)) (m ((c.tc : Thread nD τ).loc main_arg10)) (m ((c.tc : Thread nD τ).loc main_arg11))) := by
  refine (W12_arr m ρ c 7).trans ((final5 (V11 m ρ) c).trans ?_)
  show edgeMlp zr (W11 m ρ c (Proc.devRef .tc main_v49)) (W11 m ρ c (Proc.devRef .tc main_v56)) (W11 m ρ c (Proc.devRef .tc main_v57)) (W11 m ρ c (Proc.devRef .tc main_v58)) (W11 m ρ c (Proc.devRef .tc main_arg9)) (W11 m ρ c (Proc.devRef .tc main_arg10)) (W11 m ρ c (Proc.devRef .tc main_arg11)) = _
  rw [W11_v49 m ρ c, W11_v56 m ρ c, W11_v57 m ρ c, W11_v58 m ρ c, W11_arg9 m ρ c, W11_arg10 m ρ c, W11_arg11 m ρ c]

/-! ## The result -/

set_option maxHeartbeats 4000000 in
theorem W13_v60 : (W13 m ρ c (Proc.devRef .tc main_v60) : S800000.Idx → EReal) = kOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  show StableHlo.after hostOps6 (W12 m ρ c) (Proc.devRef .tc main_v60) = _
  after_results_simp
  rw [W12_v59 m ρ c]
  rfl

end Cert.KernelIdeal.Hand

end
-- ==== Proof.RefTerms.lean ====
/-
  The reference program's stages, regrouped.  Its run is a chain of a hundred and sixty host operations; here the chain
  is cut at the feature matrices: the input projection H0, then one convolution layer applied twice, then the edge scorer.
  A convolution layer of the reference, as one function of the incoming features H, the layer's weights and bias and the
  edge list e: the messages (H · W)[row] scaled by dinv[row] · dinv[col], added into the rows col names, plus the bias,
  rectified.  The scorer: the two endpoint rows laid side by side, times the stacked weight matrix, plus bias,
  rectified, times the output weights, plus the output bias.  The edge list's derived arrays (row, col, the degree
  normaliser dinv, an index brought into range) are the very terms the kernel's program computes, so they are named
  by the kernel side's definitions; that the reference's own stages are these functions is by unfolding (the second
  layer recomputes row, col and dinv by the same operations).
-/
import proofs.«169392_j85744727097867_2_alg».proof.Proof.RefRead
import proofs.«169392_j85744727097867_2_alg».proof.Proof.KernelTerms

set_option maxRecDepth 16384

noncomputable section

namespace Cert.ReferenceIdeal.Hand

open Cert.ReferenceIdeal Cert.ReferenceIdeal.Gen Cert.ReferenceIdeal.ReadP
open Cert.KernelIdeal.Hand (zr kSrc kDst kRow kCol kDeg kDinv kDinv2 fix850 fix800)
open Idealize.ShloMosaic Idealize.ShloMosaic.ValueIdx

/-- One convolution layer as the reference arranges it. -/
def rConv (H : FVec Ideal S50000x128 .f32) (W : FVec Ideal S128x128 .f32) (b : FVec Ideal S128 .f32) (e : IVec S2x800000 32) :
    FVec Ideal S50000x128 .f32 :=
  maximumf
    (addf
      (Host.scatterAdd scatter_S50000x128_S850000x1_S850000x128_1_0_0_1
        (broadcastInDim S50000x128 ![] bcast_S_S50000x128 (constant S_ .f32 0x00000000#32))
        (broadcastInDim S850000x1 ![0] bcast_S850000_S850000x1_0 (kCol e))
        (mulf
          (Host.gather gather_S50000x128_S850000x1_S850000x128_1_0_n_n_0_1_1128
            (Host.dotGeneral dot_S50000x128_S128x128_S50000x128_1_0_0_1_n_n none H W) (fix850 (kRow e)))
          (broadcastInDim S850000x128 ![0, 1] bcast_S850000x1_S850000x128_0_1
            (broadcastInDim S850000x1 ![0] bcast_S850000_S850000x1_0
              (mulf (Host.gather gather_S50000_S850000x1_S850000_n_0_n_n_0_1_1 (kDinv e) (fix850 (kRow e)))
                (Host.gather gather_S50000_S850000x1_S850000_n_0_n_n_0_1_1 (kDinv e) (fix850 (kCol e))))))))
      (broadcastInDim S50000x128 ![0, 1] bcast_S1x128_S50000x128_0_1 (broadcastInDim S1x128 ![1] bcast_S128_S1x128_1 b)))
    (broadcastInDim S50000x128 ![] bcast_S_S50000x128 (constant S_ .f32 0x00000000#32))

/-- The edge scorer as the reference arranges it, from the final features H. -/
def rEdge (H : FVec Ideal S50000x128 .f32) (e : IVec S2x800000 32) (x8 : FVec Ideal S256x128 .f32) (x9 : FVec Ideal S128 .f32)
    (x10 : FVec Ideal S128x1 .f32) (x11 : FVec Ideal S1 .f32) : FVec Ideal S800000x1 .f32 :=
  addf
    (Host.dotGeneral dot_S800000x128_S128x1_S800000x1_1_0_0_1_n_n none
      (maximumf
        (addf
          (Host.dotGeneral dot_S800000x256_S256x128_S800000x128_1_0_0_1_n_n none
            (concatenate S800000x256 1
              [⟨S800000x128, Host.gather gather_S50000x128_S800000x1_S800000x128_1_0_n_n_0_1_1128 H (fix800 (kSrc e))⟩,
               ⟨S800000x128, Host.gather gather_S50000x128_S800000x1_S800000x128_1_0_n_n_0_1_1128 H (fix800 (kDst e))⟩]
              concatenates_S800000x128_S800000x128_S800000x256_d1) x8)
          (broadcastInDim S800000x128 ![0, 1] bcast_S1x128_S800000x128_0_1 (broadcastInDim S1x128 ![1] bcast_S128_S1x128_1 x9)))
        (broadcastInDim S800000x128 ![] bcast_S_S800000x128 (constant S_ .f32 0x00000000#32)))
      x10)
    (broadcastInDim S800000x1 ![0, 1] bcast_S1x1_S800000x1_0_1 (broadcastInDim S1x1 ![1] bcast_S1_S1x1_1 x11))

variable (x0 : FVec Ideal S50000x96 .f32) (x1 : IVec S2x800000 32) (x2 : FVec Ideal S96x128 .f32) (x3 : FVec Ideal S128 .f32)
    (x4 : FVec Ideal S128x128 .f32) (x5 : FVec Ideal S128 .f32) (x6 : FVec Ideal S128x128 .f32) (x7 : FVec Ideal S128 .f32)
    (x8 : FVec Ideal S256x128 .f32) (x9 : FVec Ideal S128 .f32) (x10 : FVec Ideal S128x1 .f32) (x11 : FVec Ideal S1 .f32)

/-- The reference's first layer is the layer function of its input projection. -/
theorem v52_eq : val_main_v52 (F := Ideal) x0 x1 x2 x3 x4 x5 = rConv (val_main_v8 (F := Ideal) x0 x2 x3) x4 x5 x1 := rfl

/-- The reference's second layer is the same layer function of the first layer's result. -/
theorem v96_eq : val_main_v96 (F := Ideal) x0 x1 x2 x3 x4 x5 x6 x7 = rConv (val_main_v52 (F := Ideal) x0 x1 x2 x3 x4 x5) x6 x7 x1 := rfl

/-- The reference's scores are the scorer of the second layer's result. -/
theorem v120_eq : val_main_v120 (F := Ideal) x0 x1 x2 x3 x4 x5 x6 x7 x8 x9 x10 x11 = rEdge (val_main_v96 (F := Ideal) x0 x1 x2 x3 x4 x5 x6 x7) x1 x8 x9 x10 x11 := rfl

/-- The reference's result is its one-column score array laid out as a vector. -/
theorem v121_eq : val_main_v121 (F := Ideal) x0 x1 x2 x3 x4 x5 x6 x7 x8 x9 x10 x11
    = shapeCast S800000 (val_main_v120 (F := Ideal) x0 x1 x2 x3 x4 x5 x6 x7 x8 x9 x10 x11) shapeCasts_S800000x1_S800000 := rfl

end Cert.ReferenceIdeal.Hand

end
-- ==== Proof.LibBcastIn.lean ====
/-
  The host's broadcast_in_dim in the forms a row-wise layer meets, read at an entry.

  A scalar broadcast to any shape reads the scalar everywhere.  A vector [c] sent to [1, c] along axis 1 and then to
  [n, c] reads, at (p, q), its entry q: a bias row laid under every row.  A vector [n] sent to [n, 1] along axis 0
  reads, at (p, u), its entry p, and sent on to [n, c] reads, at (p, q), its entry p: one factor per row laid beside
  every column.  Library imports only.
-/
import Idealize.ShloMosaic.Lib.ValueIdx
import Idealize.ShloMosaic.Lib.Pipeline.Value

namespace Cert.LibBcastIn

open Idealize.ShloMosaic Idealize.ShloMosaic.ValueIdx

variable {α : Type}

/-- A scalar broadcast to a shape reads the scalar at every index. -/
theorem scalar_apply {t : Shape} (dims : Fin (⟨0, ![]⟩ : Shape).rank → Fin t.rank) (h : (⟨0, ![]⟩ : Shape).BroadcastsInDim t dims)
    (x : (⟨0, ![]⟩ : Shape).Idx → α) (j : t.Idx) : broadcastInDim t dims h x j = x ix0 :=
  broadcastInDim_apply dims h x j ix0 (fun a => a.elim0)

/-- [c] → [1, c] along axis 1, at (u, q): entry q. -/
theorem row1_apply {c : ℕ} (dims : Fin (⟨1, ![c]⟩ : Shape).rank → Fin (⟨2, ![1, c]⟩ : Shape).rank) (hd : dims 0 = 1)
    (h : (⟨1, ![c]⟩ : Shape).BroadcastsInDim ⟨2, ![1, c]⟩ dims) (b : (⟨1, ![c]⟩ : Shape).Idx → α) (u : Fin 1) (q : Fin c) :
    broadcastInDim ⟨2, ![1, c]⟩ dims h b (ix2 u q) = b (ix1 q) :=
  broadcastInDim_apply dims h b (ix2 u q) (ix1 q) (fun a => by
    match a with
    | ⟨0, _⟩ =>
      show q.val = if c = 1 then 0 else ((ix2 u q) (dims 0)).val
      rw [hd]
      split
      · have := q.isLt; omega
      · rfl)

/-- [1, c] → [n, c] along axes 0 and 1, at (p, q): entry (0, q). -/
theorem rows_apply {n c : ℕ} (dims : Fin (⟨2, ![1, c]⟩ : Shape).rank → Fin (⟨2, ![n, c]⟩ : Shape).rank) (hd0 : dims 0 = 0) (hd1 : dims 1 = 1)
    (h : (⟨2, ![1, c]⟩ : Shape).BroadcastsInDim ⟨2, ![n, c]⟩ dims) (b : (⟨2, ![1, c]⟩ : Shape).Idx → α) (p : Fin n) (q : Fin c) :
    broadcastInDim ⟨2, ![n, c]⟩ dims h b (ix2 p q) = b (ix2 (0 : Fin 1) q) :=
  broadcastInDim_apply dims h b (ix2 p q) (ix2 (0 : Fin 1) q) (fun a => by
    match a with
    | ⟨0, _⟩ =>
      show (0 : ℕ) = if (1 : ℕ) = 1 then 0 else ((ix2 p q) (dims 0)).val
      rw [if_pos rfl]
    | ⟨1, _⟩ =>
      show q.val = if c = 1 then 0 else ((ix2 p q) (dims 1)).val
      rw [hd1]
      split
      · have := q.isLt; omega
      · rfl)

/-- A bias row laid under every row: [c] → [1, c] → [n, c], at (p, q): entry q. -/
theorem biasRow_apply {n c : ℕ} (d1 : Fin (⟨1, ![c]⟩ : Shape).rank → Fin (⟨2, ![1, c]⟩ : Shape).rank) (hd : d1 0 = 1)
    (h1 : (⟨1, ![c]⟩ : Shape).BroadcastsInDim ⟨2, ![1, c]⟩ d1)
    (d2 : Fin (⟨2, ![1, c]⟩ : Shape).rank → Fin (⟨2, ![n, c]⟩ : Shape).rank) (hd0 : d2 0 = 0) (hd1 : d2 1 = 1)
    (h2 : (⟨2, ![1, c]⟩ : Shape).BroadcastsInDim ⟨2, ![n, c]⟩ d2) (b : (⟨1, ![c]⟩ : Shape).Idx → α) (p : Fin n) (q : Fin c) :
    broadcastInDim ⟨2, ![n, c]⟩ d2 h2 (broadcastInDim ⟨2, ![1, c]⟩ d1 h1 b) (ix2 p q) = b (ix1 q) :=
  (rows_apply d2 hd0 hd1 h2 _ p q).trans (row1_apply d1 hd h1 b 0 q)

/-- [n] → [n, 1] along axis 0, at (p, u): entry p. -/
theorem col1_apply {n : ℕ} (dims : Fin (⟨1, ![n]⟩ : Shape).rank → Fin (⟨2, ![n, 1]⟩ : Shape).rank) (hd : dims 0 = 0)
    (h : (⟨1, ![n]⟩ : Shape).BroadcastsInDim ⟨2, ![n, 1]⟩ dims) (v : (⟨1, ![n]⟩ : Shape).Idx → α) (p : Fin n) (u : Fin 1) :
    broadcastInDim ⟨2, ![n, 1]⟩ dims h v (ix2 p u) = v (ix1 p) :=
  broadcastInDim_apply dims h v (ix2 p u) (ix1 p) (fun a => by
    match a with
    | ⟨0, _⟩ =>
      show p.val = if n = 1 then 0 else ((ix2 p u) (dims 0)).val
      rw [hd]
      split
      · have := p.isLt; omega
      · rfl)

/-- [n, 1] → [n, c] along axes 0 and 1, at (p, q): entry (p, 0). -/
theorem cols_apply {n c : ℕ} (dims : Fin (⟨2, ![n, 1]⟩ : Shape).rank → Fin (⟨2, ![n, c]⟩ : Shape).rank) (hd0 : dims 0 = 0) (hd1 : dims 1 = 1)
    (h : (⟨2, ![n, 1]⟩ : Shape).BroadcastsInDim ⟨2, ![n, c]⟩ dims) (v : (⟨2, ![n, 1]⟩ : Shape).Idx → α) (p : Fin n) (q : Fin c) :
    broadcastInDim ⟨2, ![n, c]⟩ dims h v (ix2 p q) = v (ix2 p (0 : Fin 1)) :=
  broadcastInDim_apply dims h v (ix2 p q) (ix2 p (0 : Fin 1)) (fun a => by
    match a with
    | ⟨0, _⟩ =>
      show p.val = if n = 1 then 0 else ((ix2 p q) (dims 0)).val
      rw [hd0]
      split
      · have := p.isLt; omega
      · rfl
    | ⟨1, _⟩ =>
      show (0 : ℕ) = if (1 : ℕ) = 1 then 0 else ((ix2 p q) (dims 1)).val
      rw [if_pos rfl])

end Cert.LibBcastIn
-- ==== Proof.LibNonnegScale.lean ====
/-
  Scaling a finite sum of extended reals by a factor that is a real number >= 0. On the extended reals multiplication does
  not distribute over addition in general (at +inf + -inf the two sides differ for a negative factor), but it does for a
  factor c with 0 <= c < +inf: (y + z) * c = y * c + z * c whatever y and z are. Hence (sum_j f j) * c = sum_j (f j * c) over
  any finite index set, with no finiteness asked of the summands. Also here: the guarded reciprocal square root
  "rsqrt x where x > 0, else 0" is such a factor for EVERY extended real x — rsqrt of a positive real is a positive real,
  rsqrt +inf = 0, and the guard sends everything else to 0.
  Library imports only.
-/
import Idealize.ShloMosaic.PureOps.Ideal
import Idealize.ShloMosaic.PureOps.Ideal.Laws

namespace Cert.LibNonnegScale

open Idealize.ShloMosaic
open scoped BigOperators

/-- A finite sum times a real factor >= 0 is the sum of the scaled terms, whatever the terms are. -/
theorem sum_mul_of_nonneg_ne_top {ι : Type} (s : Finset ι) (f : ι → EReal) {c : EReal} (h0 : 0 ≤ c) (ht : c ≠ ⊤) :
    (∑ j ∈ s, f j) * c = ∑ j ∈ s, f j * c := by
  classical
  refine Finset.induction_on s ?_ ?_
  · rw [Finset.sum_empty, Finset.sum_empty, zero_mul]
  · intro a s ha ih
    rw [Finset.sum_insert ha, Finset.sum_insert ha, EReal.right_distrib_of_nonneg_of_ne_top h0 ht, ih]

/-- A product of two real factors >= 0 is one. -/
theorem mul_nonneg_ne_top {a b : EReal} (ha0 : 0 ≤ a) (hat : a ≠ ⊤) (hb0 : 0 ≤ b) (hbt : b ≠ ⊤) :
    0 ≤ a * b ∧ a * b ≠ ⊤ := by
  refine ⟨mul_nonneg ha0 hb0, ?_⟩
  lift a to ℝ using ⟨hat, ne_bot_of_le_ne_bot EReal.zero_ne_bot ha0⟩
  lift b to ℝ using ⟨hbt, ne_bot_of_le_ne_bot EReal.zero_ne_bot hb0⟩
  rw [← EReal.coe_mul]
  exact EReal.coe_ne_top _

/-- The guarded reciprocal square root — rsqrt x where x > 0, else 0 — is a real number >= 0 at every extended real. -/
theorem guarded_rsqrt (x z : EReal) (hz : z = 0) :
    0 ≤ Scalar.select (Ideal.cmp .ogt x z) (Ideal.rsqrt x) z ∧ Scalar.select (Ideal.cmp .ogt x z) (Ideal.rsqrt x) z ≠ ⊤ := by
  subst hz
  unfold Scalar.select Ideal.cmp
  induction x using EReal.rec with
  | bot =>
    have h : ¬ ((0 : EReal) < ⊥) := not_lt_bot
    simp only [h, decide_false, BitVec.ofBool_false]
    rw [if_neg (by decide)]
    exact ⟨le_rfl, EReal.zero_ne_top⟩
  | top =>
    have h : ((0 : EReal) < ⊤) := EReal.zero_lt_top
    simp only [h, decide_true, BitVec.ofBool_true, if_true]
    show 0 ≤ (0 : EReal) ∧ (0 : EReal) ≠ ⊤
    exact ⟨le_rfl, EReal.zero_ne_top⟩
  | coe r =>
    by_cases hr : 0 < r
    · have h : ((0 : EReal) < (r : EReal)) := by exact_mod_cast hr
      simp only [h, decide_true, BitVec.ofBool_true, if_true]
      show 0 ≤ Ideal.rsqrt (r : EReal) ∧ Ideal.rsqrt (r : EReal) ≠ ⊤
      have e : Ideal.rsqrt (r : EReal) = (((Real.sqrt r)⁻¹ : ℝ) : EReal) := by
        show (if r < 0 then (⊥ : EReal) else if r = 0 then ⊤ else (((Real.sqrt r)⁻¹ : ℝ) : EReal)) = _
        rw [if_neg (not_lt.mpr hr.le), if_neg hr.ne']
      rw [e]
      refine ⟨?_, EReal.coe_ne_top _⟩
      exact_mod_cast (inv_nonneg.mpr (Real.sqrt_nonneg r))
    · have h : ¬ ((0 : EReal) < (r : EReal)) := by exact_mod_cast hr
      simp only [h, decide_false, BitVec.ofBool_false]
      rw [if_neg (by decide)]
      exact ⟨le_rfl, EReal.zero_ne_top⟩

end Cert.LibNonnegScale
-- ==== Proof.LibScatterRows.lean ====
/-
  A row scatter's target read off its start index. `segment_sum(v, ids)` for `R` update rows of `D` columns added into an
  operand of `N` rows lowers to a scatter whose scatter indices are the row numbers as an `R × 1` array: update window axis 1,
  inserted window axis 0, the scatter-dims-to-operand-dims map `[0]`, index vector axis 1. Update element `(e, c)` is aimed
  at row `ids[e, 0]` read as a signed number (not clamped: a row outside the operand drops the update), column `c`. So an
  update that lands on row `n` has start index `n`.
  Library imports only.
-/
import Idealize.ShloMosaic.PureOps.ShapeOps
import Idealize.ShloMosaic.Lib.ValueIdx

namespace Cert.LibScatterRows

open Idealize.ShloMosaic Idealize.ShloMosaic.ValueIdx

/-- Those dimension numbers for an operand `[N, D]`, scatter indices `[R, 1]` and updates `[R, D]`. -/
abbrev rowDims (N D R : Nat)
    (wf : ScatterDims.WF ⟨2, ![N, D]⟩ ⟨2, ![R, 1]⟩ ⟨2, ![R, D]⟩ [1] [0] [0] 1) :
    ScatterDims ⟨2, ![N, D]⟩ ⟨2, ![R, 1]⟩ ⟨2, ![R, D]⟩ where
  updateWindowDims := [1]
  insertedWindowDims := [0]
  scatterDimsToOperandDims := [0]
  indexVectorDim := 1
  wf := wf

variable {N D R w : Nat} (wf : ScatterDims.WF ⟨2, ![N, D]⟩ ⟨2, ![R, 1]⟩ ⟨2, ![R, D]⟩ [1] [0] [0] 1)
  (idx : IVec ⟨2, ![R, 1]⟩ w) (e : Fin R) (c : Fin D)

/-- On the operand's row axis the window starts at the start index `idx[e, 0]`, read signed. -/
theorem start_row : (rowDims N D R wf).start (ix2 e c) idx 0 = (idx (ix2 e (0 : Fin 1))).toInt := by
  unfold ScatterDims.start
  rw [dif_pos (show (0 : Fin 2) ∈ (rowDims N D R wf).scatterDimsToOperandDims from List.mem_singleton.mpr rfl)]
  have hsi : (rowDims N D R wf).siIdx (ix2 e c) ⟨List.idxOf (0 : Fin 2) (rowDims N D R wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The row axis is an inserted window axis: the window coordinate there is 0. -/
theorem window_row : (rowDims N D R wf).window (ix2 e c) 0 = 0 := by
  unfold ScatterDims.window
  rw [dif_neg]
  show (0 : Fin 2) ∉ (⟨2, ![N, D]⟩ : Shape).kept [(0 : Fin 2)]
  simp [Shape.kept, List.mem_filter]

/-- An update element that lands on row `n` has start index `n`. -/
theorem row_of_resultIdx? (n : Fin N) (q : Fin D)
    (h : (rowDims N D R wf).resultIdx? (ix2 e c) idx = some (ix2 n q)) :
    (idx (ix2 e (0 : Fin 1))).toInt = (n.val : Int) := by
  unfold ScatterDims.resultIdx? at h
  split at h
  · rename_i hb
    have e0 := congrArg (fun k => (k (0 : Fin 2)).val) (Option.some.inj h)
    dsimp only at e0
    have h0 := (hb 0).1
    rw [start_row, window_row] at h0 e0
    have : ((idx (ix2 e (0 : Fin 1))).toInt + ((0 : Nat) : Int)).toNat = n.val := e0
    rw [Nat.cast_zero, Int.add_zero] at this h0
    rw [← this]
    exact (Int.toNat_of_nonneg h0).symm
  · exact absurd h (by simp)

end Cert.LibScatterRows
-- ==== Proof.LibConvLaw.lean ====
/-
  The law that joins the two arrangements of the symmetric normalisation of a graph convolution.

  Let dv be a vector of factors that are real numbers >= 0, XW a matrix, r and cf two maps from edge numbers to node
  numbers, and let an accumulating scatter add row e of the updates into the row that the scatter index of e names
  (dropping the update when that is no row).  One arrangement scatters the updates XW (r e, ·) · dv (r e) and then
  multiplies row n of the sums by dv n; the other scatters XW (r e, ·) · (dv (r e) · dv (cf e)).  If cf e = n whenever
  edge e lands on row n, the two results agree at every entry: a finite sum of extended reals times a real factor >= 0
  is the sum of the scaled terms, whatever the terms are, and multiplication is associative.  No finiteness of XW is
  used.  It imports LibNonnegScale and LibScatterRows (copy all three).  Also here: a row number that was brought into range the way array indexing does (a negative number has the
  row count added) and then clamped is the number itself when it was a row number to begin with.
-/
import proofs.«169392_j85744727097867_2_alg».proof.Proof.LibNonnegScale
import proofs.«169392_j85744727097867_2_alg».proof.Proof.LibScatterRows
import Idealize.ShloMosaic.PureOps.Ideal.Laws
import Idealize.ShloMosaic.Lib.ValueIdx

noncomputable section

namespace Cert.Gcn

open Idealize.ShloMosaic Idealize.ShloMosaic.ValueIdx
open scoped BigOperators

/-- Scatter, then scale row n by dv n = scatter the updates scaled by dv (cf e), when cf e = n for every edge landing on n. -/
theorem scatter_scale {N D R : ℕ} (sw : ScatterDims.WF ⟨2, ![N, D]⟩ ⟨2, ![R, 1]⟩ ⟨2, ![R, D]⟩ [1] [0] [0] 1)
    (zeros zeros' : FVec Ideal ⟨2, ![N, D]⟩ .f32)
    (colB : IVec ⟨2, ![R, 1]⟩ 32) (U U' : FVec Ideal ⟨2, ![R, D]⟩ .f32)
    (XW : (⟨2, ![N, D]⟩ : Shape).Idx → EReal) (dv : Fin N → EReal) (hd : ∀ n, 0 ≤ dv n ∧ dv n ≠ ⊤)
    (r cf : Fin R → Fin N)
    (hU : ∀ e c, U (ix2 e c) = XW (ix2 (r e) c) * dv (r e))
    (hU' : ∀ e c, U' (ix2 e c) = XW (ix2 (r e) c) * (dv (r e) * dv (cf e)))
    (hcf : ∀ e (n : Fin N), (colB (ix2 e (0 : Fin 1))).toInt = (n.val : Int) → cf e = n)
    (n : Fin N) (q : Fin D) (hz : zeros (ix2 n q) = 0) (hz' : zeros' (ix2 n q) = 0) :
    Host.scatterAdd (Cert.LibScatterRows.rowDims N D R sw) zeros colB U (ix2 n q) * dv n
      = Host.scatterAdd (Cert.LibScatterRows.rowDims N D R sw) zeros' colB U' (ix2 n q) := by
  show (zeros (ix2 n q) + ∑ j ∈ Finset.univ.filter (fun j => (Cert.LibScatterRows.rowDims N D R sw).resultIdx? j colB = some (ix2 n q)), U j) * dv n
      = zeros' (ix2 n q) + ∑ j ∈ Finset.univ.filter (fun j => (Cert.LibScatterRows.rowDims N D R sw).resultIdx? j colB = some (ix2 n q)), U' j
  rw [hz, hz', zero_add, zero_add, Cert.LibNonnegScale.sum_mul_of_nonneg_ne_top _ _ (hd n).1 (hd n).2]
  refine Finset.sum_congr rfl fun j hj => ?_
  obtain ⟨e, c, rfl⟩ : ∃ (e : Fin R) (c : Fin D), j = ix2 e c := ⟨j 0, j 1, eq_ix2 j⟩
  have hland := Cert.LibScatterRows.row_of_resultIdx? sw colB e c n q (Finset.mem_filter.mp hj).2
  rw [hU, hU', hcf e n hland, mul_assoc]

/-- A word that, read signed, is a row number n < N: the indexing fix-up (add c if negative) leaves it, and so does the
    clamp into [0, N - 1]. -/
theorem fix_clamp_of_row (v c : BitVec 32) (N n : ℕ) (hn : n < N) (h : v.toInt = (n : Int)) :
    min (Scalar.select (IntOp.cmpi .slt v 0#32) (v + c) v).toInt.toNat (N - 1) = n := by
  have hs : IntOp.cmpi .slt v 0#32 = 0#1 := by
    unfold IntOp.cmpi
    have : v.slt 0#32 = false := by
      rw [BitVec.slt, h]
      simp
    rw [this]
    rfl
  rw [hs]
  show min (if (0#1 : BitVec 1) = 1 then v + c else v).toInt.toNat (N - 1) = n
  rw [if_neg (by decide), h, Int.toNat_natCast]
  omega

/-- The guarded reciprocal square root of an array, at an index where the guard's floor reads 0: a real number >= 0. -/
theorem guarded_apply {s : Shape} (D Z : FVec Ideal s .f32) (i : s.Idx) (hz : Z i = 0) :
    0 ≤ select (cmpf .ogt D Z) (Host.rsqrt D) Z i ∧ select (cmpf .ogt D Z) (Host.rsqrt D) Z i ≠ ⊤ :=
  Cert.LibNonnegScale.guarded_rsqrt (D i) (Z i) hz

end Cert.Gcn

end
-- ==== Proof.BridgeLib.lean ====
/-
  Small readings shared by the comparison of the two programs: the reference's four matrix products at an entry (the
  host's dot_general at the ideal reading is the textbook sum), the input projection of both programs as one array,
  and the degree normaliser's entries being real numbers >= 0 (1/sqrt of a positive real, 0 elsewhere).
-/
import proofs.«169392_j85744727097867_2_alg».proof.Proof.RefTerms
import proofs.«169392_j85744727097867_2_alg».proof.Proof.Spec
import proofs.«169392_j85744727097867_2_alg».proof.Proof.LibDot
import proofs.«169392_j85744727097867_2_alg».proof.Proof.LibBcastIn
import proofs.«169392_j85744727097867_2_alg».proof.Proof.LibNonnegScale
import proofs.«169392_j85744727097867_2_alg».proof.Proof.LibConvLaw

set_option maxRecDepth 16384

noncomputable section

namespace Cert.Bridge

open Cert.ReferenceIdeal Cert.ReferenceIdeal.Gen Cert.ReferenceIdeal.ReadP Cert.ReferenceIdeal.Hand Cert.Gcn
open Cert.KernelIdeal.Hand (zr kSrc kDst kRow kCol kDeg kDinv kDinv2 fix850 fix800)
open Idealize.ShloMosaic Idealize.ShloMosaic.ValueIdx
open scoped BigOperators

/-! ## The reference's matrix products at an entry -/

theorem rdotA (l : FVec Ideal S50000x96 .f32) (r : FVec Ideal S96x128 .f32) (p : Fin 50000) (q : Fin 128) :
    Host.dotGeneral dot_S50000x96_S96x128_S50000x128_1_0_0_1_n_n none l r (ix2 p q) = prodAt l r p q :=
  Cert.LibDot.dotGeneral_apply dot_S50000x96_S96x128_S50000x128_1_0_0_1_n_n rfl rfl
    (fun j c => lhs_main_v4_0 j c) (fun j c => lhs_main_v4_1 j c) (fun j c => rhs_main_v4_0 j c) (fun j c => rhs_main_v4_1 j c)
    none _ l r p q

theorem rdotB (l : FVec Ideal S50000x128 .f32) (r : FVec Ideal S128x128 .f32) (p : Fin 50000) (q : Fin 128) :
    Host.dotGeneral dot_S50000x128_S128x128_S50000x128_1_0_0_1_n_n none l r (ix2 p q) = prodAt l r p q :=
  Cert.LibDot.dotGeneral_apply dot_S50000x128_S128x128_S50000x128_1_0_0_1_n_n rfl rfl
    (fun j c => lhs_main_v35_0 j c) (fun j c => lhs_main_v35_1 j c) (fun j c => rhs_main_v35_0 j c) (fun j c => rhs_main_v35_1 j c)
    none _ l r p q

theorem rdotC (l : FVec Ideal S800000x256 .f32) (r : FVec Ideal S256x128 .f32) (p : Fin 800000) (q : Fin 128) :
    Host.dotGeneral dot_S800000x256_S256x128_S800000x128_1_0_0_1_n_n none l r (ix2 p q) = prodAt l r p q :=
  Cert.LibDot.dotGeneral_apply dot_S800000x256_S256x128_S800000x128_1_0_0_1_n_n rfl rfl
    (fun j c => lhs_main_v112_0 j c) (fun j c => lhs_main_v112_1 j c) (fun j c => rhs_main_v112_0 j c) (fun j c => rhs_main_v112_1 j c)
    none _ l r p q

theorem rdotD (l : FVec Ideal S800000x128 .f32) (r : FVec Ideal S128x1 .f32) (p : Fin 800000) (q : Fin 1) :
    Host.dotGeneral dot_S800000x128_S128x1_S800000x1_1_0_0_1_n_n none l r (ix2 p q) = prodAt l r p q :=
  Cert.LibDot.dotGeneral_apply dot_S800000x128_S128x1_S800000x1_1_0_0_1_n_n rfl rfl
    (fun j c => lhs_main_v117_0 j c) (fun j c => lhs_main_v117_1 j c) (fun j c => rhs_main_v117_0 j c) (fun j c => rhs_main_v117_1 j c)
    none _ l r p q

/-! ## The input projection -/

/-- max (x · W_in + b_in, 0), the kernel's region 0 as one array, is the reference's first rectified layer. -/
theorem dense_eq (x0 : FVec Ideal S50000x96 .f32) (x2 : FVec Ideal S96x128 .f32) (x3 : FVec Ideal S128 .f32) :
    dense zr x0 x2 x3 = val_main_v8 (F := Ideal) x0 x2 x3 := by
  funext j
  obtain ⟨p, q, rfl⟩ : ∃ (p : Fin 50000) (q : Fin 128), j = ix2 p q := ⟨j 0, j 1, eq_ix2 j⟩
  rw [dense_ix2]
  unfold denseAt val_main_v8 val_main_v7 val_main_v6 val_main_v5 val_main_v4 val_main_call0_v0 val_main_call0_cst
  show _ = max (Host.dotGeneral dot_S50000x96_S96x128_S50000x128_1_0_0_1_n_n none x0 x2 (ix2 p q)
      + broadcastInDim S50000x128 ![0, 1] bcast_S1x128_S50000x128_0_1 (broadcastInDim S1x128 ![1] bcast_S128_S1x128_1 x3) (ix2 p q))
    (broadcastInDim S50000x128 ![] bcast_S_S50000x128 (constant S_ .f32 0x00000000#32) (ix2 p q))
  rw [rdotA, Cert.LibBcastIn.biasRow_apply _ rfl _ _ rfl rfl, Cert.LibBcastIn.scalar_apply]
  rfl

/-! ## The degree normaliser -/

/-- Every entry of dinv is a real number >= 0. -/
theorem dinv_nonneg (e : IVec S2x800000 32) (k : Fin 50000) : 0 ≤ kDinv e (ix1 k) ∧ kDinv e (ix1 k) ≠ ⊤ := by
  rw [Cert.KernelIdeal.Hand.kDinv_def]
  exact guarded_apply (kDeg e) _ (ix1 k)
    ((Cert.LibBcastIn.scalar_apply _ _ _ _).trans ((constant_apply _ _).trans Ideal.ofBits_zero_f32))

/-- dinv as a one-column array reads dinv. -/
theorem dinv2_apply (e : IVec S2x800000 32) (p : Fin 50000) (u : Fin 1) : kDinv2 e (ix2 p u) = kDinv e (ix1 p) := by
  unfold kDinv2
  exact Cert.LibBcastIn.col1_apply _ rfl _ _ p u

end Cert.Bridge

end
-- ==== Proof.LibGatherRow.lean ====
/-
  A row lookup read at an index. `table[idx]` for a table of `N` rows of `D` columns and `R` row numbers lowers to a
  gather whose start indices are the row numbers as an `R × 1` array: offset axis 1, operand axis 0 collapsed, start
  index map `[0]`, index vector axis 1, slice sizes `[1, D]`. Result element `(e, c)` is the table's element in
  column `c` of the row that the start index `idx[e, 0]` names, read as a signed number and clamped into `[0, N − 1]`.
-/
import Idealize.ShloMosaic.Lib.ValueIdx

namespace Cert.GatherRow

open Idealize.ShloMosaic Idealize.ShloMosaic.ValueIdx

variable {α : Type}

/-- Those dimension numbers for a table `[N, D]`, start indices `[R, 1]` and result `[R, D]`. -/
abbrev rowDims (N D R : Nat)
    (wf : GatherDims.WF ⟨2, ![N, D]⟩ ⟨2, ![R, 1]⟩ ⟨2, ![R, D]⟩ [1] [0] [] [0] [] 1 ![1, D]) :
    GatherDims ⟨2, ![N, D]⟩ ⟨2, ![R, 1]⟩ ⟨2, ![R, D]⟩ where
  offsetDims := [1]
  collapsedSliceDims := [0]
  operandBatchingDims := []
  startIndicesBatchingDims := []
  startIndexMap := [0]
  indexVectorDim := 1
  sliceSizes := ![1, D]
  wf := wf

section
variable {N D R w : Nat}
  (wf : GatherDims.WF ⟨2, ![N, D]⟩ ⟨2, ![R, 1]⟩ ⟨2, ![R, D]⟩ [1] [0] [] [0] [] 1 ![1, D])
  (idx : IVec ⟨2, ![R, 1]⟩ w) (e : Fin R) (c : Fin D)

/-- On the table's row axis the operand index is the clamped start index: the axis is collapsed and there is no
    batching. -/
theorem operand_row :
    (rowDims N D R wf).start (ix2 e c) idx 0 + (rowDims N D R wf).batchCoord (ix2 e c) 0
        + (rowDims N D R wf).offCoord (ix2 e c) 0
      = min (idx (ix2 e (0 : Fin 1))).toInt.toNat (N - 1) := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowDims N D R wf).startIndexMap from List.mem_singleton.mpr rfl)]
  have hsi : (rowDims N D R wf).siIdx (ix2 e c) ⟨List.idxOf (0 : Fin 2) (rowDims N D R wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- On the table's column axis the operand index is the result's column: the start index map does not name the axis,
    and it is the one offset axis. -/
theorem operand_col :
    (rowDims N D R wf).start (ix2 e c) idx 1 + (rowDims N D R wf).batchCoord (ix2 e c) 1
        + (rowDims N D R wf).offCoord (ix2 e c) 1
      = c.val := by
  have h1 : (1 : Fin 2) ∉ (rowDims N D R wf).startIndexMap := by
    show (1 : Fin 2) ∉ [(0 : Fin 2)]
    decide
  have hk : (1 : Fin 2) ∈ (rowDims N D R wf).sKept :=
    ((GatherDims.mem_sKept _ _).mpr ⟨by show (1 : Fin 2) ∉ [(0 : Fin 2)]; decide, List.not_mem_nil⟩)
  rw [GatherDims.batchCoord_eq_zero _ _ _ List.not_mem_nil]
  unfold GatherDims.start GatherDims.offCoord
  rw [dif_neg h1, dif_pos hk]
  simp only [Nat.zero_add]
  rfl

end

/-- The gather read at `(e, c)`: column `c` of the row the start index `idx[e, 0]` names, read signed and clamped
    into `[0, N − 1]`. -/
theorem gather_row_apply {N D R w : Nat} (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (idx : IVec ⟨2, ![R, 1]⟩ w) (e : Fin R) (c : Fin D) :
    Host.gather (rowDims N D R wf) x idx (ix2 e c)
      = x (ix2 (⟨min (idx (ix2 e (0 : Fin 1))).toInt.toNat (N - 1), by omega⟩ : Fin N) c) := by
  unfold Host.gather
  congr 1
  funext a
  refine Fin.ext ?_
  match a with
  | ⟨0, _⟩ => exact operand_row wf idx e c
  | ⟨1, _⟩ => exact operand_col wf idx e c

/-- A start index whose unsigned value is below the table's height names that row: read signed it is its unsigned
    value, and the clamp leaves it. -/
theorem clamp_of_lt {N : Nat} (hN : N ≤ 2 ^ 31) (v : BitVec 32) (h : v.toNat < N) :
    min v.toInt.toNat (N - 1) = v.toNat := by
  have e : v.toInt = (v.toNat : Int) := by
    rw [BitVec.toInt_eq_toNat_cond]
    split
    · rfl
    · omega
  rw [e, Int.toNat_natCast]
  omega

end Cert.GatherRow
-- ==== Proof.LibGatherEntry.lean ====
/-
  An entry lookup read at an index. `v[idx]` for a vector of `N` entries and `R` positions lowers to a gather whose start
  indices are the positions as an `R × 1` array: no offset axis, operand axis 0 collapsed, start index map `[0]`, index
  vector axis 1, slice size 1. Result element `e` is the vector's entry at the start index `idx[e, 0]`, read as a signed number
  and clamped into `[0, N − 1]`.
  Library imports only.
-/
import Idealize.ShloMosaic.Lib.ValueIdx

namespace Cert.LibGatherEntry

open Idealize.ShloMosaic Idealize.ShloMosaic.ValueIdx

variable {α : Type}

/-- Those dimension numbers for a vector `[N]`, start indices `[R, 1]` and result `[R]`. -/
abbrev entryDims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- On the vector's one axis the operand index is the clamped start index: the axis is collapsed, there is no batching. -/
theorem operand_entry {N R w : Nat} (wf : GatherDims.WF ⟨1, ![N]⟩ ⟨2, ![R, 1]⟩ ⟨1, ![R]⟩ [] [0] [] [0] [] 1 ![1])
    (idx : IVec ⟨2, ![R, 1]⟩ w) (e : Fin R) :
    (entryDims N R wf).start (ix1 e) idx 0 + (entryDims N R wf).batchCoord (ix1 e) 0
        + (entryDims N R wf).offCoord (ix1 e) 0
      = min (idx (ix2 e (0 : Fin 1))).toInt.toNat (N - 1) := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (entryDims N R wf).startIndexMap from List.mem_singleton.mpr rfl)]
  have hsi : (entryDims N R wf).siIdx (ix1 e) ⟨List.idxOf (0 : Fin 1) (entryDims N R wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- The gather read at `e`: the entry the start index `idx[e, 0]` names, read signed and clamped into `[0, N − 1]`. -/
theorem gather_entry_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (e : Fin R) :
    Host.gather (entryDims N R wf) x idx (ix1 e)
      = x (ix1 (⟨min (idx (ix2 e (0 : Fin 1))).toInt.toNat (N - 1), by omega⟩ : Fin N)) := by
  unfold Host.gather
  congr 1
  funext a
  refine Fin.ext ?_
  match a with
  | ⟨0, _⟩ => exact operand_entry wf idx e

end Cert.LibGatherEntry
-- ==== Proof.BridgeConv.lean ====
/-
  One convolution layer: the kernel's arrangement equals the reference's, entry by entry.

  Both read the messages (H · W)[row k] of the 850000 edges (self loops included) and add message k into the row col k
  names.  The kernel scales H · W by dinv row by row before the gather and scales the sums by dinv afterwards; the
  reference scales message k by dinv[row k] · dinv[col k].  An edge that lands on row n has col k = n, and the
  reference reads dinv at col k brought into range and clamped, which is n again; dinv n is a real number >= 0.  So the
  law of LibConvLaw.lean applies at every entry (n, q).  The features H may hold any extended reals.
-/
import proofs.«169392_j85744727097867_2_alg».proof.Proof.BridgeLib
import proofs.«169392_j85744727097867_2_alg».proof.Proof.LibConvLaw
import proofs.«169392_j85744727097867_2_alg».proof.Proof.LibGatherRow
import proofs.«169392_j85744727097867_2_alg».proof.Proof.LibGatherEntry

set_option maxRecDepth 16384

noncomputable section

namespace Cert.Bridge

open Cert.ReferenceIdeal Cert.ReferenceIdeal.Gen Cert.ReferenceIdeal.ReadP Cert.ReferenceIdeal.Hand Cert.Gcn
open Cert.KernelIdeal.Hand (zr kSrc kDst kRow kCol kDeg kDinv kDinv2 fix850 fix800 kAgg kConv)
open Idealize.ShloMosaic Idealize.ShloMosaic.ValueIdx
open scoped BigOperators

theorem zeros_apply (i : S50000x128.Idx) :
    (broadcastInDim S50000x128 ![] bcast_S_S50000x128 (constant (F := Ideal) S_ .f32 0x00000000#32) : FVec Ideal S50000x128 .f32) i = 0 :=
  (Cert.LibBcastIn.scalar_apply _ _ _ _).trans ((constant_apply _ _).trans Ideal.ofBits_zero_f32)

/-- The row that edge k's message is read from: its source brought into range, then clamped. -/
def srcRow (e : IVec S2x800000 32) (k : Fin 850000) : Fin 50000 :=
  ⟨min (fix850 (kRow e) (ix2 k (0 : Fin 1))).toInt.toNat (50000 - 1), by omega⟩

/-- The row whose normaliser the reference reads for edge k's target: brought into range, then clamped. -/
def tgtRow (e : IVec S2x800000 32) (k : Fin 850000) : Fin 50000 :=
  ⟨min (fix850 (kCol e) (ix2 k (0 : Fin 1))).toInt.toNat (50000 - 1), by omega⟩

/-- The kernel's message of edge k, column c: the scaled product's row srcRow k. -/
theorem kMsg_apply (H : FVec Ideal S50000x128 .f32) (W : FVec Ideal S128x128 .f32) (e : IVec S2x800000 32) (k : Fin 850000) (c : Fin 128) :
    (extf .f32 (Host.gather Cert.KernelIdeal.gather_S50000x128_S850000x1_S850000x128_1_0_n_n_0_1_1128 (scaled H W (kDinv2 e)) (fix850 (kRow e)))
        Cert.KernelIdeal.Gen.bitsLt_bf16_f32 : FVec Ideal S850000x128 .f32) (ix2 k c)
      = prodAt H W (srcRow e k) c * kDinv e (ix1 (srcRow e k)) := by
  rw [extf_apply]
  refine (Cert.GatherRow.gather_row_apply (N := 50000) (D := 128) (R := 850000) (by decide)
    Cert.KernelIdeal.Gen.gather_S50000x128_S850000x1_S850000x128_1_0_n_n_0_1_1128_wf (scaled H W (kDinv2 e)) (fix850 (kRow e)) k c).trans ?_
  show scaled H W (kDinv2 e) (ix2 (srcRow e k) c) = _
  rw [scaled_ix2]
  unfold scaledAt
  rw [dinv2_apply]

/-- The reference's normaliser of edge k: dinv at its source row times dinv at its target row. -/
theorem rNorm_apply (e : IVec S2x800000 32) (k : Fin 850000) (c : Fin 128) :
    (broadcastInDim S850000x128 ![0, 1] bcast_S850000x1_S850000x128_0_1
        (broadcastInDim S850000x1 ![0] bcast_S850000_S850000x1_0
          (mulf (Host.gather gather_S50000_S850000x1_S850000_n_0_n_n_0_1_1 (kDinv e) (fix850 (kRow e)))
            (Host.gather gather_S50000_S850000x1_S850000_n_0_n_n_0_1_1 (kDinv e) (fix850 (kCol e))))) : FVec Ideal S850000x128 .f32) (ix2 k c)
      = kDinv e (ix1 (srcRow e k)) * kDinv e (ix1 (tgtRow e k)) := by
  rw [Cert.LibBcastIn.cols_apply _ rfl rfl, Cert.LibBcastIn.col1_apply _ rfl, mulf_apply]
  exact congrArg₂ (· * ·)
    (Cert.LibGatherEntry.gather_entry_apply (N := 50000) (R := 850000) (by decide)
      gather_S50000_S850000x1_S850000_n_0_n_n_0_1_1_wf (kDinv e) (fix850 (kRow e)) k)
    (Cert.LibGatherEntry.gather_entry_apply (N := 50000) (R := 850000) (by decide)
      gather_S50000_S850000x1_S850000_n_0_n_n_0_1_1_wf (kDinv e) (fix850 (kCol e)) k)

/-- The reference's message of edge k, column c, before the normaliser: the product's row srcRow k. -/
theorem rMsg_apply (H : FVec Ideal S50000x128 .f32) (W : FVec Ideal S128x128 .f32) (e : IVec S2x800000 32) (k : Fin 850000) (c : Fin 128) :
    Host.gather gather_S50000x128_S850000x1_S850000x128_1_0_n_n_0_1_1128
        (Host.dotGeneral dot_S50000x128_S128x128_S50000x128_1_0_0_1_n_n none H W) (fix850 (kRow e)) (ix2 k c)
      = prodAt H W (srcRow e k) c :=
  (Cert.GatherRow.gather_row_apply (N := 50000) (D := 128) (R := 850000) (by decide)
    gather_S50000x128_S850000x1_S850000x128_1_0_n_n_0_1_1128_wf _ (fix850 (kRow e)) k c).trans (rdotB H W (srcRow e k) c)

/-- An edge whose target, read signed, is the row number n: the reference's normaliser row for it is n. -/
theorem tgtRow_of_landing (e : IVec S2x800000 32) (k : Fin 850000) (n : Fin 50000)
    (h : ((broadcastInDim S850000x1 ![0] bcast_S850000_S850000x1_0 (kCol e) : IVec S850000x1 32) (ix2 k (0 : Fin 1))).toInt = (n.val : Int)) :
    tgtRow e k = n := by
  rw [Cert.LibBcastIn.col1_apply _ rfl] at h
  apply Fin.ext
  show min (fix850 (kCol e) (ix2 k (0 : Fin 1))).toInt.toNat (50000 - 1) = n.val
  unfold fix850
  rw [Cert.LibBcastIn.col1_apply _ rfl]
  exact fix_clamp_of_row (kCol e (ix1 k)) 50000#32 50000 n.val n.isLt h

/-- The two programs' scatter records are the row-scatter record of the lemma file. -/
theorem kScatter_eq : Cert.KernelIdeal.scatter_S50000x128_S850000x1_S850000x128_1_0_0_1
    = Cert.LibScatterRows.rowDims 50000 128 850000 Cert.KernelIdeal.Gen.scatter_S50000x128_S850000x1_S850000x128_1_0_0_1_wf := rfl
theorem rScatter_eq : scatter_S50000x128_S850000x1_S850000x128_1_0_0_1
    = Cert.LibScatterRows.rowDims 50000 128 850000 Cert.KernelIdeal.Gen.scatter_S50000x128_S850000x1_S850000x128_1_0_0_1_wf := rfl

/-- The kernel's layer at an entry: the aggregate times dinv, plus bias, rectified. -/
theorem kConv_apply (H : FVec Ideal S50000x128 .f32) (W : FVec Ideal S128x128 .f32) (b : FVec Ideal S128 .f32) (e : IVec S2x800000 32)
    (n : Fin 50000) (q : Fin 128) :
    kConv H W b e (ix2 n q) = max (kAgg (scaled H W (kDinv2 e)) e (ix2 n q) * kDinv e (ix1 n) + b (ix1 q)) zr := by
  unfold kConv
  rw [rescaled_ix2]
  unfold rescaledAt
  rw [dinv2_apply]

/-- The reference's layer at an entry: the normalised aggregate plus bias, rectified. -/
theorem rConv_apply (H : FVec Ideal S50000x128 .f32) (W : FVec Ideal S128x128 .f32) (b : FVec Ideal S128 .f32) (e : IVec S2x800000 32)
    (n : Fin 50000) (q : Fin 128) :
    rConv H W b e (ix2 n q)
      = max (Host.scatterAdd scatter_S50000x128_S850000x1_S850000x128_1_0_0_1
          (broadcastInDim S50000x128 ![] bcast_S_S50000x128 (constant S_ .f32 0x00000000#32))
          (broadcastInDim S850000x1 ![0] bcast_S850000_S850000x1_0 (kCol e))
          (mulf
            (Host.gather gather_S50000x128_S850000x1_S850000x128_1_0_n_n_0_1_1128
              (Host.dotGeneral dot_S50000x128_S128x128_S50000x128_1_0_0_1_n_n none H W) (fix850 (kRow e)))
            (broadcastInDim S850000x128 ![0, 1] bcast_S850000x1_S850000x128_0_1
              (broadcastInDim S850000x1 ![0] bcast_S850000_S850000x1_0
                (mulf (Host.gather gather_S50000_S850000x1_S850000_n_0_n_n_0_1_1 (kDinv e) (fix850 (kRow e)))
                  (Host.gather gather_S50000_S850000x1_S850000_n_0_n_n_0_1_1 (kDinv e) (fix850 (kCol e)))))))
          (ix2 n q) + b (ix1 q)) zr := by
  unfold rConv
  rw [maximumf_apply, addf_apply, Cert.LibBcastIn.biasRow_apply _ rfl _ _ rfl rfl, Cert.LibBcastIn.scalar_apply, constant_apply]

/-- The kernel's layer is the reference's layer, for any incoming features. -/
theorem conv_eq (H : FVec Ideal S50000x128 .f32) (W : FVec Ideal S128x128 .f32) (b : FVec Ideal S128 .f32) (e : IVec S2x800000 32) :
    kConv H W b e = rConv H W b e := by
  funext j
  obtain ⟨n, q, rfl⟩ : ∃ (n : Fin 50000) (q : Fin 128), j = ix2 n q := ⟨j 0, j 1, eq_ix2 j⟩
  rw [kConv_apply, rConv_apply]
  refine congrArg (fun v => max (v + b (ix1 q)) zr) ?_
  unfold kAgg
  rw [kScatter_eq, rScatter_eq]
  exact scatter_scale (N := 50000) (D := 128) (R := 850000)
    Cert.KernelIdeal.Gen.scatter_S50000x128_S850000x1_S850000x128_1_0_0_1_wf _ _ _ _ _
    (fun i => prodAt H W (i 0) (i 1)) (fun k => kDinv e (ix1 k)) (dinv_nonneg e) (srcRow e) (tgtRow e)
    (kMsg_apply H W e)
    (fun k c => by rw [mulf_apply, rMsg_apply, rNorm_apply])
    (tgtRow_of_landing e) n q
    ((Cert.LibBcastIn.scalar_apply _ _ _ _).trans ((constant_apply _ _).trans Ideal.ofBits_zero_f32))
    ((Cert.LibBcastIn.scalar_apply _ _ _ _).trans ((constant_apply _ _).trans Ideal.ofBits_zero_f32))

end Cert.Bridge

end
-- ==== Proof.LibConcatPair.lean ====
/-
  Two arrays laid side by side along one axis, read at an entry.

  Two matrices [n, a] and [n, b] concatenated along their columns give [n, c], with c = a + b by the concatenation's own
  side condition: column q < a is column q of the first, column a + j is column j of the second. The same for two
  vectors of a and b entries concatenated into one of c. Library imports only.
-/
import Idealize.ShloMosaic.Lib.Pipeline.Value
import Idealize.ShloMosaic.Lib.ValueIdx

noncomputable section

namespace Cert.LibConcatPair

open Idealize.ShloMosaic Idealize.ShloMosaic.ValueIdx

variable {α : Type}

/-- A column of the left matrix: entry (k, q) of the pair, for q = j below the first extent, is entry (k, j) of the
    first. -/
theorem cols_left {n a b c : ℕ} (x : (⟨2, ![n, a]⟩ : Shape).Idx → α) (y : (⟨2, ![n, b]⟩ : Shape).Idx → α)
    (hc : Shape.Concatenates [(⟨2, ![n, a]⟩ : Shape), ⟨2, ![n, b]⟩] ⟨2, ![n, c]⟩ 1)
    (k : Fin n) (j : Fin a) (q : Fin c) (hq : q.val = j.val) :
    concatenate ⟨2, ![n, c]⟩ 1 [⟨⟨2, ![n, a]⟩, x⟩, ⟨⟨2, ![n, b]⟩, y⟩] hc (ix2 k q) = x (ix2 k j) :=
  concatenate_pair_apply_left 1 x y hc (ix2 k q) rfl (ix2 k j) (fun d => by
    match d with
    | ⟨0, _⟩ => rfl
    | ⟨1, _⟩ => exact hq.symm)

/-- A column of the right matrix: entry (k, q) of the pair, for q = a + j, is entry (k, j) of the second. -/
theorem cols_right {n a b c : ℕ} (x : (⟨2, ![n, a]⟩ : Shape).Idx → α) (y : (⟨2, ![n, b]⟩ : Shape).Idx → α)
    (hc : Shape.Concatenates [(⟨2, ![n, a]⟩ : Shape), ⟨2, ![n, b]⟩] ⟨2, ![n, c]⟩ 1)
    (k : Fin n) (j : Fin b) (q : Fin c) (hq : q.val = a + j.val) :
    concatenate ⟨2, ![n, c]⟩ 1 [⟨⟨2, ![n, a]⟩, x⟩, ⟨⟨2, ![n, b]⟩, y⟩] hc (ix2 k q) = y (ix2 k j) :=
  concatenate_pair_apply_right 1 x y hc (ix2 k q) rfl rfl (ix2 k j) (fun d hd => by
    match d, hd with
    | ⟨0, _⟩, _ => rfl
    | ⟨1, _⟩, hd => exact (hd (Fin.ext rfl)).elim) (by show j.val + a = q.val; omega)

/-- An entry of the left vector. -/
theorem vec_left {a b c : ℕ} (x : (⟨1, ![a]⟩ : Shape).Idx → α) (y : (⟨1, ![b]⟩ : Shape).Idx → α)
    (hc : Shape.Concatenates [(⟨1, ![a]⟩ : Shape), ⟨1, ![b]⟩] ⟨1, ![c]⟩ 0)
    (j : Fin a) (q : Fin c) (hq : q.val = j.val) :
    concatenate ⟨1, ![c]⟩ 0 [⟨⟨1, ![a]⟩, x⟩, ⟨⟨1, ![b]⟩, y⟩] hc (ix1 q) = x (ix1 j) :=
  concatenate_pair_apply_left 0 x y hc (ix1 q) rfl (ix1 j) (fun d => by
    match d with
    | ⟨0, _⟩ => exact hq.symm)

/-- An entry of the right vector. -/
theorem vec_right {a b c : ℕ} (x : (⟨1, ![a]⟩ : Shape).Idx → α) (y : (⟨1, ![b]⟩ : Shape).Idx → α)
    (hc : Shape.Concatenates [(⟨1, ![a]⟩ : Shape), ⟨1, ![b]⟩] ⟨1, ![c]⟩ 0)
    (j : Fin b) (q : Fin c) (hq : q.val = a + j.val) :
    concatenate ⟨1, ![c]⟩ 0 [⟨⟨1, ![a]⟩, x⟩, ⟨⟨1, ![b]⟩, y⟩] hc (ix1 q) = y (ix1 j) :=
  concatenate_pair_apply_right 0 x y hc (ix1 q) rfl rfl (ix1 j) (fun d hd => by
    match d, hd with
    | ⟨0, _⟩, hd => exact (hd (Fin.ext rfl)).elim) (by show j.val + a = q.val; omega)

end Cert.LibConcatPair

end
-- ==== Proof.LibSliceRows.lean ====
/-
  A block of consecutive rows cut out of a taller matrix, read at an entry.

  For an [r, c] matrix A, the slice of b rows starting at row o (all c columns, unit strides) reads, at (i, j), the
  entry (o + i, j) of A.  What a host program's split of a stacked weight matrix into its row blocks needs: the product
  of a concatenated row with the stacked matrix is the sum of the products of the parts with these blocks.
  Library imports only.
-/
import Idealize.ShloMosaic.Lib.Pipeline.Value
import Idealize.ShloMosaic.Lib.ValueIdx

namespace Cert.LibSliceRows

open Idealize.ShloMosaic Idealize.ShloMosaic.ValueIdx

/-- Rows o … o + b - 1 of an [r, c] matrix, at (i, j): the matrix at (o + i, j). -/
theorem rows_apply {α : Type} {r b c : ℕ} (o : ℕ) (A : (⟨2, ![r, c]⟩ : Shape).Idx → α)
    (hs : (⟨2, ![r, c]⟩ : Shape).Slices ![o, 0] ⟨2, ![b, c]⟩) (i : Fin b) (j : Fin c) (ho : o + i.val < r) :
    extractStridedSlice ⟨2, ![b, c]⟩ ![o, 0] A hs (ix2 i j) = A (ix2 (⟨o + i.val, ho⟩ : Fin r) j) := by
  refine extractStridedSlice_apply ![o, 0] A hs (ix2 i j) (ix2 (⟨o + i.val, ho⟩ : Fin r) j) fun ax => ?_
  match ax with
  | ⟨0, _⟩ => rfl
  | ⟨1, _⟩ => show j.val = 0 + j.val; omega

end Cert.LibSliceRows
-- ==== Proof.BridgeEdge.lean ====
/-
  The edge scorer: the kernel's arrangement equals the reference's, entry by entry.

  For edge k both read row src k and row dst k of the final features (the same gather: the index brought into range,
  then clamped).  The reference lays the two rows side by side and multiplies by the stacked 256 × 128 weight matrix;
  the kernel multiplies each row by its half of the matrix (rows 0 … 127, rows 128 … 255) and adds.  A sum over 256
  indices is the sum over the first 128 plus the sum over the last 128, so the hidden units agree; bias, rectifier, the
  output product and the output bias are then the same operations on both sides.  Nothing is asked of the features.
-/
import proofs.«169392_j85744727097867_2_alg».proof.Proof.BridgeLib
import proofs.«169392_j85744727097867_2_alg».proof.Proof.LibGatherRow
import proofs.«169392_j85744727097867_2_alg».proof.Proof.LibConcatPair
import proofs.«169392_j85744727097867_2_alg».proof.Proof.LibSliceRows

set_option maxRecDepth 16384

noncomputable section

namespace Cert.Bridge

open Cert.ReferenceIdeal Cert.ReferenceIdeal.Gen Cert.ReferenceIdeal.ReadP Cert.ReferenceIdeal.Hand Cert.Gcn
open Cert.KernelIdeal.Hand (zr kSrc kDst kRow kCol kDeg kDinv kDinv2 fix850 fix800)
open Idealize.ShloMosaic Idealize.ShloMosaic.ValueIdx
open scoped BigOperators

/-- The row that an endpoint index names: brought into range, then clamped. -/
def endRow (v : IVec S800000 32) (k : Fin 800000) : Fin 50000 :=
  ⟨min (fix800 v (ix2 k (0 : Fin 1))).toInt.toNat (50000 - 1), by omega⟩

/-- The kernel's gather of endpoint rows, at an entry. -/
theorem kGather_apply (H : FVec Ideal S50000x128 .f32) (v : IVec S800000 32) (k : Fin 800000) (i : Fin 128) :
    Host.gather Cert.KernelIdeal.gather_S50000x128_S800000x1_S800000x128_1_0_n_n_0_1_1128 H (fix800 v) (ix2 k i)
      = H (ix2 (endRow v k) i) :=
  Cert.GatherRow.gather_row_apply (N := 50000) (D := 128) (R := 800000) (by decide)
    Cert.KernelIdeal.Gen.gather_S50000x128_S800000x1_S800000x128_1_0_n_n_0_1_1128_wf H (fix800 v) k i

/-- The reference's gather of endpoint rows, at an entry. -/
theorem rGather_apply (H : FVec Ideal S50000x128 .f32) (v : IVec S800000 32) (k : Fin 800000) (i : Fin 128) :
    Host.gather gather_S50000x128_S800000x1_S800000x128_1_0_n_n_0_1_1128 H (fix800 v) (ix2 k i)
      = H (ix2 (endRow v k) i) :=
  Cert.GatherRow.gather_row_apply (N := 50000) (D := 128) (R := 800000) (by decide)
    gather_S50000x128_S800000x1_S800000x128_1_0_n_n_0_1_1128_wf H (fix800 v) k i

/-- The product of the two rows laid side by side with the stacked matrix is the sum of the two half products. -/
theorem split_prod (A B : FVec Ideal S800000x128 .f32) (x8 : FVec Ideal S256x128 .f32) (k : Fin 800000) (j : Fin 128) :
    prodAt A (extractStridedSlice S128x128 ![0, 0] x8 Cert.KernelIdeal.Gen.slices_S256x128_S128x128_0_0) k j
      + prodAt B (extractStridedSlice S128x128 ![128, 0] x8 Cert.KernelIdeal.Gen.slices_S256x128_S128x128_128_0) k j
    = prodAt (concatenate S800000x256 1 [⟨S800000x128, A⟩, ⟨S800000x128, B⟩] concatenates_S800000x128_S800000x128_S800000x256_d1) x8 k j := by
  unfold prodAt
  rw [sum_split_256]
  refine congrArg₂ (· + ·) (Finset.sum_congr rfl fun i _ => ?_) (Finset.sum_congr rfl fun i _ => ?_)
  · refine congrArg₂ (· * ·) ?_ ?_
    · exact (Cert.LibConcatPair.cols_left A B concatenates_S800000x128_S800000x128_S800000x256_d1 k i ⟨i.val, by omega⟩ rfl).symm
    · exact (Cert.LibSliceRows.rows_apply 0 x8 Cert.KernelIdeal.Gen.slices_S256x128_S128x128_0_0 i j (by omega)).trans
        (congrArg (fun r : Fin 256 => x8 (ix2 r j)) (Fin.ext (Nat.zero_add _)))
  · refine congrArg₂ (· * ·) ?_ ?_
    · exact (Cert.LibConcatPair.cols_right A B concatenates_S800000x128_S800000x128_S800000x256_d1 k i ⟨128 + i.val, by omega⟩ rfl).symm
    · exact Cert.LibSliceRows.rows_apply 128 x8 Cert.KernelIdeal.Gen.slices_S256x128_S128x128_128_0 i j (by omega)

/-- The kernel's scorer is the reference's scorer, for any final features. -/
theorem edge_eq (H : FVec Ideal S50000x128 .f32) (e : IVec S2x800000 32) (x8 : FVec Ideal S256x128 .f32) (x9 : FVec Ideal S128 .f32)
    (x10 : FVec Ideal S128x1 .f32) (x11 : FVec Ideal S1 .f32) :
    edgeMlp zr
      (Host.gather Cert.KernelIdeal.gather_S50000x128_S800000x1_S800000x128_1_0_n_n_0_1_1128 H (fix800 (kSrc e)))
      (Host.gather Cert.KernelIdeal.gather_S50000x128_S800000x1_S800000x128_1_0_n_n_0_1_1128 H (fix800 (kDst e)))
      (extractStridedSlice S128x128 ![0, 0] x8 Cert.KernelIdeal.Gen.slices_S256x128_S128x128_0_0)
      (extractStridedSlice S128x128 ![128, 0] x8 Cert.KernelIdeal.Gen.slices_S256x128_S128x128_128_0) x9 x10 x11
    = rEdge H e x8 x9 x10 x11 := by
  -- the two gathers are the same arrays on both sides
  have hS : Host.gather Cert.KernelIdeal.gather_S50000x128_S800000x1_S800000x128_1_0_n_n_0_1_1128 H (fix800 (kSrc e))
      = Host.gather gather_S50000x128_S800000x1_S800000x128_1_0_n_n_0_1_1128 H (fix800 (kSrc e)) := by
    funext y
    obtain ⟨k, i, rfl⟩ : ∃ (k : Fin 800000) (i : Fin 128), y = ix2 k i := ⟨y 0, y 1, eq_ix2 y⟩
    rw [kGather_apply, rGather_apply]
  have hD : Host.gather Cert.KernelIdeal.gather_S50000x128_S800000x1_S800000x128_1_0_n_n_0_1_1128 H (fix800 (kDst e))
      = Host.gather gather_S50000x128_S800000x1_S800000x128_1_0_n_n_0_1_1128 H (fix800 (kDst e)) := by
    funext y
    obtain ⟨k, i, rfl⟩ : ∃ (k : Fin 800000) (i : Fin 128), y = ix2 k i := ⟨y 0, y 1, eq_ix2 y⟩
    rw [kGather_apply, rGather_apply]
  rw [hS, hD]
  funext y
  obtain ⟨k, u, rfl⟩ : ∃ (k : Fin 800000) (u : Fin 1), y = ix2 k u := ⟨y 0, y 1, eq_ix2 y⟩
  obtain rfl : u = 0 := Subsingleton.elim _ _
  rw [edgeMlp_ix2]
  unfold edgeAt rEdge
  rw [addf_apply, rdotD, Cert.LibBcastIn.biasRow_apply _ rfl _ _ rfl rfl]
  refine congrArg (· + x11 (ix1 (0 : Fin 1))) ?_
  unfold prodAt
  refine Finset.sum_congr rfl fun j _ => ?_
  refine congrArg (· * x10 (ix2 j (0 : Fin 1))) ?_
  rw [maximumf_apply, addf_apply, rdotC, Cert.LibBcastIn.biasRow_apply _ rfl _ _ rfl rfl, Cert.LibBcastIn.scalar_apply]
  unfold hiddenAt
  exact congrArg (fun v => max (v + x9 (ix1 j)) zr) (split_prod _ _ x8 k j)

end Cert.Bridge

end
-- ==== Proof.lean ====
/-
  A two-layer graph convolution network with an edge scorer: the kernel program against its reference, at the ideal
  reading (floats are extended reals, every operation exact, a change of float format the identity).

  Both programs derive from the edge list the arrays row, col (the edges with a self loop per node appended), the
  in-degree deg and the normaliser dinv = 1/sqrt deg where deg > 0, else 0.  Both compute H0 = max (x · W_in + b_in, 0),
  apply a convolution layer twice, and score every edge from the final features of its two endpoints.
    The layer.  With XW = H · W, the reference adds XW[row k] · (dinv[row k] · dinv[col k]) into row col k, adds the
  bias and rectifies.  The kernel adds (XW · dinv)[row k] into row col k, multiplies row n of the sums by dinv n, adds the
  bias and rectifies.  Every edge landing on row n has col k = n, and dinv n is a real number >= 0, so the sums agree
  entry by entry: a finite sum of extended reals times a real factor >= 0 is the sum of the scaled terms (LibConvLaw.lean,
  BridgeConv.lean).  No finiteness of the features is used, so the precondition is never opened.
    The scorer.  The reference lays the two endpoint rows side by side and multiplies by the stacked weight matrix;
  the kernel multiplies each row by its half of the matrix and adds: a sum over 256 indices split in two
  (BridgeEdge.lean).
    The kernel side.  The program is six pipelined regions among stretches of host operations.  Each region's result
  array is a row-wise layer of its whole input arrays (Region0 … Region5: the block written at a grid point is that block
  of the layer, and the blocks tile the array); the buffers are followed from boundary to boundary
  (KernelValueA … C) to the result vector, which the run with its result named (KernelRun.lean) reads.
    The reference side is its run read back, and its stages regrouped at the feature matrices (RefTerms.lean).
-/
import proofs.«169392_j85744727097867_2_alg».proof.Defs
import proofs.«169392_j85744727097867_2_alg».proof.Proof.Gen.Kernel
import proofs.«169392_j85744727097867_2_alg».proof.Proof.Gen.Kernel.Frame
import proofs.«169392_j85744727097867_2_alg».proof.Proof.Gen.KernelIdeal
import proofs.«169392_j85744727097867_2_alg».proof.Proof.Gen.KernelIdeal.Frame
import proofs.«169392_j85744727097867_2_alg».proof.Proof.Gen.ReferenceIdeal
import proofs.«169392_j85744727097867_2_alg».proof.Proof.Gen.Pre_finite_inputs
import proofs.«169392_j85744727097867_2_alg».proof.Proof.RefRun
import proofs.«169392_j85744727097867_2_alg».proof.Proof.RefRead
import proofs.«169392_j85744727097867_2_alg».proof.Proof.KernelRun
import proofs.«169392_j85744727097867_2_alg».proof.Proof.KernelValueC
import proofs.«169392_j85744727097867_2_alg».proof.Proof.BridgeConv
import proofs.«169392_j85744727097867_2_alg».proof.Proof.BridgeEdge
import Idealize.ShloMosaic.Adequacy
import Idealize.ShloMosaic.Init

set_option maxRecDepth 16384

noncomputable section

namespace Cert.Proof

open Idealize.ShloMosaic Idealize.ShloMosaic.TcCoe Idealize.SL.Sem

section Value

open Cert.ReferenceIdeal Cert.ReferenceIdeal.Gen Cert.ReferenceIdeal.ReadP Cert.ReferenceIdeal.Hand Cert.Gcn Cert.Bridge
open Cert.KernelIdeal.Hand (zr kOut)

variable (x0 : FVec Ideal S50000x96 .f32) (x1 : IVec S2x800000 32) (x2 : FVec Ideal S96x128 .f32) (x3 : FVec Ideal S128 .f32)
    (x4 : FVec Ideal S128x128 .f32) (x5 : FVec Ideal S128 .f32) (x6 : FVec Ideal S128x128 .f32) (x7 : FVec Ideal S128 .f32)
    (x8 : FVec Ideal S256x128 .f32) (x9 : FVec Ideal S128 .f32) (x10 : FVec Ideal S128x1 .f32) (x11 : FVec Ideal S1 .f32)

/-- The kernel's result vector is the reference's, as functions of the twelve argument arrays. -/
theorem out_eq : kOut x0 x1 x2 x3 x4 x5 x6 x7 x8 x9 x10 x11 = val_main_v121 (F := Ideal) x0 x1 x2 x3 x4 x5 x6 x7 x8 x9 x10 x11 := by
  have h0 := dense_eq x0 x2 x3
  have h1 := conv_eq (val_main_v8 (F := Ideal) x0 x2 x3) x4 x5 x1
  have h2 := conv_eq (val_main_v52 (F := Ideal) x0 x1 x2 x3 x4 x5) x6 x7 x1
  have h3 := edge_eq (val_main_v96 (F := Ideal) x0 x1 x2 x3 x4 x5 x6 x7) x1 x8 x9 x10 x11
  rw [v121_eq, v120_eq, ← h3, v96_eq, ← h2, v52_eq, ← h1, ← h0]
  rfl

end Value

theorem frame_k : Cert.frame_Kernel := fun m ρ _ => Cert.Kernel.Gen.frame m ρ

theorem frame_ki : Cert.frame_KernelIdeal := fun m ρ _ => Cert.KernelIdeal.Gen.frame m ρ

/-- The reference's frame: its run read back, the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- From memories agreeing on the arguments both programs end with the same result vector, entry by entry. -/
theorem algebraic : Cert.algebraic_KernelIdeal_ReferenceIdeal := by
  intro m ρ m' ρ' _ hagree
  refine ⟨fun c => Cert.KernelIdeal.Hand.kOut
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11)), ?_, ?_⟩
  · refine (θ_run Cert.KernelIdeal.defs _ _).mono (fun r h c => ?_) (Cert.KernelIdeal.Hand.run_result m ρ)
    exact ⟨(h c).1.trans (Cert.KernelIdeal.Hand.W13_v60 m ρ c), (h c).2⟩
  · refine (θ_run Cert.ReferenceIdeal.defs _ _).mono (fun r h c => ⟨(h c).1.trans ?_, (h c).2⟩)
      (Cert.ReferenceIdeal.ValueP.run (F := Ideal) m' ρ')
    obtain ⟨a0, a1, a2, a3, a4, a5, a6, a7, a8, a9, a10, a11⟩ := hagree c
    rw [Cert.ReferenceIdeal.ReadP.val_main_v121_eq, a0, a1, a2, a3, a4, a5, a6, a7, a8, a9, a10, a11]
    exact (out_eq _ _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
